-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x32 : Shape := ⟨2, ![800000, 32]⟩
abbrev S800000x64 : Shape := ⟨2, ![800000, 64]⟩
abbrev S96x96 : Shape := ⟨2, ![96, 96]⟩
abbrev S96 : Shape := ⟨1, ![96]⟩
abbrev S64x192 : Shape := ⟨2, ![64, 192]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S800000x64 : S_.BroadcastsInDim S800000x64 (![] : Fin 0 → Fin S800000x64.rank)
  reducesTo_S800000x64_S_d0_1 : S800000x64.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S96 .f32) (main_v63 : IVec S_ 1) (main_v67 : IVec S_ 1) : IVec S_ 1 :=
  let main_v68 : IVec S_ 1 := andi main_v63 main_v67
  let main_v69 : FVec F S96 .f32 := Host.absf main_arg15
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S96 .f32) (main_arg15 : FVec F S96 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg15 main_v63 main_v67

def fn_part2 {F : FTy → Type} [FloatOps F] (main_arg8 : FVec F S1x64 .f32) (main_arg9 : FVec F S1 .f32) (main_arg10 : FVec F S96x96 .f32) (main_arg11 : FVec F S96 .f32) (main_arg12 : FVec F S64 .f32) (main_arg13 : FVec F S64 .f32) (main_arg14 : FVec F S96 .f32) (main_arg15 : FVec F S96 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S96x96 .f32 := Host.absf main_arg10
  let main_cst_16 : FVec F S_ .f32 := constant S_ .f32 0x7F800000#32
  let main_v45 : FVec F S96x96 .f32 := broadcastInDim S96x96 ![] bcast_S_S96x96 main_cst_16
  let main_v46 : IVec S96x96 1 := cmpf .olt main_v44 main_v45
  let main_c_17 : IVec S_ 1 := constantI S_ 1 1#1
  let main_v47 : IVec S_ 1 := (fun x v => Host.reduce IntOp.andi x v reducesTo_S96x96_S_d0_1 h_S_) main_v46 main_c_17
  let main_v48 : IVec S_ 1 := andi main_v43 main_v47
  let main_v49 : FVec F S96 .f32 := Host.absf main_arg11
  let main_cst_18 : FVec F S_ .f32 := constant S_ .f32 0x7F800000#32
  let main_v50 : FVec F S96 .f32 := broadcastInDim S96 ![] bcast_S_S96 main_cst_18
  fn_part3 (F := F) main_arg12 main_arg13 main_arg14 main_arg15 main_v48 main_v49 main_v50

def fn_part1 {F : FTy → Type} [FloatOps F] (main_arg5 : FVec F S96 .f32) (main_arg6 : FVec F S64x192 .f32) (main_arg7 : FVec F S64 .f32) (main_arg8 : FVec F S1x64 .f32) (main_arg9 : FVec F S1 .f32) (main_arg10 : FVec F S96x96 .f32) (main_arg11 : FVec F S96 .f32) (main_arg12 : FVec F S64 .f32) (main_arg13 : FVec F S64 .f32) (main_arg14 : FVec F S96 .f32) (main_arg15 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S64x192 .f32 := Host.absf main_arg6
  let main_cst_8 : FVec F S_ .f32 := constant S_ .f32 0x7F800000#32
  let main_v25 : FVec F S64x192 .f32 := broadcastInDim S64x192 ![] bcast_S_S64x192 main_cst_8
  let main_v26 : IVec S64x192 1 := cmpf .olt main_v24 main_v25
  let main_c_9 : IVec S_ 1 := constantI S_ 1 1#1
  let main_v27 : IVec S_ 1 := (fun x v => Host.reduce IntOp.andi x v reducesTo_S64x192_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x96 .f32) (main_arg1 : IVec S2x800000 32) (main_arg2 : FVec F S800000x32 .f32) (main_arg3 : FVec F S800000x64 .f32) (main_arg4 : FVec F S96x96 .f32) (main_arg5 : FVec F S96 .f32) (main_arg6 : FVec F S64x192 .f32) (main_arg7 : FVec F S64 .f32) (main_arg8 : FVec F S1x64 .f32) (main_arg9 : FVec F S1 .f32) (main_arg10 : FVec F S96x96 .f32) (main_arg11 : FVec F S96 .f32) (main_arg12 : FVec F S64 .f32) (main_arg13 : FVec F S64 .f32) (main_arg14 : FVec F S96 .f32) (main_arg15 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S800000x64 .f32 := Host.absf main_arg3
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x96 : Shape := ⟨2, ![50000, 96]⟩
abbrev S2x800000 : Shape := ⟨2, ![2, 800000]⟩
abbrev S800000x32 : Shape := ⟨2, ![800000, 32]⟩
abbrev S800000x64 : Shape := ⟨2, ![800000, 64]⟩
abbrev S96x96 : Shape := ⟨2, ![96, 96]⟩
abbrev S96 : Shape := ⟨1, ![96]⟩
abbrev S64x192 : Shape := ⟨2, ![64, 192]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S1x1 : Shape := ⟨2, ![1, 1]⟩
abbrev S6400x96 : Shape := ⟨2, ![6400, 96]⟩
abbrev S6400x32 : Shape := ⟨2, ![6400, 32]⟩
abbrev S6400x64 : Shape := ⟨2, ![6400, 64]⟩
abbrev S6400x1 : Shape := ⟨2, ![6400, 1]⟩
abbrev S6400x192 : Shape := ⟨2, ![6400, 192]⟩
abbrev S192x64 : Shape := ⟨2, ![192, 64]⟩
abbrev S64x1 : Shape := ⟨2, ![64, 1]⟩
abbrev S50000 : Shape := ⟨1, ![50000]⟩
abbrev S5000x96 : Shape := ⟨2, ![5000, 96]⟩

abbrev nBuf : Space → Nat
  | .hbm => 169
  | .vmem => 43
  | .smem => 0
  | _ => 0

abbrev hbmTy0_0 (i : Nat) : BufTy := match i % 128 with
  | 0 => ⟨S50000x96, .f32⟩
  | 1 => ⟨S2x800000, .i32⟩
  | 2 => ⟨S800000x32, .f32⟩
  | 3 => ⟨S800000x64, .f32⟩
  | 4 => ⟨S96x96, .f32⟩
  | 5 => ⟨S96, .f32⟩
  | 6 => ⟨S64x192, .f32⟩
  | 7 => ⟨S64, .f32⟩
  | 8 => ⟨S1x64, .f32⟩
  | 9 => ⟨S1, .f32⟩
  | 10 => ⟨S96x96, .f32⟩
  | 11 => ⟨S96, .f32⟩
  | 12 => ⟨S64, .f32⟩
  | 13 => ⟨S64, .f32⟩
  | 14 => ⟨S96, .f32⟩
  | 15 => ⟨S96, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x96, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x96, .f32⟩
  | 38 => ⟨S1x96, .f32⟩
  | 39 => ⟨S1x64, .f32⟩
  | 40 => ⟨S1x1, .f32⟩
  | 41 => ⟨S1x64, .f32⟩
  | 42 => ⟨S1x64, .f32⟩
  | 43 => ⟨S1x96, .f32⟩
  | 44 => ⟨S1x96, .f32⟩
  | 45 => ⟨S800000x64, .f32⟩
  | 46 => ⟨S800000x1, .f32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S800000x64, .f32⟩
  | 61 => ⟨S800000x64, .f32⟩
  | 62 => ⟨S800000x64, .f32⟩
  | 63 => ⟨S_, .f32⟩
  | 64 => ⟨S_, .f32⟩
  | 65 => ⟨S_, .f32⟩
  | 66 => ⟨S_, .f32⟩
  | 67 => ⟨S64, .f32⟩
  | 68 => ⟨S1x64, .f32⟩
  | 69 => ⟨S1x64, .f32⟩
  | 70 => ⟨S1x64, .f32⟩
  | 71 => ⟨S_, .f32⟩
  | 72 => ⟨S_, .i1⟩
  | 73 => ⟨S_, .f32⟩
  | 74 => ⟨S_, .f32⟩
  | 75 => ⟨S1x64, .f32⟩
  | 76 => ⟨S1x64, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .i1⟩
  | 88 => ⟨S_, .f32⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S50000x96, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x96, .f32⟩
  | 127 => ⟨S800000x1, .f32⟩
  | _ => ⟨S50000x96, .f32⟩

abbrev hbmTy0_1 (i : Nat) : BufTy := match i % 128 with
  | 0 => ⟨S800000x96, .f32⟩
  | 1 => ⟨S800000x96, .f32⟩
  | 2 => ⟨S_, .f32⟩
  | 3 => ⟨S50000x96, .f32⟩
  | 4 => ⟨S800000x1, .i32⟩
  | 5 => ⟨S50000x96, .f32⟩
  | 6 => ⟨S1x96, .f32⟩
  | 7 => ⟨S50000x96, .f32⟩
  | 8 => ⟨S50000x96, .f32⟩
  | 9 => ⟨S_, .f32⟩
  | 10 => ⟨S96, .f32⟩
  | 11 => ⟨S1x96, .f32⟩
  | 12 => ⟨S_, .f32⟩
  | 13 => ⟨S1x96, .f32⟩
  | 14 => ⟨S1x96, .f32⟩
  | 15 => ⟨S_, .i32⟩
  | 16 => ⟨S_, .f32⟩
  | 17 => ⟨S96, .f32⟩
  | 18 => ⟨S1x96, .f32⟩
  | 19 => ⟨S_, .f32⟩
  | 20 => ⟨S1x96, .f32⟩
  | 21 => ⟨S1x96, .f32⟩
  | 22 => ⟨S50000x96, .f32⟩
  | 23 => ⟨S50000x96, .f32⟩
  | 24 => ⟨S50000x96, .f32⟩
  | 25 => ⟨S_, .f32⟩
  | 26 => ⟨S_, .f32⟩
  | 27 => ⟨S_, .f32⟩
  | 28 => ⟨S_, .f32⟩
  | 29 => ⟨S96, .f32⟩
  | 30 => ⟨S1x96, .f32⟩
  | 31 => ⟨S1x96, .f32⟩
  | 32 => ⟨S1x96, .f32⟩
  | 33 => ⟨S_, .f32⟩
  | 34 => ⟨S_, .i1⟩
  | 35 => ⟨S_, .f32⟩
  | 36 => ⟨S_, .f32⟩
  | 37 => ⟨S1x96, .f32⟩
  | 38 => ⟨S1x96, .f32⟩
  | 39 => ⟨S800000x64, .f32⟩
  | 40 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S6400x96, .f32⟩
  | .local _ .vmem, ⟨1, _⟩ => ⟨S6400x96, .f32⟩
  | .local _ .vmem, ⟨2, _⟩ => ⟨S6400x96, .f32⟩
  | .local _ .vmem, ⟨3, _⟩ => ⟨S6400x96, .f32⟩
  | .local _ .vmem, ⟨4, _⟩ => ⟨S6400x32, .f32⟩
  | .local _ .vmem, ⟨5, _⟩ => ⟨S6400x32, .f32⟩
  | .local _ .vmem, ⟨6, _⟩ => ⟨S6400x64, .f32⟩
  | .local _ .vmem, ⟨7, _⟩ => ⟨S6400x64, .f32⟩
  | .local _ .vmem, ⟨8, _⟩ => ⟨S96x96, .f32⟩
  | .local _ .vmem, ⟨9, _⟩ => ⟨S1x96, .f32⟩
  | .local _ .vmem, ⟨10, _⟩ => ⟨S64x192, .f32⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S6400x64, .f32⟩
  | .local _ .vmem, ⟨15, _⟩ => ⟨S6400x64, .f32⟩
  | .local _ .vmem, ⟨16, _⟩ => ⟨S6400x1, .f32⟩
  | .local _ .vmem, ⟨17, _⟩ => ⟨S6400x1, .f32⟩
  | .local _ .vmem, ⟨18, _⟩ => ⟨S5000x96, .f32⟩
  | .local _ .vmem, ⟨19, _⟩ => ⟨S5000x96, .f32⟩
  | .local _ .vmem, ⟨20, _⟩ => ⟨S96x96, .f32⟩
  | .local _ .vmem, ⟨21, _⟩ => ⟨S5000x96, .f32⟩
  | .local _ .vmem, ⟨22, _⟩ => ⟨S5000x96, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S6400x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S6400x64, .f32⟩
  | .local _ .vmem, ⟨32, _⟩ => ⟨S6400x64, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S1x96, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S5000x96, .f32⟩
  | .local _ .vmem, ⟨42, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_cst_3 : Ref sig .tc := ⟨.hbm, 71, rfl⟩
abbrev main_call0_v13 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_6 : Ref sig .tc := ⟨.hbm, 82, rfl⟩
abbrev main_v35 : Ref sig .tc := ⟨.hbm, 83, rfl⟩
abbrev main_v36 : Ref sig .tc := ⟨.hbm, 84, rfl⟩
abbrev main_cst_7 : Ref sig .tc := ⟨.hbm, 85, rfl⟩
abbrev main_v37 : Ref sig .tc := ⟨.hbm, 86, rfl⟩
abbrev main_v38 : Ref sig .tc := ⟨.hbm, 87, rfl⟩
abbrev main_cst_8 : Ref sig .tc := ⟨.hbm, 88, rfl⟩
abbrev main_call1_v0 : Ref sig .tc := ⟨.hbm, 89, rfl⟩
abbrev main_call1_v1 : Ref sig .tc := ⟨.hbm, 90, rfl⟩
abbrev main_v39 : Ref sig .tc := ⟨.hbm, 91, rfl⟩
abbrev main_v40 : Ref sig .tc := ⟨.hbm, 92, rfl⟩
abbrev main_cst_9 : Ref sig .tc := ⟨.hbm, 93, rfl⟩
abbrev main_call2_v0 : Ref sig .tc := ⟨.hbm, 94, rfl⟩
abbrev main_call2_v1 : Ref sig .tc := ⟨.hbm, 95, rfl⟩
abbrev main_v41 : Ref sig .tc := ⟨.hbm, 96, rfl⟩
abbrev main_c_10 : Ref sig .tc := ⟨.hbm, 97, rfl⟩
abbrev main_v42 : Ref sig .tc := ⟨.hbm, 98, rfl⟩
abbrev main_v43 : Ref sig .tc := ⟨.hbm, 99, rfl⟩
abbrev main_c_11 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_c_12 : Ref sig .tc := ⟨.hbm, 107, rfl⟩
abbrev main_v50 : Ref sig .tc := ⟨.hbm, 108, rfl⟩
abbrev main_v51 : Ref sig .tc := ⟨.hbm, 109, rfl⟩
abbrev main_c_13 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_c_14 : Ref sig .tc := ⟨.hbm, 118, rfl⟩
abbrev main_v59 : Ref sig .tc := ⟨.hbm, 119, rfl⟩
abbrev main_v60 : Ref sig .tc := ⟨.hbm, 120, rfl⟩
abbrev main_c_15 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_cst_16 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_17 : Ref sig .tc := ⟨.hbm, 137, rfl⟩
abbrev main_v75 : Ref sig .tc := ⟨.hbm, 138, rfl⟩
abbrev main_v76 : Ref sig .tc := ⟨.hbm, 139, rfl⟩
abbrev main_cst_18 : Ref sig .tc := ⟨.hbm, 140, rfl⟩
abbrev main_v77 : Ref sig .tc := ⟨.hbm, 141, rfl⟩
abbrev main_v78 : Ref sig .tc := ⟨.hbm, 142, rfl⟩
abbrev main_c_19 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_v12 : Ref sig .tc := ⟨.hbm, 160, rfl⟩
abbrev main_call3_cst_3 : Ref sig .tc := ⟨.hbm, 161, rfl⟩
abbrev main_call3_v13 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg6_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem6_1 : DmaSem sig := 42

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6400x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6400x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S96_S1x96 : S96.ShapeCasts S1x96
  shapeCasts_S64_S1x64 : S64.ShapeCasts S1x64
  shapeCasts_S1_S1x1 : S1.ShapeCasts S1x1
  inb_S6400x96_S6400x96_0_0 : ∀ a, (![0, 0] : Fin 2 → Nat) a + S6400x96.size a ≤ S6400x96.size a
  h_S6400x96 : 0 < S6400x96.numel
  shapeCasts_S6400x96_S6400x96 : S6400x96.ShapeCasts S6400x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  transposes_S96x96_p1_0_S96x96 : S96x96.Transposes [1, 0] S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S6400x96 : S1x96.Broadcasts S6400x96
  inb_S6400x64_S6400x64_0_0 : ∀ a, (![0, 0] : Fin 2 → Nat) a + S6400x64.size a ≤ S6400x64.size a
  h_S6400x64 : 0 < S6400x64.numel
  inb_S6400x32_S6400x32_0_0 : ∀ a, (![0, 0] : Fin 2 → Nat) a + S6400x32.size a ≤ S6400x32.size a
  h_S6400x32 : 0 < S6400x32.numel
  concatenates_S6400x96_S6400x64_S6400x32_S6400x192_d1 : Shape.Concatenates [S6400x96, S6400x64, S6400x32] S6400x192 1
  inb_S64x192_S64x192_0_0 : ∀ a, (![0, 0] : Fin 2 → Nat) a + S64x192.size a ≤ S64x192.size a
  h_S64x192 : 0 < S64x192.numel
  transposes_S64x192_p1_0_S192x64 : S64x192.Transposes [1, 0] S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  reducesTo_S800000x64_S64_d0 : S800000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S800000x64_0_1 : S1x64.BroadcastsInDim S800000x64 (![0, 1] : Fin 2 → Fin S800000x64.rank)
  shapeCasts_S800000x1_S800000 : S800000x1.ShapeCasts S800000
  bcast_S_S50000 : S_.BroadcastsInDim S50000 (![] : Fin 0 → Fin S50000.rank)
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  bcast_S_S1x96 : S_.BroadcastsInDim S1x96 (![] : Fin 0 → Fin S1x96.rank)
  shapeCasts_S6400x64_S6400x64 : S6400x64.ShapeCasts S6400x64
  shapeCasts_S5000x96_S5000x96 : S5000x96.ShapeCasts S5000x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  dot_S6400x96_S96x96_S6400x96_1_0_0_1_n_n_wf : DotDims.WF S6400x96 S96x96 S6400x96 [1] [0] [0] [1] [] []
  dot_S6400x192_S192x64_S6400x64_1_0_0_1_n_n_wf : DotDims.WF S6400x192 S192x64 S6400x64 [1] [0] [0] [1] [] []
  dot_S6400x64_S64x1_S6400x1_1_0_0_1_n_n_wf : DotDims.WF S6400x64 S64x1 S6400x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x96_S96x96_S5000x96_1_0_0_1_n_n_wf : DotDims.WF S5000x96 S96x96 S5000x96 [1] [0] [0] [1] [] []
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x96.size a ≤ S800000x96.size a
  hwx0_0 : ∀ i : grid0.Coords, EltTy.bits .f32 = 32 ∨ (Rect.block (s := S800000x96) S6400x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x96.size a ≤ S800000x96.size a
  hwx0_1 : ∀ i : grid0.Coords, EltTy.bits .f32 = 32 ∨ (Rect.block (s := S800000x96) S6400x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S800000x32.size a
  hwx0_2 : ∀ i : grid0.Coords, EltTy.bits .f32 = 32 ∨ (Rect.block (s := S800000x32) S6400x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x64.size a ≤ S800000x64.size a
  hwx0_3 : ∀ i : grid0.Coords, EltTy.bits .f32 = 32 ∨ (Rect.block (s := S800000x64) S6400x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x192.size a ≤ S64x192.size a
  hwx0_6 : ∀ i : grid0.Coords, EltTy.bits .f32 = 32 ∨ (Rect.block (s := S64x192) S64x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6400x64.size a ≤ S800000x64.size a
  hwx0_10 : ∀ i : grid0.Coords, EltTy.bits .f32 = 32 ∨ (Rect.block (s := S800000x64) S6400x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x1.size a ≤ S800000x1.size a
  hwx0_11 : ∀ i : grid0.Coords, EltTy.bits .f32 = 32 ∨ (Rect.block (s := S800000x1) S6400x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S800000x64.size a
  hwx2_0 : ∀ i : grid2.Coords, EltTy.bits .f32 = 32 ∨ (Rect.block (s := S800000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S800000x64.size a
  hwx2_1 : ∀ i : grid2.Coords, EltTy.bits .f32 = 32 ∨ (Rect.block (s := S800000x64) S6400x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6400x64.size a ≤ S800000x64.size a
  hwx2_6 : ∀ i : grid2.Coords, EltTy.bits .f32 = 32 ∨ (Rect.block (s := S800000x64) S6400x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S50000x96.size a
  hwx3_6 : ∀ i : grid3.Coords, EltTy.bits .f32 = 32 ∨ (Rect.block (s := S50000x96) S5000x96.size (cc3_transform_6 i) (hinb3_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S6400x96_S96x96_S6400x96_1_0_0_1_n_n : DotDims S6400x96 S96x96 S6400x96 where
  lhsContracting := [1]
  rhsContracting := [0]
  lhsNonContracting := [0]
  rhsNonContracting := [1]
  lhsBatch := []
  rhsBatch := []
  wf := dot_S6400x96_S96x96_S6400x96_1_0_0_1_n_n_wf
def dot_S6400x192_S192x64_S6400x64_1_0_0_1_n_n : DotDims S6400x192 S192x64 S6400x64 where
  lhsContracting := [1]
  rhsContracting := [0]
  lhsNonContracting := [0]
  rhsNonContracting := [1]
  lhsBatch := []
  rhsBatch := []
  wf := dot_S6400x192_S192x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_v10) S6400x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6400x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25_0) S6400x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v25_1) S6400x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25_0) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S6400x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v74) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S5000x96.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x32 : Shape := ⟨2, ![800000, 32]⟩
abbrev S800000x64 : Shape := ⟨2, ![800000, 64]⟩
abbrev S96x96 : Shape := ⟨2, ![96, 96]⟩
abbrev S96 : Shape := ⟨1, ![96]⟩
abbrev S64x192 : Shape := ⟨2, ![64, 192]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S800000x192 : Shape := ⟨2, ![800000, 192]⟩
abbrev S192x64 : Shape := ⟨2, ![192, 64]⟩
abbrev S64x1 : Shape := ⟨2, ![64, 1]⟩
abbrev S1x1 : Shape := ⟨2, ![1, 1]⟩
abbrev S50000 : Shape := ⟨1, ![50000]⟩

abbrev nBuf : Space → Nat
  | .hbm => 218
  | .vmem => 0
  | .smem => 0
  | _ => 0

abbrev hbmTy0_0 (i : Nat) : BufTy := match i % 128 with
  | 0 => ⟨S50000x96, .f32⟩
  | 1 => ⟨S2x800000, .i32⟩
  | 2 => ⟨S800000x32, .f32⟩
  | 3 => ⟨S800000x64, .f32⟩
  | 4 => ⟨S96x96, .f32⟩
  | 5 => ⟨S96, .f32⟩
  | 6 => ⟨S64x192, .f32⟩
  | 7 => ⟨S64, .f32⟩
  | 8 => ⟨S1x64, .f32⟩
  | 9 => ⟨S1, .f32⟩
  | 10 => ⟨S96x96, .f32⟩
  | 11 => ⟨S96, .f32⟩
  | 12 => ⟨S64, .f32⟩
  | 13 => ⟨S64, .f32⟩
  | 14 => ⟨S96, .f32⟩
  | 15 => ⟨S96, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x96, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x96, .f32⟩
  | 38 => ⟨S800000x96, .f32⟩
  | 39 => ⟨S96x96, .f32⟩
  | 40 => ⟨S800000x96, .f32⟩
  | 41 => ⟨S1x96, .f32⟩
  | 42 => ⟨S800000x96, .f32⟩
  | 43 => ⟨S800000x96, .f32⟩
  | 44 => ⟨S800000x192, .f32⟩
  | 45 => ⟨S192x64, .f32⟩
  | 46 => ⟨S800000x64, .f32⟩
  | 47 => ⟨S1x64, .f32⟩
  | 48 => ⟨S800000x64, .f32⟩
  | 49 => ⟨S800000x64, .f32⟩
  | 50 => ⟨S_, .f32⟩
  | 51 => ⟨S800000x64, .f32⟩
  | 52 => ⟨S800000x64, .f32⟩
  | 53 => ⟨S64x1, .f32⟩
  | 54 => ⟨S800000x1, .f32⟩
  | 55 => ⟨S1x1, .f32⟩
  | 56 => ⟨S800000x1, .f32⟩
  | 57 => ⟨S800000x1, .f32⟩
  | 58 => ⟨S_, .f32⟩
  | 59 => ⟨S800000x1, .f32⟩
  | 60 => ⟨S800000x1, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .i1⟩
  | 69 => ⟨S_, .f32⟩
  | 70 => ⟨S50000, .f32⟩
  | 71 => ⟨S50000, .i1⟩
  | 72 => ⟨S_, .f32⟩
  | 73 => ⟨S_, .f32⟩
  | 74 => ⟨S50000, .f32⟩
  | 75 => ⟨S50000, .f32⟩
  | 76 => ⟨S50000, .f32⟩
  | 77 => ⟨S_, .f32⟩
  | 78 => ⟨S_, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S96x96, .f32⟩
  | 102 => ⟨S50000x96, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x96, .f32⟩
  | 113 => ⟨S800000x96, .f32⟩
  | 114 => ⟨S800000x96, .f32⟩
  | 115 => ⟨S_, .f32⟩
  | 116 => ⟨S50000x96, .f32⟩
  | 117 => ⟨S800000x1, .i32⟩
  | 118 => ⟨S50000x96, .f32⟩
  | 119 => ⟨S1x96, .f32⟩
  | 120 => ⟨S50000x96, .f32⟩
  | 121 => ⟨S50000x96, .f32⟩
  | 122 => ⟨S_, .f32⟩
  | 123 => ⟨S64, .f32⟩
  | 124 => ⟨S_, .f32⟩
  | 125 => ⟨S64, .f32⟩
  | 126 => ⟨S64, .f32⟩
  | 127 => ⟨S_, .i32⟩
  | _ => ⟨S50000x96, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S800000x64, .f32⟩
  | 7 => ⟨S800000x64, .f32⟩
  | 8 => ⟨S800000x64, .f32⟩
  | 9 => ⟨S_, .f32⟩
  | 10 => ⟨S_, .f32⟩
  | 11 => ⟨S_, .f32⟩
  | 12 => ⟨S_, .f32⟩
  | 13 => ⟨S64, .f32⟩
  | 14 => ⟨S64, .f32⟩
  | 15 => ⟨S64, .f32⟩
  | 16 => ⟨S_, .f32⟩
  | 17 => ⟨S_, .i1⟩
  | 18 => ⟨S_, .f32⟩
  | 19 => ⟨S_, .f32⟩
  | 20 => ⟨S64, .f32⟩
  | 21 => ⟨S64, .f32⟩
  | 22 => ⟨S1x64, .f32⟩
  | 23 => ⟨S800000x64, .f32⟩
  | 24 => ⟨S800000x64, .f32⟩
  | 25 => ⟨S_, .f32⟩
  | 26 => ⟨S64, .f32⟩
  | 27 => ⟨S64, .f32⟩
  | 28 => ⟨S64, .f32⟩
  | 29 => ⟨S1x64, .f32⟩
  | 30 => ⟨S800000x64, .f32⟩
  | 31 => ⟨S800000x64, .f32⟩
  | 32 => ⟨S1x64, .f32⟩
  | 33 => ⟨S800000x64, .f32⟩
  | 34 => ⟨S800000x64, .f32⟩
  | 35 => ⟨S1x64, .f32⟩
  | 36 => ⟨S800000x64, .f32⟩
  | 37 => ⟨S800000x64, .f32⟩
  | 38 => ⟨S_, .f32⟩
  | 39 => ⟨S800000x64, .f32⟩
  | 40 => ⟨S800000x64, .f32⟩
  | 41 => ⟨S_, .f32⟩
  | 42 => ⟨S96, .f32⟩
  | 43 => ⟨S_, .f32⟩
  | 44 => ⟨S96, .f32⟩
  | 45 => ⟨S96, .f32⟩
  | 46 => ⟨S_, .i32⟩
  | 47 => ⟨S_, .f32⟩
  | 48 => ⟨S96, .f32⟩
  | 49 => ⟨S1x96, .f32⟩
  | 50 => ⟨S_, .f32⟩
  | 51 => ⟨S1x96, .f32⟩
  | 52 => ⟨S1x96, .f32⟩
  | 53 => ⟨S50000x96, .f32⟩
  | 54 => ⟨S50000x96, .f32⟩
  | 55 => ⟨S50000x96, .f32⟩
  | 56 => ⟨S_, .f32⟩
  | 57 => ⟨S_, .f32⟩
  | 58 => ⟨S_, .f32⟩
  | 59 => ⟨S_, .f32⟩
  | 60 => ⟨S96, .f32⟩
  | 61 => ⟨S96, .f32⟩
  | 62 => ⟨S96, .f32⟩
  | 63 => ⟨S_, .f32⟩
  | 64 => ⟨S_, .i1⟩
  | 65 => ⟨S_, .f32⟩
  | 66 => ⟨S_, .f32⟩
  | 67 => ⟨S96, .f32⟩
  | 68 => ⟨S96, .f32⟩
  | 69 => ⟨S1x96, .f32⟩
  | 70 => ⟨S50000x96, .f32⟩
  | 71 => ⟨S50000x96, .f32⟩
  | 72 => ⟨S_, .f32⟩
  | 73 => ⟨S96, .f32⟩
  | 74 => ⟨S96, .f32⟩
  | 75 => ⟨S96, .f32⟩
  | 76 => ⟨S1x96, .f32⟩
  | 77 => ⟨S50000x96, .f32⟩
  | 78 => ⟨S50000x96, .f32⟩
  | 79 => ⟨S1x96, .f32⟩
  | 80 => ⟨S50000x96, .f32⟩
  | 81 => ⟨S50000x96, .f32⟩
  | 82 => ⟨S1x96, .f32⟩
  | 83 => ⟨S50000x96, .f32⟩
  | 84 => ⟨S50000x96, .f32⟩
  | 85 => ⟨S_, .f32⟩
  | 86 => ⟨S50000x96, .f32⟩
  | 87 => ⟨S50000x96, .f32⟩
  | 88 => ⟨S50000x96, .f32⟩
  | 89 => ⟨S800000x64, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_call2_v0 : Ref sig .tc := ⟨.hbm, 73, rfl⟩
abbrev main_call2_v1 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_call3_v0 : Ref sig .tc := ⟨.hbm, 78, rfl⟩
abbrev main_call3_v1 : Ref sig .tc := ⟨.hbm, 79, rfl⟩
abbrev main_v47 : Ref sig .tc := ⟨.hbm, 80, rfl⟩
abbrev main_c_7 : Ref sig .tc := ⟨.hbm, 81, rfl⟩
abbrev main_v48 : Ref sig .tc := ⟨.hbm, 82, rfl⟩
abbrev main_v49 : Ref sig .tc := ⟨.hbm, 83, rfl⟩
abbrev main_c_8 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_9 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_11 : Ref sig .tc := ⟨.hbm, 104, rfl⟩
abbrev main_v67 : Ref sig .tc := ⟨.hbm, 105, rfl⟩
abbrev main_v68 : Ref sig .tc := ⟨.hbm, 106, rfl⟩
abbrev main_c_12 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_13 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_14 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_c_16 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_cst_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_cst_1 : Ref sig .tc := ⟨.hbm, 138, rfl⟩
abbrev main_call4_v8 : Ref sig .tc := ⟨.hbm, 139, rfl⟩
abbrev main_call4_cst_2 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_cst_3 : Ref sig .tc := ⟨.hbm, 144, rfl⟩
abbrev main_call4_v12 : Ref sig .tc := ⟨.hbm, 145, rfl⟩
abbrev main_call4_cst_4 : Ref sig .tc := ⟨.hbm, 146, rfl⟩
abbrev main_call4_call0_v0 : Ref sig .tc := ⟨.hbm, 147, rfl⟩
abbrev main_call4_call0_v1 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_17 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_call5_cst : Ref sig .tc := ⟨.hbm, 166, rfl⟩
abbrev main_call5_v0 : Ref sig .tc := ⟨.hbm, 167, rfl⟩
abbrev main_v101 : Ref sig .tc := ⟨.hbm, 168, rfl⟩
abbrev main_cst_18 : Ref sig .tc := ⟨.hbm, 169, rfl⟩
abbrev main_v102 : Ref sig .tc := ⟨.hbm, 170, rfl⟩
abbrev main_cst_19 : Ref sig .tc := ⟨.hbm, 171, rfl⟩
abbrev main_v103 : Ref sig .tc := ⟨.hbm, 172, rfl⟩
abbrev main_v104 : Ref sig .tc := ⟨.hbm, 173, rfl⟩
abbrev main_c_20 : Ref sig .tc := ⟨.hbm, 174, rfl⟩
abbrev main_call6_cst : Ref sig .tc := ⟨.hbm, 175, rfl⟩
abbrev main_call6_v0 : Ref sig .tc := ⟨.hbm, 176, rfl⟩
abbrev main_call6_v1 : Ref sig .tc := ⟨.hbm, 177, rfl⟩
abbrev main_call6_cst_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_v6 : Ref sig .tc := ⟨.hbm, 183, rfl⟩
abbrev main_call6_v7 : Ref sig .tc := ⟨.hbm, 184, rfl⟩
abbrev main_call6_cst_1 : Ref sig .tc := ⟨.hbm, 185, rfl⟩
abbrev main_call6_v8 : Ref sig .tc := ⟨.hbm, 186, rfl⟩
abbrev main_call6_cst_2 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_cst_3 : Ref sig .tc := ⟨.hbm, 191, rfl⟩
abbrev main_call6_v12 : Ref sig .tc := ⟨.hbm, 192, rfl⟩
abbrev main_call6_cst_4 : Ref sig .tc := ⟨.hbm, 193, rfl⟩
abbrev main_call6_call0_v0 : Ref sig .tc := ⟨.hbm, 194, rfl⟩
abbrev main_call6_call0_v1 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_cst_21 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_call7_cst : Ref sig .tc := ⟨.hbm, 213, rfl⟩
abbrev main_call7_v0 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S96x96_S96x96_1_0 : S96x96.Transposes [1, 0] S96x96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  concatenates_S800000x96_S800000x64_S800000x32_S800000x192_d1 : Shape.Concatenates [S800000x96, S800000x64, S800000x32] S800000x192 1
  transposes_S64x192_S192x64_1_0 : S64x192.Transposes [1, 0] S192x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S1x64_S64x1_1_0 : S1x64.Transposes [1, 0] S64x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S_S50000 : S_.BroadcastsInDim S50000 (![] : Fin 0 → Fin S50000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  reducesTo_S800000x64_S64_d0 : S800000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S50000x96_S96_d0 : S50000x96.ReducesTo [0] S96
  bcast_S_S96 : S_.BroadcastsInDim S96 (![] : Fin 0 → Fin S96.rank)
  bcast_S_S1x96 : S_.BroadcastsInDim S1x96 (![] : Fin 0 → Fin S1x96.rank)
  gather_S50000x96_S800000x1_S800000x96_1_0_n_n_0_1_196_wf : GatherDims.WF S50000x96 S800000x1 S800000x96 [1] [0] [] [0] [] 1 ![1, 96]
  dot_S800000x96_S96x96_S800000x96_1_0_0_1_n_n_wf : DotDims.WF S800000x96 S96x96 S800000x96 [1] [0] [0] [1] [] []
  dot_S800000x192_S192x64_S800000x64_1_0_0_1_n_n_wf : DotDims.WF S800000x192 S192x64 S800000x64 [1] [0] [0] [1] [] []
  dot_S800000x64_S64x1_S800000x1_1_0_0_1_n_n_wf : DotDims.WF S800000x64 S64x1 S800000x1 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x96_S50000x96_1_0_0_1_n_n_wf : DotDims.WF S50000x96 S96x96 S50000x96 [1] [0] [0] [1] [] []
  scatter_S50000x96_S800000x1_S800000x96_1_0_0_1_wf : ScatterDims.WF S50000x96 S800000x1 S800000x96 [1] [0] [0] 1

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.KernelRun.lean ====
/-
  The idealized kernel program's run with its two results NAMED: every weakly fair execution of @main terminates,
  nothing faulting, and in every final state the two result arrays hold the contents the last segment boundary gives
  them (the fold of the host stretches and of the four regions' write-backs over the launch memory), the arguments
  as launched.
-/
import proofs.«157719_j687194767630_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, every argument as launched. -/
theorem run : θ_run defs (onTc (τ := τ) (main (F := F))) ⟨m, fun _ => 0, ρ⟩ (fun r => ∀ c : Dev nD,
      r.2.mem ((c.tc : Thread nD τ).loc main_v81) = W14 m ρ c (Proc.devRef .tc main_v81)
      ∧ r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v81 (by decide)),
       h c _ (mem_uc main_v80 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c)⟩)

end Cert.KernelIdeal.KRun

end
-- ==== Proof.RefRunOps.lean ====
/-
  The idealized reference program's @main as a list of its host operations, the outlined functions' operations
  listed inline at their call sites over each call's buffer record. The list is cut into fifteen consecutive
  stretches `ck01 … ck15`, one per stage of the computation (a stage that straddles two of the program's three
  windows is cut there as well): `main = seq ops`, and every operation touches TensorCore references only.
-/
import proofs.«157719_j687194767630_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

open Facts₀ Facts

/-- Stretch 1: the two rows of edge_index (4 operations). -/
abbrev ck01 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Stretch 2: the edge feature (30 operations). -/
abbrev ck02 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg0 main_v16 main_v17 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.binary main_v10 main_v17 main_v18 (subf : (⟨S800000x96, .f32⟩ : BufTy).Contents (Elt F) → (⟨S800000x96, .f32⟩ : BufTy).Contents (Elt F) → (⟨S800000x96, .f32⟩ : BufTy).Contents (Elt F)),
    StableHlo.unary main_arg4 main_v19 ((transpose S96x96 [1, 0] · transposes_S96x96_S96x96_1_0) : (⟨S96x96, .f32⟩ : BufTy).Contents (Elt F) → (⟨S96x96, .f32⟩ : BufTy).Contents (Elt F)),
    StableHlo.binary main_v18 main_v19 main_v20 ((fun l r => Host.dotGeneral dot_S800000x96_S96x96_S800000x96_1_0_0_1_n_n none l r) : (⟨S800000x96, .f32⟩ : BufTy).Contents (Elt F) → (⟨S96x96, .f32⟩ : BufTy).Contents (Elt F) → (⟨S800000x96, .f32⟩ : BufTy).Contents (Elt F)),
    StableHlo.unary main_arg5 main_v21 (broadcastInDim S1x96 ![1] bcast_S96_S1x96_1 : (⟨S96, .f32⟩ : BufTy).Contents (Elt F) → (⟨S1x96, .f32⟩ : BufTy).Contents (Elt F)),
    StableHlo.unary main_v21 main_v22 (broadcastInDim S800000x96 ![0, 1] bcast_S1x96_S800000x96_0_1 : (⟨S1x96, .f32⟩ : BufTy).Contents (Elt F) → (⟨S800000x96, .f32⟩ : BufTy).Contents (Elt F)),
    StableHlo.binary main_v20 main_v22 main_v23 (addf : (⟨S800000x96, .f32⟩ : BufTy).Contents (Elt F) → (⟨S800000x96, .f32⟩ : BufTy).Contents (Elt F) → (⟨S800000x96, .f32⟩ : BufTy).Contents (Elt F)),
    StableHlo.nary ![main_v23, main_arg3, main_arg2] main_v24 (fun u => concatenate S800000x192 1 [⟨S800000x96, u 0⟩, ⟨S800000x64, u 1⟩, ⟨S800000x32, u 2⟩] concatenates_S800000x96_S800000x64_S800000x32_S800000x192_d1),
    StableHlo.unary main_arg6 main_v25 ((transpose S192x64 [1, 0] · transposes_S64x192_S192x64_1_0) : (⟨S64x192, .f32⟩ : BufTy).Contents (Elt F) → (⟨S192x64, .f32⟩ : BufTy).Contents (Elt F)),
    StableHlo.binary main_v24 main_v25 main_v26 ((fun l r => Host.dotGeneral dot_S800000x192_S192x64_S800000x64_1_0_0_1_n_n none l r) : (⟨S800000x192, .f32⟩ : BufTy).Contents (Elt F) → (⟨S192x64, .f32⟩ : BufTy).Contents (Elt F) → (⟨S800000x64, .f32⟩ : BufTy).Contents (Elt F)),
    StableHlo.unary main_arg7 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S800000x64 ![0, 1] bcast_S1x64_S800000x64_0_1 : (⟨S1x64, .f32⟩ : BufTy).Contents (Elt F) → (⟨S800000x64, .f32⟩ : BufTy).Contents (Elt F)),
    StableHlo.binary main_v26 main_v28 main_v29 (addf : (⟨S800000x64, .f32⟩ : BufTy).Contents (Elt F) → (⟨S800000x64, .f32⟩ : BufTy).Contents (Elt F) → (⟨S800000x64, .f32⟩ : BufTy).Contents (Elt F)) ]

/-- Stretch 3: the edge weight (12 operations). -/
abbrev ck03 : List (HloOp τ sig (Elt F)) :=
  [ StableHlo.TRef.nullary main_call0.cst (constant S_ .f32 0x00000000#32),
    StableHlo.TRef.unary main_call0.cst main_call0.v0 (broadcastInDim S800000x64 ![] bcast_S_S800000x64),
    StableHlo.TRef.binary (.of main_v29 : StableHlo.TRef sig ⟨S800000x64, .f32⟩) main_call0.v0 main_call0.v1 maximumf,
    StableHlo.unary main_arg8 main_v31 ((transpose S64x1 [1, 0] · transposes_S1x64_S64x1_1_0) : (⟨S1x64, .f32⟩ : BufTy).Contents (Elt F) → (⟨S64x1, .f32⟩ : BufTy).Contents (Elt F)),
    StableHlo.binary main_v30 main_v31 main_v32 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    StableHlo.unary main_arg9 main_v33 (broadcastInDim S1x1 ![1] bcast_S1_S1x1_1 : (⟨S1, .f32⟩ : BufTy).Contents (Elt F) → (⟨S1x1, .f32⟩ : BufTy).Contents (Elt F)),
    StableHlo.unary main_v33 main_v34 (broadcastInDim S800000x1 ![0, 1] bcast_S1x1_S800000x1_0_1 : (⟨S1x1, .f32⟩ : BufTy).Contents (Elt F) → (⟨S800000x1, .f32⟩ : BufTy).Contents (Elt F)),
    StableHlo.binary main_v32 main_v34 main_v35 (addf : (⟨S800000x1, .f32⟩ : BufTy).Contents (Elt F) → (⟨S800000x1, .f32⟩ : BufTy).Contents (Elt F) → (⟨S800000x1, .f32⟩ : BufTy).Contents (Elt F)),
    StableHlo.TRef.nullary main_call1.cst (constant S_ .f32 0x00000000#32),
    StableHlo.TRef.unary main_call1.cst main_call1.v0 (broadcastInDim S800000x1 ![] bcast_S_S800000x1),
    StableHlo.TRef.binary (.of main_v35 : StableHlo.TRef sig ⟨S800000x1, .f32⟩) main_call1.v0 main_call1.v1 maximumf,
    StableHlo.reshape main_v36 main_v37 rfl shapeCasts_S800000x1_S800000 ]

/-- Stretch 4: the weighted in-degree and its inverse square root (19 operations). -/
abbrev ck04 : List (HloOp τ sig (Elt F)) :=
  [ StableHlo.nullary main_cst (constant S_ .f32 0x00000000#32),
    StableHlo.unary main_cst main_v38 (broadcastInDim S50000 ![] bcast_S_S50000 : (⟨S_, .f32⟩ : BufTy).Contents (Elt F) → (⟨S50000, .f32⟩ : BufTy).Contents (Elt F)),
    StableHlo.unary main_v3 main_v39 (broadcastInDim S800000x1 ![0] bcast_S800000_S800000x1_0 : (⟨S800000, .i32⟩ : BufTy).Contents (Elt F) → (⟨S800000x1, .i32⟩ : BufTy).Contents (Elt F)),
    StableHlo.ternary main_v38 main_v39 main_v37 main_v40 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x00000000#32),
    StableHlo.unary main_cst_3 main_v41 (broadcastInDim S50000 ![] bcast_S_S50000 : (⟨S_, .f32⟩ : BufTy).Contents (Elt F) → (⟨S50000, .f32⟩ : BufTy).Contents (Elt F)),
    StableHlo.binary main_v40 main_v41 main_v42 (cmpf .ogt : (⟨S50000, .f32⟩ : BufTy).Contents (Elt F) → (⟨S50000, .f32⟩ : BufTy).Contents (Elt F) → (⟨S50000, .i1⟩ : BufTy).Contents (Elt F)),
    StableHlo.nullary main_cst_4 (constant S_ .f32 0x00000000#32),
    StableHlo.unary main_cst_4 main_v43 (broadcastInDim S50000 ![] bcast_S_S50000 : (⟨S_, .f32⟩ : BufTy).Contents (Elt F) → (⟨S50000, .f32⟩ : BufTy).Contents (Elt F)),
    StableHlo.binary main_v40 main_v43 main_v44 (cmpf .ogt : (⟨S50000, .f32⟩ : BufTy).Contents (Elt F) → (⟨S50000, .f32⟩ : BufTy).Contents (Elt F) → (⟨S50000, .i1⟩ : BufTy).Contents (Elt F)),
    StableHlo.nullary main_cst_5 (constant S_ .f32 0x3F800000#32),
    StableHlo.TRef.unary (.of main_cst_5 : StableHlo.TRef sig ⟨S_, .f32⟩) main_call2.v0 id,
    StableHlo.TRef.unary main_call2.v0 main_call2.v1 (broadcastInDim S50000 ![] bcast_S_S50000),
    StableHlo.TRef.ternary (.of main_v44 : StableHlo.TRef sig ⟨S50000, .i1⟩) (.of main_v40 : StableHlo.TRef sig ⟨S50000, .f32⟩) main_call2.v1 main_call2.v2 select,
    StableHlo.unary main_v45 main_v46 (Host.rsqrt : (⟨S50000, .f32⟩ : BufTy).Contents (Elt F) → (⟨S50000, .f32⟩ : BufTy).Contents (Elt F)),
    StableHlo.nullary main_cst_6 (constant S_ .f32 0x00000000#32),
    StableHlo.TRef.unary (.of main_cst_6 : StableHlo.TRef sig ⟨S_, .f32⟩) main_call3.v0 id,
    StableHlo.TRef.unary main_call3.v0 main_call3.v1 (broadcastInDim S50000 ![] bcast_S_S50000),
    StableHlo.TRef.ternary (.of main_v42 : StableHlo.TRef sig ⟨S50000, .i1⟩) (.of main_v46 : StableHlo.TRef sig ⟨S50000, .f32⟩) main_call3.v1 main_call3.v2 select ]

/-- Stretch 5: the sign test of the source indices (3 operations). -/
abbrev ck05 : List (HloOp τ sig (Elt F)) :=
  [ StableHlo.nullary main_c_7 (constantI S_ 32 0#32),
    StableHlo.unary main_c_7 main_v48 (broadcastInDim S800000 ![] bcast_S_S800000 : (⟨S_, .i32⟩ : BufTy).Contents (Elt F) → (⟨S800000, .i32⟩ : BufTy).Contents (Elt F)),
    StableHlo.binary main_v1 main_v48 main_v49 (cmpi .slt : (⟨S800000, .i32⟩ : BufTy).Contents (Elt F) → (⟨S800000, .i32⟩ : BufTy).Contents (Elt F) → (⟨S800000, .i1⟩ : BufTy).Contents (Elt F)) ]

/-- Stretch 6: the normalised edge weight (17 operations). -/
abbrev ck06 : List (HloOp τ sig (Elt F)) :=
  [ StableHlo.nullary main_c_8 (constantI S_ 32 50000#32),
    StableHlo.unary main_c_8 main_v50 (broadcastInDim S800000 ![] bcast_S_S800000 : (⟨S_, .i32⟩ : BufTy).Contents (Elt F) → (⟨S800000, .i32⟩ : BufTy).Contents (Elt F)),
    StableHlo.binary main_v1 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v1 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.binary main_v47 main_v53 main_v54 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v54 main_v37 main_v55 (mulf : (⟨S800000, .f32⟩ : BufTy).Contents (Elt F) → (⟨S800000, .f32⟩ : BufTy).Contents (Elt F) → (⟨S800000, .f32⟩ : BufTy).Contents (Elt F)),
    StableHlo.nullary main_c_9 (constantI S_ 32 0#32),
    StableHlo.unary main_c_9 main_v56 (broadcastInDim S800000 ![] bcast_S_S800000 : (⟨S_, .i32⟩ : BufTy).Contents (Elt F) → (⟨S800000, .i32⟩ : BufTy).Contents (Elt F)),
    StableHlo.binary main_v3 main_v56 main_v57 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v58 (broadcastInDim S800000 ![] bcast_S_S800000 : (⟨S_, .i32⟩ : BufTy).Contents (Elt F) → (⟨S800000, .i32⟩ : BufTy).Contents (Elt F)),
    StableHlo.binary main_v3 main_v58 main_v59 (addi : (⟨S800000, .i32⟩ : BufTy).Contents (Elt F) → (⟨S800000, .i32⟩ : BufTy).Contents (Elt F) → (⟨S800000, .i32⟩ : BufTy).Contents (Elt F)),
    StableHlo.ternary main_v57 main_v59 main_v3 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v60 main_v61 (broadcastInDim S800000x1 ![0] bcast_S800000_S800000x1_0 : (⟨S800000, .i32⟩ : BufTy).Contents (Elt F) → (⟨S800000x1, .i32⟩ : BufTy).Contents (Elt F)),
    StableHlo.binary main_v47 main_v61 main_v62 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v55 main_v62 main_v63 (mulf : (⟨S800000, .f32⟩ : BufTy).Contents (Elt F) → (⟨S800000, .f32⟩ : BufTy).Contents (Elt F) → (⟨S800000, .f32⟩ : BufTy).Contents (Elt F)) ]

/-- Stretch 7: the aggregation over incoming edges (21 operations). -/
abbrev ck07 : List (HloOp τ sig (Elt F)) :=
  [ StableHlo.unary main_arg10 main_v64 ((transpose S96x96 [1, 0] · transposes_S96x96_S96x96_1_0) : (⟨S96x96, .f32⟩ : BufTy).Contents (Elt F) → (⟨S96x96, .f32⟩ : BufTy).Contents (Elt F)),
    StableHlo.binary main_arg0 main_v64 main_v65 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_v63 main_v66 (broadcastInDim S800000x1 ![0] bcast_S800000_S800000x1_0 : (⟨S800000, .f32⟩ : BufTy).Contents (Elt F) → (⟨S800000x1, .f32⟩ : BufTy).Contents (Elt F)),
    StableHlo.nullary main_c_11 (constantI S_ 32 0#32),
    StableHlo.unary main_c_11 main_v67 (broadcastInDim S800000 ![] bcast_S_S800000 : (⟨S_, .i32⟩ : BufTy).Contents (Elt F) → (⟨S800000, .i32⟩ : BufTy).Contents (Elt F)),
    StableHlo.binary main_v1 main_v67 main_v68 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v69 (broadcastInDim S800000 ![] bcast_S_S800000 : (⟨S_, .i32⟩ : BufTy).Contents (Elt F) → (⟨S800000, .i32⟩ : BufTy).Contents (Elt F)),
    StableHlo.binary main_v1 main_v69 main_v70 (addi : (⟨S800000, .i32⟩ : BufTy).Contents (Elt F) → (⟨S800000, .i32⟩ : BufTy).Contents (Elt F) → (⟨S800000, .i32⟩ : BufTy).Contents (Elt F)),
    StableHlo.ternary main_v68 main_v70 main_v1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v71 main_v72 (broadcastInDim S800000x1 ![0] bcast_S800000_S800000x1_0 : (⟨S800000, .i32⟩ : BufTy).Contents (Elt F) → (⟨S800000x1, .i32⟩ : BufTy).Contents (Elt F)),
    StableHlo.binary main_v65 main_v72 main_v73 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.unary main_v66 main_v74 (broadcastInDim S800000x96 ![0, 1] bcast_S800000x1_S800000x96_0_1 : (⟨S800000x1, .f32⟩ : BufTy).Contents (Elt F) → (⟨S800000x96, .f32⟩ : BufTy).Contents (Elt F)),
    StableHlo.binary main_v74 main_v73 main_v75 (mulf : (⟨S800000x96, .f32⟩ : BufTy).Contents (Elt F) → (⟨S800000x96, .f32⟩ : BufTy).Contents (Elt F) → (⟨S800000x96, .f32⟩ : BufTy).Contents (Elt F)),
    StableHlo.nullary main_cst_13 (constant S_ .f32 0x00000000#32),
    StableHlo.unary main_cst_13 main_v76 (broadcastInDim S50000x96 ![] bcast_S_S50000x96 : (⟨S_, .f32⟩ : BufTy).Contents (Elt F) → (⟨S50000x96, .f32⟩ : BufTy).Contents (Elt F)),
    StableHlo.unary main_v3 main_v77 (broadcastInDim S800000x1 ![0] bcast_S800000_S800000x1_0 : (⟨S800000, .i32⟩ : BufTy).Contents (Elt F) → (⟨S800000x1, .i32⟩ : BufTy).Contents (Elt F)),
    StableHlo.ternary main_v76 main_v77 main_v75 main_v78 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_arg11 main_v79 (broadcastInDim S1x96 ![1] bcast_S96_S1x96_1 : (⟨S96, .f32⟩ : BufTy).Contents (Elt F) → (⟨S1x96, .f32⟩ : BufTy).Contents (Elt F)),
    StableHlo.unary main_v79 main_v80 (broadcastInDim S50000x96 ![0, 1] bcast_S1x96_S50000x96_0_1 : (⟨S1x96, .f32⟩ : BufTy).Contents (Elt F) → (⟨S50000x96, .f32⟩ : BufTy).Contents (Elt F)),
    StableHlo.binary main_v78 main_v80 main_v81 (addf : (⟨S50000x96, .f32⟩ : BufTy).Contents (Elt F) → (⟨S50000x96, .f32⟩ : BufTy).Contents (Elt F) → (⟨S50000x96, .f32⟩ : BufTy).Contents (Elt F)) ]

/-- Stretch 8: the edge feature's column means (5 operations). -/
abbrev ck08 : List (HloOp τ sig (Elt F)) :=
  [ StableHlo.nullary main_cst_14 (constant S_ .f32 0x00000000#32),
    StableHlo.binary main_v29 main_cst_14 main_v82 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    StableHlo.nullary main_cst_15 (constant S_ .f32 0x49435000#32),
    StableHlo.unary main_cst_15 main_v83 (broadcastInDim S64 ![] bcast_S_S64 : (⟨S_, .f32⟩ : BufTy).Contents (Elt F) → (⟨S64, .f32⟩ : BufTy).Contents (Elt F)),
    StableHlo.binary main_v82 main_v83 main_v84 (Host.divf : (⟨S64, .f32⟩ : BufTy).Contents (Elt F) → (⟨S64, .f32⟩ : BufTy).Contents (Elt F) → (⟨S64, .f32⟩ : BufTy).Contents (Elt F)) ]

/-- Stretch 9: the edge feature's column variances (23 operations). -/
abbrev ck09 : List (HloOp τ sig (Elt F)) :=
  [ StableHlo.nullary main_c_16 (constantI S_ 32 0#32),
    StableHlo.TRef.nullary main_call4.cst (constant S_ .f32 0x00000000#32),
    StableHlo.TRef.binary (.of main_v29 : StableHlo.TRef sig ⟨S800000x64, .f32⟩) main_call4.cst main_call4.v0 (fun x v => Host.reduceAdd x v reducesTo_S800000x64_S64_d0 h_S_),
    StableHlo.TRef.unary main_call4.v0 main_call4.v1 (broadcastInDim S1x64 ![1] bcast_S64_S1x64_1),
    StableHlo.TRef.nullary main_call4.cst_0 (constant S_ .f32 0x49435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S800000x64 ![0, 1] bcast_S1x64_S800000x64_0_1),
    StableHlo.TRef.binary (.of main_v29 : StableHlo.TRef sig ⟨S800000x64, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x49435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S800000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

/-- Stretch 10: the edge feature normalised, scaled (up to the shift's broadcast) (15 operations). -/
abbrev ck10 : List (HloOp τ sig (Elt F)) :=
  [ StableHlo.unary main_v84 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S800000x64 ![0, 1] bcast_S1x64_S800000x64_0_1 : (⟨S1x64, .f32⟩ : BufTy).Contents (Elt F) → (⟨S800000x64, .f32⟩ : BufTy).Contents (Elt F)),
    StableHlo.binary main_v29 main_v87 main_v88 (subf : (⟨S800000x64, .f32⟩ : BufTy).Contents (Elt F) → (⟨S800000x64, .f32⟩ : BufTy).Contents (Elt F) → (⟨S800000x64, .f32⟩ : BufTy).Contents (Elt F)),
    StableHlo.nullary main_cst_17 (constant S_ .f32 0x3727C5AC#32),
    StableHlo.unary main_cst_17 main_v89 (broadcastInDim S64 ![] bcast_S_S64 : (⟨S_, .f32⟩ : BufTy).Contents (Elt F) → (⟨S64, .f32⟩ : BufTy).Contents (Elt F)),
    StableHlo.binary main_v85 main_v89 main_v90 (addf : (⟨S64, .f32⟩ : BufTy).Contents (Elt F) → (⟨S64, .f32⟩ : BufTy).Contents (Elt F) → (⟨S64, .f32⟩ : BufTy).Contents (Elt F)),
    StableHlo.unary main_v90 main_v91 (Host.rsqrt : (⟨S64, .f32⟩ : BufTy).Contents (Elt F) → (⟨S64, .f32⟩ : BufTy).Contents (Elt F)),
    StableHlo.unary main_v91 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S800000x64 ![0, 1] bcast_S1x64_S800000x64_0_1 : (⟨S1x64, .f32⟩ : BufTy).Contents (Elt F) → (⟨S800000x64, .f32⟩ : BufTy).Contents (Elt F)),
    StableHlo.binary main_v88 main_v93 main_v94 (mulf : (⟨S800000x64, .f32⟩ : BufTy).Contents (Elt F) → (⟨S800000x64, .f32⟩ : BufTy).Contents (Elt F) → (⟨S800000x64, .f32⟩ : BufTy).Contents (Elt F)),
    StableHlo.unary main_arg12 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S800000x64 ![0, 1] bcast_S1x64_S800000x64_0_1 : (⟨S1x64, .f32⟩ : BufTy).Contents (Elt F) → (⟨S800000x64, .f32⟩ : BufTy).Contents (Elt F)),
    StableHlo.binary main_v94 main_v96 main_v97 (mulf : (⟨S800000x64, .f32⟩ : BufTy).Contents (Elt F) → (⟨S800000x64, .f32⟩ : BufTy).Contents (Elt F) → (⟨S800000x64, .f32⟩ : BufTy).Contents (Elt F)),
    StableHlo.unary main_arg13 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S800000x64 ![0, 1] bcast_S1x64_S800000x64_0_1 : (⟨S1x64, .f32⟩ : BufTy).Contents (Elt F) → (⟨S800000x64, .f32⟩ : BufTy).Contents (Elt F)) ]

/-- Stretch 11: the shifted edge feature and its relu (4 operations). -/
abbrev ck11 : List (HloOp τ sig (Elt F)) :=
  [ StableHlo.binary main_v97 main_v99 main_v100 (addf : (⟨S800000x64, .f32⟩ : BufTy).Contents (Elt F) → (⟨S800000x64, .f32⟩ : BufTy).Contents (Elt F) → (⟨S800000x64, .f32⟩ : BufTy).Contents (Elt F)),
    StableHlo.TRef.nullary main_call5.cst (constant S_ .f32 0x00000000#32),
    StableHlo.TRef.unary main_call5.cst main_call5.v0 (broadcastInDim S800000x64 ![] bcast_S_S800000x64),
    StableHlo.TRef.binary (.of main_v100 : StableHlo.TRef sig ⟨S800000x64, .f32⟩) main_call5.v0 main_call5.v1 maximumf ]

/-- Stretch 12: the aggregate's column means (5 operations). -/
abbrev ck12 : List (HloOp τ sig (Elt F)) :=
  [ StableHlo.nullary main_cst_18 (constant S_ .f32 0x00000000#32),
    StableHlo.binary main_v81 main_cst_18 main_v102 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_19 (constant S_ .f32 0x47435000#32),
    StableHlo.unary main_cst_19 main_v103 (broadcastInDim S96 ![] bcast_S_S96 : (⟨S_, .f32⟩ : BufTy).Contents (Elt F) → (⟨S96, .f32⟩ : BufTy).Contents (Elt F)),
    StableHlo.binary main_v102 main_v103 main_v104 (Host.divf : (⟨S96, .f32⟩ : BufTy).Contents (Elt F) → (⟨S96, .f32⟩ : BufTy).Contents (Elt F) → (⟨S96, .f32⟩ : BufTy).Contents (Elt F)) ]

/-- Stretch 13: the aggregate's column variances (23 operations). -/
abbrev ck13 : List (HloOp τ sig (Elt F)) :=
  [ StableHlo.nullary main_c_20 (constantI S_ 32 0#32),
    StableHlo.TRef.nullary main_call6.cst (constant S_ .f32 0x00000000#32),
    StableHlo.TRef.binary (.of main_v81 : StableHlo.TRef sig ⟨S50000x96, .f32⟩) main_call6.cst main_call6.v0 (fun x v => Host.reduceAdd x v reducesTo_S50000x96_S96_d0 h_S_),
    StableHlo.TRef.unary main_call6.v0 main_call6.v1 (broadcastInDim S1x96 ![1] bcast_S96_S1x96_1),
    StableHlo.TRef.nullary main_call6.cst_0 (constant S_ .f32 0x47435000#32),
    StableHlo.TRef.unary main_call6.cst_0 main_call6.v2 (broadcastInDim S1x96 ![] bcast_S_S1x96),
    StableHlo.TRef.binary main_call6.v1 main_call6.v2 main_call6.v3 Host.divf,
    StableHlo.TRef.unary main_call6.v3 main_call6.v4 (broadcastInDim S50000x96 ![0, 1] bcast_S1x96_S50000x96_0_1),
    StableHlo.TRef.binary (.of main_v81 : StableHlo.TRef sig ⟨S50000x96, .f32⟩) main_call6.v4 main_call6.v5 subf,
    StableHlo.TRef.binary main_call6.v5 main_call6.v5 main_call6.v6 mulf,
    StableHlo.TRef.unary (.of main_c_20 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x96_S96_d0 h_S_),
    StableHlo.TRef.unary main_call6.v8 main_call6.v10 (broadcastInDim S96 ![] bcast_S_S96),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S96 ![] bcast_S_S96),
    StableHlo.TRef.ternary main_call6.v12 main_call6.v11 main_call6.call0.v1 main_call6.call0.v2 (fun p a b => select (broadcastInDim S96 ![] bcast_S_S96 p) a b) ]

/-- Stretch 14: the aggregate normalised, scaled, shifted, and its relu (19 operations). -/
abbrev ck14 : List (HloOp τ sig (Elt F)) :=
  [ StableHlo.unary main_v104 main_v106 (broadcastInDim S1x96 ![1] bcast_S96_S1x96_1 : (⟨S96, .f32⟩ : BufTy).Contents (Elt F) → (⟨S1x96, .f32⟩ : BufTy).Contents (Elt F)),
    StableHlo.unary main_v106 main_v107 (broadcastInDim S50000x96 ![0, 1] bcast_S1x96_S50000x96_0_1 : (⟨S1x96, .f32⟩ : BufTy).Contents (Elt F) → (⟨S50000x96, .f32⟩ : BufTy).Contents (Elt F)),
    StableHlo.binary main_v81 main_v107 main_v108 (subf : (⟨S50000x96, .f32⟩ : BufTy).Contents (Elt F) → (⟨S50000x96, .f32⟩ : BufTy).Contents (Elt F) → (⟨S50000x96, .f32⟩ : BufTy).Contents (Elt F)),
    StableHlo.nullary main_cst_21 (constant S_ .f32 0x3727C5AC#32),
    StableHlo.unary main_cst_21 main_v109 (broadcastInDim S96 ![] bcast_S_S96 : (⟨S_, .f32⟩ : BufTy).Contents (Elt F) → (⟨S96, .f32⟩ : BufTy).Contents (Elt F)),
    StableHlo.binary main_v105 main_v109 main_v110 (addf : (⟨S96, .f32⟩ : BufTy).Contents (Elt F) → (⟨S96, .f32⟩ : BufTy).Contents (Elt F) → (⟨S96, .f32⟩ : BufTy).Contents (Elt F)),
    StableHlo.unary main_v110 main_v111 (Host.rsqrt : (⟨S96, .f32⟩ : BufTy).Contents (Elt F) → (⟨S96, .f32⟩ : BufTy).Contents (Elt F)),
    StableHlo.unary main_v111 main_v112 (broadcastInDim S1x96 ![1] bcast_S96_S1x96_1 : (⟨S96, .f32⟩ : BufTy).Contents (Elt F) → (⟨S1x96, .f32⟩ : BufTy).Contents (Elt F)),
    StableHlo.unary main_v112 main_v113 (broadcastInDim S50000x96 ![0, 1] bcast_S1x96_S50000x96_0_1 : (⟨S1x96, .f32⟩ : BufTy).Contents (Elt F) → (⟨S50000x96, .f32⟩ : BufTy).Contents (Elt F)),
    StableHlo.binary main_v108 main_v113 main_v114 (mulf : (⟨S50000x96, .f32⟩ : BufTy).Contents (Elt F) → (⟨S50000x96, .f32⟩ : BufTy).Contents (Elt F) → (⟨S50000x96, .f32⟩ : BufTy).Contents (Elt F)),
    StableHlo.unary main_arg14 main_v115 (broadcastInDim S1x96 ![1] bcast_S96_S1x96_1 : (⟨S96, .f32⟩ : BufTy).Contents (Elt F) → (⟨S1x96, .f32⟩ : BufTy).Contents (Elt F)),
    StableHlo.unary main_v115 main_v116 (broadcastInDim S50000x96 ![0, 1] bcast_S1x96_S50000x96_0_1 : (⟨S1x96, .f32⟩ : BufTy).Contents (Elt F) → (⟨S50000x96, .f32⟩ : BufTy).Contents (Elt F)),
    StableHlo.binary main_v114 main_v116 main_v117 (mulf : (⟨S50000x96, .f32⟩ : BufTy).Contents (Elt F) → (⟨S50000x96, .f32⟩ : BufTy).Contents (Elt F) → (⟨S50000x96, .f32⟩ : BufTy).Contents (Elt F)),
    StableHlo.unary main_arg15 main_v118 (broadcastInDim S1x96 ![1] bcast_S96_S1x96_1 : (⟨S96, .f32⟩ : BufTy).Contents (Elt F) → (⟨S1x96, .f32⟩ : BufTy).Contents (Elt F)),
    StableHlo.unary main_v118 main_v119 (broadcastInDim S50000x96 ![0, 1] bcast_S1x96_S50000x96_0_1 : (⟨S1x96, .f32⟩ : BufTy).Contents (Elt F) → (⟨S50000x96, .f32⟩ : BufTy).Contents (Elt F)),
    StableHlo.binary main_v117 main_v119 main_v120 (addf : (⟨S50000x96, .f32⟩ : BufTy).Contents (Elt F) → (⟨S50000x96, .f32⟩ : BufTy).Contents (Elt F) → (⟨S50000x96, .f32⟩ : BufTy).Contents (Elt F)),
    StableHlo.TRef.nullary main_call7.cst (constant S_ .f32 0x00000000#32),
    StableHlo.TRef.unary main_call7.cst main_call7.v0 (broadcastInDim S50000x96 ![] bcast_S_S50000x96),
    StableHlo.TRef.binary (.of main_v120 : StableHlo.TRef sig ⟨S50000x96, .f32⟩) main_call7.v0 main_call7.v1 maximumf ]

/-- Stretch 15: the two results: the residuals added (2 operations). -/
abbrev ck15 : List (HloOp τ sig (Elt F)) :=
  [ StableHlo.binary main_v121 main_arg0 main_v122 (addf : (⟨S50000x96, .f32⟩ : BufTy).Contents (Elt F) → (⟨S50000x96, .f32⟩ : BufTy).Contents (Elt F) → (⟨S50000x96, .f32⟩ : BufTy).Contents (Elt F)),
    StableHlo.binary main_v101 main_arg3 main_v123 (addf : (⟨S800000x64, .f32⟩ : BufTy).Contents (Elt F) → (⟨S800000x64, .f32⟩ : BufTy).Contents (Elt F) → (⟨S800000x64, .f32⟩ : BufTy).Contents (Elt F)) ]

/-- The three windows of @main as lists of operations. -/
abbrev p0 : List (HloOp τ sig (Elt F)) := ck01 ++ (ck02 ++ (ck03 ++ (ck04 ++ (ck05))))
abbrev p1 : List (HloOp τ sig (Elt F)) := ck06 ++ (ck07 ++ (ck08 ++ (ck09 ++ (ck10))))
abbrev p2 : List (HloOp τ sig (Elt F)) := ck11 ++ (ck12 ++ (ck13 ++ (ck14 ++ (ck15))))

/-- @main's operations, in order. -/
abbrev ops : List (HloOp τ sig (Elt F)) := p0 ++ (p1 ++ p2)

set_option maxRecDepth 8192 in
set_option maxHeartbeats 4000000 in
/-- A window of @main is the straight line of its operations: the functions' definitions unfolded at their calls,
    both sides are one chain of steps once sequencing is reassociated. -/
theorem main_part0_eq (c : Dev nD) : main_part0 (F := F) c = seq p0 := by
  simp only [main_part0, fn_relu.body, fn_relu_0.body, fn_where.body, fn_where_1.body, fn_var.body, fn_where_3.body, fn_var_2.body, fn_relu_4.body, seq, bind_assoc, pure_bind]
  rfl

set_option maxRecDepth 8192 in
set_option maxHeartbeats 4000000 in
/-- A window of @main is the straight line of its operations: the functions' definitions unfolded at their calls,
    both sides are one chain of steps once sequencing is reassociated. -/
theorem main_part1_eq (c : Dev nD) : main_part1 (F := F) c = seq p1 := by
  simp only [main_part1, fn_relu.body, fn_relu_0.body, fn_where.body, fn_where_1.body, fn_var.body, fn_where_3.body, fn_var_2.body, fn_relu_4.body, seq, bind_assoc, pure_bind]
  rfl

set_option maxRecDepth 8192 in
set_option maxHeartbeats 4000000 in
/-- A window of @main is the straight line of its operations: the functions' definitions unfolded at their calls,
    both sides are one chain of steps once sequencing is reassociated. -/
theorem main_part2_eq (c : Dev nD) : main_part2 (F := F) c = seq p2 := by
  simp only [main_part2, fn_relu.body, fn_relu_0.body, fn_where.body, fn_where_1.body, fn_var.body, fn_where_3.body, fn_var_2.body, fn_relu_4.body, seq, bind_assoc, pure_bind]
  rfl

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ck01_sub : (ck01 : List (HloOp τ sig (Elt F))).Forall fun op => op.bufs ⊆ tcRefs τ sig :=
  ⟨unary_bufs_sub .., reshape_bufs_sub .., unary_bufs_sub .., reshape_bufs_sub ..⟩
theorem ck02_sub : (ck02 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nary_bufs_sub .., unary_bufs_sub .., binary_bufs_sub .., unary_bufs_sub .., unary_bufs_sub .., binary_bufs_sub ..⟩
theorem ck03_sub : (ck03 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., unary_bufs_sub .., binary_bufs_sub .., reshape_bufs_sub ..⟩
theorem ck04_sub : (ck04 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub ..⟩
theorem ck05_sub : (ck05 : List (HloOp τ sig (Elt F))).Forall fun op => op.bufs ⊆ tcRefs τ sig :=
  ⟨nullary_bufs_sub .., unary_bufs_sub .., binary_bufs_sub ..⟩
theorem ck06_sub : (ck06 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ck07_sub : (ck07 : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩
theorem ck08_sub : (ck08 : List (HloOp τ sig (Elt F))).Forall fun op => op.bufs ⊆ tcRefs τ sig :=
  ⟨nullary_bufs_sub .., binary_bufs_sub .., nullary_bufs_sub .., unary_bufs_sub .., binary_bufs_sub ..⟩
theorem ck09_sub : (ck09 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ck10_sub : (ck10 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩
theorem ck11_sub : (ck11 : List (HloOp τ sig (Elt F))).Forall fun op => op.bufs ⊆ tcRefs τ sig :=
  ⟨binary_bufs_sub .., nullary_bufs_sub .., unary_bufs_sub .., binary_bufs_sub ..⟩
theorem ck12_sub : (ck12 : List (HloOp τ sig (Elt F))).Forall fun op => op.bufs ⊆ tcRefs τ sig :=
  ⟨nullary_bufs_sub .., binary_bufs_sub .., nullary_bufs_sub .., unary_bufs_sub .., binary_bufs_sub ..⟩
theorem ck13_sub : (ck13 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ck14_sub : (ck14 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ck15_sub : (ck15 : List (HloOp τ sig (Elt F))).Forall fun op => op.bufs ⊆ tcRefs τ sig :=
  ⟨binary_bufs_sub .., binary_bufs_sub ..⟩

theorem ops_sub : (ops : List (HloOp τ sig (Elt F))).Forall fun op => op.bufs ⊆ tcRefs τ sig :=
  List.forall_iff_forall_mem.mpr fun op h => by
    simp only [ops, p0, p1, p2, List.mem_append] at h
    rcases h with (h | h | h | h | h) | (h | h | h | h | h) | (h | h | h | h | h)
    exacts [List.forall_iff_forall_mem.mp ck01_sub op h, List.forall_iff_forall_mem.mp ck02_sub op h, List.forall_iff_forall_mem.mp ck03_sub op h, List.forall_iff_forall_mem.mp ck04_sub op h, List.forall_iff_forall_mem.mp ck05_sub op h, List.forall_iff_forall_mem.mp ck06_sub op h, List.forall_iff_forall_mem.mp ck07_sub op h, List.forall_iff_forall_mem.mp ck08_sub op h, List.forall_iff_forall_mem.mp ck09_sub op h, List.forall_iff_forall_mem.mp ck10_sub op h, List.forall_iff_forall_mem.mp ck11_sub op h, List.forall_iff_forall_mem.mp ck12_sub op h, List.forall_iff_forall_mem.mp ck13_sub op h, List.forall_iff_forall_mem.mp ck14_sub op h, List.forall_iff_forall_mem.mp ck15_sub op h]

end Cert.ReferenceIdeal.RefRun

end
-- ==== Proof.RefRunChain.lean ====
/-
  The buffer contents after each stretch of the reference's operations, from any starting contents `V0`:
  `valK V0` is what the device holds once the first K stretches have run. A stretch rewrites only the buffers it
  writes (`ckKK_W`), so every other buffer keeps its contents through it (`valK_keep`); in particular no
  operation writes an argument, and each argument's buffer holds its starting contents after every stretch.
-/
import proofs.«157719_j687194767630_1_alg».proof.Proof.RefRunOps

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

open Facts₀ Facts

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

section Nary3
variable {Val : EltTy → Type} {x a b y : Ref sig .tc}

/-- An operation over a literal family of three references (a concatenation of three operands): its result with each
    operand's contents at its own reference, so that the operands' contents can be rewritten further. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G
end Nary3

/-- The results of a literal list of operations at one buffer, in one rewriting pass: each operation's result at its own
    buffer is its function's value, at any other buffer what was there; a three-operand operation reads each operand at its
    own reference. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- The buffers stretch 1 writes. -/
abbrev ck01_W : List (Ref sig .tc) := [main_v0, main_v1, main_v2, main_v3]
set_option maxRecDepth 8192 in
theorem ck01_writes : (ck01 : List (HloOp τ sig (Elt F))).Forall fun op => op.writes ⊆ (ck01_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 2 writes. -/
abbrev ck02_W : List (Ref sig .tc) := [main_c, main_v4, main_v5, main_c_0, main_v6, main_v7, main_v8, main_v9, main_v10, main_c_1, main_v11, main_v12, main_c_2, main_v13, main_v14, main_v15, main_v16, main_v17, main_v18, main_v19, main_v20, main_v21, main_v22, main_v23, main_v24, main_v25, main_v26, main_v27, main_v28, main_v29]
set_option maxRecDepth 8192 in
theorem ck02_writes : (ck02 : List (HloOp τ sig (Elt F))).Forall fun op => op.writes ⊆ (ck02_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 3 writes. -/
abbrev ck03_W : List (Ref sig .tc) := [main_call0_cst, main_call0_v0, main_v30, main_v31, main_v32, main_v33, main_v34, main_v35, main_call1_cst, main_call1_v0, main_v36, main_v37]
set_option maxRecDepth 8192 in
theorem ck03_writes : (ck03 : List (HloOp τ sig (Elt F))).Forall fun op => op.writes ⊆ (ck03_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 4 writes. -/
abbrev ck04_W : List (Ref sig .tc) := [main_cst, main_v38, main_v39, main_v40, main_cst_3, main_v41, main_v42, main_cst_4, main_v43, main_v44, main_cst_5, main_call2_v0, main_call2_v1, main_v45, main_v46, main_cst_6, main_call3_v0, main_call3_v1, main_v47]
set_option maxRecDepth 8192 in
theorem ck04_writes : (ck04 : List (HloOp τ sig (Elt F))).Forall fun op => op.writes ⊆ (ck04_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 5 writes. -/
abbrev ck05_W : List (Ref sig .tc) := [main_c_7, main_v48, main_v49]
set_option maxRecDepth 8192 in
theorem ck05_writes : (ck05 : List (HloOp τ sig (Elt F))).Forall fun op => op.writes ⊆ (ck05_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 6 writes. -/
abbrev ck06_W : List (Ref sig .tc) := [main_c_8, main_v50, main_v51, main_v52, main_v53, main_v54, main_v55, main_c_9, main_v56, main_v57, main_c_10, main_v58, main_v59, main_v60, main_v61, main_v62, main_v63]
set_option maxRecDepth 8192 in
theorem ck06_writes : (ck06 : List (HloOp τ sig (Elt F))).Forall fun op => op.writes ⊆ (ck06_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 7 writes. -/
abbrev ck07_W : List (Ref sig .tc) := [main_v64, main_v65, main_v66, main_c_11, main_v67, main_v68, main_c_12, main_v69, main_v70, main_v71, main_v72, main_v73, main_v74, main_v75, main_cst_13, main_v76, main_v77, main_v78, main_v79, main_v80, main_v81]
set_option maxRecDepth 8192 in
theorem ck07_writes : (ck07 : List (HloOp τ sig (Elt F))).Forall fun op => op.writes ⊆ (ck07_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 8 writes. -/
abbrev ck08_W : List (Ref sig .tc) := [main_cst_14, main_v82, main_cst_15, main_v83, main_v84]
set_option maxRecDepth 8192 in
theorem ck08_writes : (ck08 : List (HloOp τ sig (Elt F))).Forall fun op => op.writes ⊆ (ck08_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 9 writes. -/
abbrev ck09_W : List (Ref sig .tc) := [main_c_16, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v85]
set_option maxRecDepth 8192 in
theorem ck09_writes : (ck09 : List (HloOp τ sig (Elt F))).Forall fun op => op.writes ⊆ (ck09_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 10 writes. -/
abbrev ck10_W : List (Ref sig .tc) := [main_v86, main_v87, main_v88, main_cst_17, main_v89, main_v90, main_v91, main_v92, main_v93, main_v94, main_v95, main_v96, main_v97, main_v98, main_v99]
set_option maxRecDepth 8192 in
theorem ck10_writes : (ck10 : List (HloOp τ sig (Elt F))).Forall fun op => op.writes ⊆ (ck10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 11 writes. -/
abbrev ck11_W : List (Ref sig .tc) := [main_v100, main_call5_cst, main_call5_v0, main_v101]
set_option maxRecDepth 8192 in
theorem ck11_writes : (ck11 : List (HloOp τ sig (Elt F))).Forall fun op => op.writes ⊆ (ck11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 12 writes. -/
abbrev ck12_W : List (Ref sig .tc) := [main_cst_18, main_v102, main_cst_19, main_v103, main_v104]
set_option maxRecDepth 8192 in
theorem ck12_writes : (ck12 : List (HloOp τ sig (Elt F))).Forall fun op => op.writes ⊆ (ck12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 13 writes. -/
abbrev ck13_W : List (Ref sig .tc) := [main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v105]
set_option maxRecDepth 8192 in
theorem ck13_writes : (ck13 : List (HloOp τ sig (Elt F))).Forall fun op => op.writes ⊆ (ck13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 14 writes. -/
abbrev ck14_W : List (Ref sig .tc) := [main_v106, main_v107, main_v108, main_cst_21, main_v109, main_v110, main_v111, main_v112, main_v113, main_v114, main_v115, main_v116, main_v117, main_v118, main_v119, main_v120, main_call7_cst, main_call7_v0, main_v121]
set_option maxRecDepth 8192 in
theorem ck14_writes : (ck14 : List (HloOp τ sig (Elt F))).Forall fun op => op.writes ⊆ (ck14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers stretch 15 writes. -/
abbrev ck15_W : List (Ref sig .tc) := [main_v122, main_v123]
set_option maxRecDepth 8192 in
theorem ck15_writes : (ck15 : List (HloOp τ sig (Elt F))).Forall fun op => op.writes ⊆ (ck15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

variable (V0 : Valuation τ sig (Elt F))

/-- The device's buffer contents after the first 1 stretch. -/
def val1 : Valuation τ sig (Elt F) := after ck01 V0
theorem val1_def : val1 V0 = after ck01 V0 := rfl
/-- A buffer that stretch 1 does not write keeps its contents through it. -/
theorem val1_keep (r : Ref sig .tc) (h : r ∉ ck01_W) : val1 V0 (Proc.devRef .tc r) = V0 (Proc.devRef .tc r) :=
  after_of_writes_sub ck01 _ ck01_writes h
theorem val1_main_arg0 : val1 V0 (no_index (Proc.devRef .tc main_arg0)) = V0 (Proc.devRef .tc main_arg0) :=
  val1_keep V0 main_arg0 (by decide)
theorem val1_main_arg1 : val1 V0 (no_index (Proc.devRef .tc main_arg1)) = V0 (Proc.devRef .tc main_arg1) :=
  val1_keep V0 main_arg1 (by decide)
theorem val1_main_arg2 : val1 V0 (no_index (Proc.devRef .tc main_arg2)) = V0 (Proc.devRef .tc main_arg2) :=
  val1_keep V0 main_arg2 (by decide)
theorem val1_main_arg3 : val1 V0 (no_index (Proc.devRef .tc main_arg3)) = V0 (Proc.devRef .tc main_arg3) :=
  val1_keep V0 main_arg3 (by decide)
theorem val1_main_arg4 : val1 V0 (no_index (Proc.devRef .tc main_arg4)) = V0 (Proc.devRef .tc main_arg4) :=
  val1_keep V0 main_arg4 (by decide)
theorem val1_main_arg5 : val1 V0 (no_index (Proc.devRef .tc main_arg5)) = V0 (Proc.devRef .tc main_arg5) :=
  val1_keep V0 main_arg5 (by decide)
theorem val1_main_arg6 : val1 V0 (no_index (Proc.devRef .tc main_arg6)) = V0 (Proc.devRef .tc main_arg6) :=
  val1_keep V0 main_arg6 (by decide)
theorem val1_main_arg7 : val1 V0 (no_index (Proc.devRef .tc main_arg7)) = V0 (Proc.devRef .tc main_arg7) :=
  val1_keep V0 main_arg7 (by decide)
theorem val1_main_arg8 : val1 V0 (no_index (Proc.devRef .tc main_arg8)) = V0 (Proc.devRef .tc main_arg8) :=
  val1_keep V0 main_arg8 (by decide)
theorem val1_main_arg9 : val1 V0 (no_index (Proc.devRef .tc main_arg9)) = V0 (Proc.devRef .tc main_arg9) :=
  val1_keep V0 main_arg9 (by decide)
theorem val1_main_arg10 : val1 V0 (no_index (Proc.devRef .tc main_arg10)) = V0 (Proc.devRef .tc main_arg10) :=
  val1_keep V0 main_arg10 (by decide)
theorem val1_main_arg11 : val1 V0 (no_index (Proc.devRef .tc main_arg11)) = V0 (Proc.devRef .tc main_arg11) :=
  val1_keep V0 main_arg11 (by decide)
theorem val1_main_arg12 : val1 V0 (no_index (Proc.devRef .tc main_arg12)) = V0 (Proc.devRef .tc main_arg12) :=
  val1_keep V0 main_arg12 (by decide)
theorem val1_main_arg13 : val1 V0 (no_index (Proc.devRef .tc main_arg13)) = V0 (Proc.devRef .tc main_arg13) :=
  val1_keep V0 main_arg13 (by decide)
theorem val1_main_arg14 : val1 V0 (no_index (Proc.devRef .tc main_arg14)) = V0 (Proc.devRef .tc main_arg14) :=
  val1_keep V0 main_arg14 (by decide)
theorem val1_main_arg15 : val1 V0 (no_index (Proc.devRef .tc main_arg15)) = V0 (Proc.devRef .tc main_arg15) :=
  val1_keep V0 main_arg15 (by decide)

/-- The device's buffer contents after the first 2 stretches. -/
def val2 : Valuation τ sig (Elt F) := after ck02 (val1 V0)
theorem val2_def : val2 V0 = after ck02 (val1 V0) := rfl
/-- A buffer that stretch 2 does not write keeps its contents through it. -/
theorem val2_keep (r : Ref sig .tc) (h : r ∉ ck02_W) : val2 V0 (Proc.devRef .tc r) = val1 V0 (Proc.devRef .tc r) :=
  after_of_writes_sub ck02 _ ck02_writes h
theorem val2_main_arg0 : val2 V0 (no_index (Proc.devRef .tc main_arg0)) = V0 (Proc.devRef .tc main_arg0) :=
  (val2_keep V0 main_arg0 (by decide)).trans (val1_main_arg0 V0)
theorem val2_main_arg1 : val2 V0 (no_index (Proc.devRef .tc main_arg1)) = V0 (Proc.devRef .tc main_arg1) :=
  (val2_keep V0 main_arg1 (by decide)).trans (val1_main_arg1 V0)
theorem val2_main_arg2 : val2 V0 (no_index (Proc.devRef .tc main_arg2)) = V0 (Proc.devRef .tc main_arg2) :=
  (val2_keep V0 main_arg2 (by decide)).trans (val1_main_arg2 V0)
theorem val2_main_arg3 : val2 V0 (no_index (Proc.devRef .tc main_arg3)) = V0 (Proc.devRef .tc main_arg3) :=
  (val2_keep V0 main_arg3 (by decide)).trans (val1_main_arg3 V0)
theorem val2_main_arg4 : val2 V0 (no_index (Proc.devRef .tc main_arg4)) = V0 (Proc.devRef .tc main_arg4) :=
  (val2_keep V0 main_arg4 (by decide)).trans (val1_main_arg4 V0)
theorem val2_main_arg5 : val2 V0 (no_index (Proc.devRef .tc main_arg5)) = V0 (Proc.devRef .tc main_arg5) :=
  (val2_keep V0 main_arg5 (by decide)).trans (val1_main_arg5 V0)
theorem val2_main_arg6 : val2 V0 (no_index (Proc.devRef .tc main_arg6)) = V0 (Proc.devRef .tc main_arg6) :=
  (val2_keep V0 main_arg6 (by decide)).trans (val1_main_arg6 V0)
theorem val2_main_arg7 : val2 V0 (no_index (Proc.devRef .tc main_arg7)) = V0 (Proc.devRef .tc main_arg7) :=
  (val2_keep V0 main_arg7 (by decide)).trans (val1_main_arg7 V0)
theorem val2_main_arg8 : val2 V0 (no_index (Proc.devRef .tc main_arg8)) = V0 (Proc.devRef .tc main_arg8) :=
  (val2_keep V0 main_arg8 (by decide)).trans (val1_main_arg8 V0)
theorem val2_main_arg9 : val2 V0 (no_index (Proc.devRef .tc main_arg9)) = V0 (Proc.devRef .tc main_arg9) :=
  (val2_keep V0 main_arg9 (by decide)).trans (val1_main_arg9 V0)
theorem val2_main_arg10 : val2 V0 (no_index (Proc.devRef .tc main_arg10)) = V0 (Proc.devRef .tc main_arg10) :=
  (val2_keep V0 main_arg10 (by decide)).trans (val1_main_arg10 V0)
theorem val2_main_arg11 : val2 V0 (no_index (Proc.devRef .tc main_arg11)) = V0 (Proc.devRef .tc main_arg11) :=
  (val2_keep V0 main_arg11 (by decide)).trans (val1_main_arg11 V0)
theorem val2_main_arg12 : val2 V0 (no_index (Proc.devRef .tc main_arg12)) = V0 (Proc.devRef .tc main_arg12) :=
  (val2_keep V0 main_arg12 (by decide)).trans (val1_main_arg12 V0)
theorem val2_main_arg13 : val2 V0 (no_index (Proc.devRef .tc main_arg13)) = V0 (Proc.devRef .tc main_arg13) :=
  (val2_keep V0 main_arg13 (by decide)).trans (val1_main_arg13 V0)
theorem val2_main_arg14 : val2 V0 (no_index (Proc.devRef .tc main_arg14)) = V0 (Proc.devRef .tc main_arg14) :=
  (val2_keep V0 main_arg14 (by decide)).trans (val1_main_arg14 V0)
theorem val2_main_arg15 : val2 V0 (no_index (Proc.devRef .tc main_arg15)) = V0 (Proc.devRef .tc main_arg15) :=
  (val2_keep V0 main_arg15 (by decide)).trans (val1_main_arg15 V0)

/-- The device's buffer contents after the first 3 stretches. -/
def val3 : Valuation τ sig (Elt F) := after ck03 (val2 V0)
theorem val3_def : val3 V0 = after ck03 (val2 V0) := rfl
/-- A buffer that stretch 3 does not write keeps its contents through it. -/
theorem val3_keep (r : Ref sig .tc) (h : r ∉ ck03_W) : val3 V0 (Proc.devRef .tc r) = val2 V0 (Proc.devRef .tc r) :=
  after_of_writes_sub ck03 _ ck03_writes h
theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_arg5 : val3 V0 (no_index (Proc.devRef .tc main_arg5)) = V0 (Proc.devRef .tc main_arg5) :=
  (val3_keep V0 main_arg5 (by decide)).trans (val2_main_arg5 V0)
theorem val3_main_arg6 : val3 V0 (no_index (Proc.devRef .tc main_arg6)) = V0 (Proc.devRef .tc main_arg6) :=
  (val3_keep V0 main_arg6 (by decide)).trans (val2_main_arg6 V0)
theorem val3_main_arg7 : val3 V0 (no_index (Proc.devRef .tc main_arg7)) = V0 (Proc.devRef .tc main_arg7) :=
  (val3_keep V0 main_arg7 (by decide)).trans (val2_main_arg7 V0)
theorem val3_main_arg8 : val3 V0 (no_index (Proc.devRef .tc main_arg8)) = V0 (Proc.devRef .tc main_arg8) :=
  (val3_keep V0 main_arg8 (by decide)).trans (val2_main_arg8 V0)
theorem val3_main_arg9 : val3 V0 (no_index (Proc.devRef .tc main_arg9)) = V0 (Proc.devRef .tc main_arg9) :=
  (val3_keep V0 main_arg9 (by decide)).trans (val2_main_arg9 V0)
theorem val3_main_arg10 : val3 V0 (no_index (Proc.devRef .tc main_arg10)) = V0 (Proc.devRef .tc main_arg10) :=
  (val3_keep V0 main_arg10 (by decide)).trans (val2_main_arg10 V0)
theorem val3_main_arg11 : val3 V0 (no_index (Proc.devRef .tc main_arg11)) = V0 (Proc.devRef .tc main_arg11) :=
  (val3_keep V0 main_arg11 (by decide)).trans (val2_main_arg11 V0)
theorem val3_main_arg12 : val3 V0 (no_index (Proc.devRef .tc main_arg12)) = V0 (Proc.devRef .tc main_arg12) :=
  (val3_keep V0 main_arg12 (by decide)).trans (val2_main_arg12 V0)
theorem val3_main_arg13 : val3 V0 (no_index (Proc.devRef .tc main_arg13)) = V0 (Proc.devRef .tc main_arg13) :=
  (val3_keep V0 main_arg13 (by decide)).trans (val2_main_arg13 V0)
theorem val3_main_arg14 : val3 V0 (no_index (Proc.devRef .tc main_arg14)) = V0 (Proc.devRef .tc main_arg14) :=
  (val3_keep V0 main_arg14 (by decide)).trans (val2_main_arg14 V0)
theorem val3_main_arg15 : val3 V0 (no_index (Proc.devRef .tc main_arg15)) = V0 (Proc.devRef .tc main_arg15) :=
  (val3_keep V0 main_arg15 (by decide)).trans (val2_main_arg15 V0)

/-- The device's buffer contents after the first 4 stretches. -/
def val4 : Valuation τ sig (Elt F) := after ck04 (val3 V0)
theorem val4_def : val4 V0 = after ck04 (val3 V0) := rfl
/-- A buffer that stretch 4 does not write keeps its contents through it. -/
theorem val4_keep (r : Ref sig .tc) (h : r ∉ ck04_W) : val4 V0 (Proc.devRef .tc r) = val3 V0 (Proc.devRef .tc r) :=
  after_of_writes_sub ck04 _ ck04_writes h
theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_arg2 : val4 V0 (no_index (Proc.devRef .tc main_arg2)) = V0 (Proc.devRef .tc main_arg2) :=
  (val4_keep V0 main_arg2 (by decide)).trans (val3_main_arg2 V0)
theorem val4_main_arg3 : val4 V0 (no_index (Proc.devRef .tc main_arg3)) = V0 (Proc.devRef .tc main_arg3) :=
  (val4_keep V0 main_arg3 (by decide)).trans (val3_main_arg3 V0)
theorem val4_main_arg4 : val4 V0 (no_index (Proc.devRef .tc main_arg4)) = V0 (Proc.devRef .tc main_arg4) :=
  (val4_keep V0 main_arg4 (by decide)).trans (val3_main_arg4 V0)
theorem val4_main_arg5 : val4 V0 (no_index (Proc.devRef .tc main_arg5)) = V0 (Proc.devRef .tc main_arg5) :=
  (val4_keep V0 main_arg5 (by decide)).trans (val3_main_arg5 V0)
theorem val4_main_arg6 : val4 V0 (no_index (Proc.devRef .tc main_arg6)) = V0 (Proc.devRef .tc main_arg6) :=
  (val4_keep V0 main_arg6 (by decide)).trans (val3_main_arg6 V0)
theorem val4_main_arg7 : val4 V0 (no_index (Proc.devRef .tc main_arg7)) = V0 (Proc.devRef .tc main_arg7) :=
  (val4_keep V0 main_arg7 (by decide)).trans (val3_main_arg7 V0)
theorem val4_main_arg8 : val4 V0 (no_index (Proc.devRef .tc main_arg8)) = V0 (Proc.devRef .tc main_arg8) :=
  (val4_keep V0 main_arg8 (by decide)).trans (val3_main_arg8 V0)
theorem val4_main_arg9 : val4 V0 (no_index (Proc.devRef .tc main_arg9)) = V0 (Proc.devRef .tc main_arg9) :=
  (val4_keep V0 main_arg9 (by decide)).trans (val3_main_arg9 V0)
theorem val4_main_arg10 : val4 V0 (no_index (Proc.devRef .tc main_arg10)) = V0 (Proc.devRef .tc main_arg10) :=
  (val4_keep V0 main_arg10 (by decide)).trans (val3_main_arg10 V0)
theorem val4_main_arg11 : val4 V0 (no_index (Proc.devRef .tc main_arg11)) = V0 (Proc.devRef .tc main_arg11) :=
  (val4_keep V0 main_arg11 (by decide)).trans (val3_main_arg11 V0)
theorem val4_main_arg12 : val4 V0 (no_index (Proc.devRef .tc main_arg12)) = V0 (Proc.devRef .tc main_arg12) :=
  (val4_keep V0 main_arg12 (by decide)).trans (val3_main_arg12 V0)
theorem val4_main_arg13 : val4 V0 (no_index (Proc.devRef .tc main_arg13)) = V0 (Proc.devRef .tc main_arg13) :=
  (val4_keep V0 main_arg13 (by decide)).trans (val3_main_arg13 V0)
theorem val4_main_arg14 : val4 V0 (no_index (Proc.devRef .tc main_arg14)) = V0 (Proc.devRef .tc main_arg14) :=
  (val4_keep V0 main_arg14 (by decide)).trans (val3_main_arg14 V0)
theorem val4_main_arg15 : val4 V0 (no_index (Proc.devRef .tc main_arg15)) = V0 (Proc.devRef .tc main_arg15) :=
  (val4_keep V0 main_arg15 (by decide)).trans (val3_main_arg15 V0)

/-- The device's buffer contents after the first 5 stretches. -/
def val5 : Valuation τ sig (Elt F) := after ck05 (val4 V0)
theorem val5_def : val5 V0 = after ck05 (val4 V0) := rfl
/-- A buffer that stretch 5 does not write keeps its contents through it. -/
theorem val5_keep (r : Ref sig .tc) (h : r ∉ ck05_W) : val5 V0 (Proc.devRef .tc r) = val4 V0 (Proc.devRef .tc r) :=
  after_of_writes_sub ck05 _ ck05_writes h
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_arg2 : val5 V0 (no_index (Proc.devRef .tc main_arg2)) = V0 (Proc.devRef .tc main_arg2) :=
  (val5_keep V0 main_arg2 (by decide)).trans (val4_main_arg2 V0)
theorem val5_main_arg3 : val5 V0 (no_index (Proc.devRef .tc main_arg3)) = V0 (Proc.devRef .tc main_arg3) :=
  (val5_keep V0 main_arg3 (by decide)).trans (val4_main_arg3 V0)
theorem val5_main_arg4 : val5 V0 (no_index (Proc.devRef .tc main_arg4)) = V0 (Proc.devRef .tc main_arg4) :=
  (val5_keep V0 main_arg4 (by decide)).trans (val4_main_arg4 V0)
theorem val5_main_arg5 : val5 V0 (no_index (Proc.devRef .tc main_arg5)) = V0 (Proc.devRef .tc main_arg5) :=
  (val5_keep V0 main_arg5 (by decide)).trans (val4_main_arg5 V0)
theorem val5_main_arg6 : val5 V0 (no_index (Proc.devRef .tc main_arg6)) = V0 (Proc.devRef .tc main_arg6) :=
  (val5_keep V0 main_arg6 (by decide)).trans (val4_main_arg6 V0)
theorem val5_main_arg7 : val5 V0 (no_index (Proc.devRef .tc main_arg7)) = V0 (Proc.devRef .tc main_arg7) :=
  (val5_keep V0 main_arg7 (by decide)).trans (val4_main_arg7 V0)
theorem val5_main_arg8 : val5 V0 (no_index (Proc.devRef .tc main_arg8)) = V0 (Proc.devRef .tc main_arg8) :=
  (val5_keep V0 main_arg8 (by decide)).trans (val4_main_arg8 V0)
theorem val5_main_arg9 : val5 V0 (no_index (Proc.devRef .tc main_arg9)) = V0 (Proc.devRef .tc main_arg9) :=
  (val5_keep V0 main_arg9 (by decide)).trans (val4_main_arg9 V0)
theorem val5_main_arg10 : val5 V0 (no_index (Proc.devRef .tc main_arg10)) = V0 (Proc.devRef .tc main_arg10) :=
  (val5_keep V0 main_arg10 (by decide)).trans (val4_main_arg10 V0)
theorem val5_main_arg11 : val5 V0 (no_index (Proc.devRef .tc main_arg11)) = V0 (Proc.devRef .tc main_arg11) :=
  (val5_keep V0 main_arg11 (by decide)).trans (val4_main_arg11 V0)
theorem val5_main_arg12 : val5 V0 (no_index (Proc.devRef .tc main_arg12)) = V0 (Proc.devRef .tc main_arg12) :=
  (val5_keep V0 main_arg12 (by decide)).trans (val4_main_arg12 V0)
theorem val5_main_arg13 : val5 V0 (no_index (Proc.devRef .tc main_arg13)) = V0 (Proc.devRef .tc main_arg13) :=
  (val5_keep V0 main_arg13 (by decide)).trans (val4_main_arg13 V0)
theorem val5_main_arg14 : val5 V0 (no_index (Proc.devRef .tc main_arg14)) = V0 (Proc.devRef .tc main_arg14) :=
  (val5_keep V0 main_arg14 (by decide)).trans (val4_main_arg14 V0)
theorem val5_main_arg15 : val5 V0 (no_index (Proc.devRef .tc main_arg15)) = V0 (Proc.devRef .tc main_arg15) :=
  (val5_keep V0 main_arg15 (by decide)).trans (val4_main_arg15 V0)

/-- The device's buffer contents after the first 6 stretches. -/
def val6 : Valuation τ sig (Elt F) := after ck06 (val5 V0)
theorem val6_def : val6 V0 = after ck06 (val5 V0) := rfl
/-- A buffer that stretch 6 does not write keeps its contents through it. -/
theorem val6_keep (r : Ref sig .tc) (h : r ∉ ck06_W) : val6 V0 (Proc.devRef .tc r) = val5 V0 (Proc.devRef .tc r) :=
  after_of_writes_sub ck06 _ ck06_writes h
theorem val6_main_arg0 : val6 V0 (no_index (Proc.devRef .tc main_arg0)) = V0 (Proc.devRef .tc main_arg0) :=
  (val6_keep V0 main_arg0 (by decide)).trans (val5_main_arg0 V0)
theorem val6_main_arg1 : val6 V0 (no_index (Proc.devRef .tc main_arg1)) = V0 (Proc.devRef .tc main_arg1) :=
  (val6_keep V0 main_arg1 (by decide)).trans (val5_main_arg1 V0)
theorem val6_main_arg2 : val6 V0 (no_index (Proc.devRef .tc main_arg2)) = V0 (Proc.devRef .tc main_arg2) :=
  (val6_keep V0 main_arg2 (by decide)).trans (val5_main_arg2 V0)
theorem val6_main_arg3 : val6 V0 (no_index (Proc.devRef .tc main_arg3)) = V0 (Proc.devRef .tc main_arg3) :=
  (val6_keep V0 main_arg3 (by decide)).trans (val5_main_arg3 V0)
theorem val6_main_arg4 : val6 V0 (no_index (Proc.devRef .tc main_arg4)) = V0 (Proc.devRef .tc main_arg4) :=
  (val6_keep V0 main_arg4 (by decide)).trans (val5_main_arg4 V0)
theorem val6_main_arg5 : val6 V0 (no_index (Proc.devRef .tc main_arg5)) = V0 (Proc.devRef .tc main_arg5) :=
  (val6_keep V0 main_arg5 (by decide)).trans (val5_main_arg5 V0)
theorem val6_main_arg6 : val6 V0 (no_index (Proc.devRef .tc main_arg6)) = V0 (Proc.devRef .tc main_arg6) :=
  (val6_keep V0 main_arg6 (by decide)).trans (val5_main_arg6 V0)
theorem val6_main_arg7 : val6 V0 (no_index (Proc.devRef .tc main_arg7)) = V0 (Proc.devRef .tc main_arg7) :=
  (val6_keep V0 main_arg7 (by decide)).trans (val5_main_arg7 V0)
theorem val6_main_arg8 : val6 V0 (no_index (Proc.devRef .tc main_arg8)) = V0 (Proc.devRef .tc main_arg8) :=
  (val6_keep V0 main_arg8 (by decide)).trans (val5_main_arg8 V0)
theorem val6_main_arg9 : val6 V0 (no_index (Proc.devRef .tc main_arg9)) = V0 (Proc.devRef .tc main_arg9) :=
  (val6_keep V0 main_arg9 (by decide)).trans (val5_main_arg9 V0)
theorem val6_main_arg10 : val6 V0 (no_index (Proc.devRef .tc main_arg10)) = V0 (Proc.devRef .tc main_arg10) :=
  (val6_keep V0 main_arg10 (by decide)).trans (val5_main_arg10 V0)
theorem val6_main_arg11 : val6 V0 (no_index (Proc.devRef .tc main_arg11)) = V0 (Proc.devRef .tc main_arg11) :=
  (val6_keep V0 main_arg11 (by decide)).trans (val5_main_arg11 V0)
theorem val6_main_arg12 : val6 V0 (no_index (Proc.devRef .tc main_arg12)) = V0 (Proc.devRef .tc main_arg12) :=
  (val6_keep V0 main_arg12 (by decide)).trans (val5_main_arg12 V0)
theorem val6_main_arg13 : val6 V0 (no_index (Proc.devRef .tc main_arg13)) = V0 (Proc.devRef .tc main_arg13) :=
  (val6_keep V0 main_arg13 (by decide)).trans (val5_main_arg13 V0)
theorem val6_main_arg14 : val6 V0 (no_index (Proc.devRef .tc main_arg14)) = V0 (Proc.devRef .tc main_arg14) :=
  (val6_keep V0 main_arg14 (by decide)).trans (val5_main_arg14 V0)
theorem val6_main_arg15 : val6 V0 (no_index (Proc.devRef .tc main_arg15)) = V0 (Proc.devRef .tc main_arg15) :=
  (val6_keep V0 main_arg15 (by decide)).trans (val5_main_arg15 V0)

/-- The device's buffer contents after the first 7 stretches. -/
def val7 : Valuation τ sig (Elt F) := after ck07 (val6 V0)
theorem val7_def : val7 V0 = after ck07 (val6 V0) := rfl
/-- A buffer that stretch 7 does not write keeps its contents through it. -/
theorem val7_keep (r : Ref sig .tc) (h : r ∉ ck07_W) : val7 V0 (Proc.devRef .tc r) = val6 V0 (Proc.devRef .tc r) :=
  after_of_writes_sub ck07 _ ck07_writes h
theorem val7_main_arg0 : val7 V0 (no_index (Proc.devRef .tc main_arg0)) = V0 (Proc.devRef .tc main_arg0) :=
  (val7_keep V0 main_arg0 (by decide)).trans (val6_main_arg0 V0)
theorem val7_main_arg1 : val7 V0 (no_index (Proc.devRef .tc main_arg1)) = V0 (Proc.devRef .tc main_arg1) :=
  (val7_keep V0 main_arg1 (by decide)).trans (val6_main_arg1 V0)
theorem val7_main_arg2 : val7 V0 (no_index (Proc.devRef .tc main_arg2)) = V0 (Proc.devRef .tc main_arg2) :=
  (val7_keep V0 main_arg2 (by decide)).trans (val6_main_arg2 V0)
theorem val7_main_arg3 : val7 V0 (no_index (Proc.devRef .tc main_arg3)) = V0 (Proc.devRef .tc main_arg3) :=
  (val7_keep V0 main_arg3 (by decide)).trans (val6_main_arg3 V0)
theorem val7_main_arg4 : val7 V0 (no_index (Proc.devRef .tc main_arg4)) = V0 (Proc.devRef .tc main_arg4) :=
  (val7_keep V0 main_arg4 (by decide)).trans (val6_main_arg4 V0)
theorem val7_main_arg5 : val7 V0 (no_index (Proc.devRef .tc main_arg5)) = V0 (Proc.devRef .tc main_arg5) :=
  (val7_keep V0 main_arg5 (by decide)).trans (val6_main_arg5 V0)
theorem val7_main_arg6 : val7 V0 (no_index (Proc.devRef .tc main_arg6)) = V0 (Proc.devRef .tc main_arg6) :=
  (val7_keep V0 main_arg6 (by decide)).trans (val6_main_arg6 V0)
theorem val7_main_arg7 : val7 V0 (no_index (Proc.devRef .tc main_arg7)) = V0 (Proc.devRef .tc main_arg7) :=
  (val7_keep V0 main_arg7 (by decide)).trans (val6_main_arg7 V0)
theorem val7_main_arg8 : val7 V0 (no_index (Proc.devRef .tc main_arg8)) = V0 (Proc.devRef .tc main_arg8) :=
  (val7_keep V0 main_arg8 (by decide)).trans (val6_main_arg8 V0)
theorem val7_main_arg9 : val7 V0 (no_index (Proc.devRef .tc main_arg9)) = V0 (Proc.devRef .tc main_arg9) :=
  (val7_keep V0 main_arg9 (by decide)).trans (val6_main_arg9 V0)
theorem val7_main_arg10 : val7 V0 (no_index (Proc.devRef .tc main_arg10)) = V0 (Proc.devRef .tc main_arg10) :=
  (val7_keep V0 main_arg10 (by decide)).trans (val6_main_arg10 V0)
theorem val7_main_arg11 : val7 V0 (no_index (Proc.devRef .tc main_arg11)) = V0 (Proc.devRef .tc main_arg11) :=
  (val7_keep V0 main_arg11 (by decide)).trans (val6_main_arg11 V0)
theorem val7_main_arg12 : val7 V0 (no_index (Proc.devRef .tc main_arg12)) = V0 (Proc.devRef .tc main_arg12) :=
  (val7_keep V0 main_arg12 (by decide)).trans (val6_main_arg12 V0)
theorem val7_main_arg13 : val7 V0 (no_index (Proc.devRef .tc main_arg13)) = V0 (Proc.devRef .tc main_arg13) :=
  (val7_keep V0 main_arg13 (by decide)).trans (val6_main_arg13 V0)
theorem val7_main_arg14 : val7 V0 (no_index (Proc.devRef .tc main_arg14)) = V0 (Proc.devRef .tc main_arg14) :=
  (val7_keep V0 main_arg14 (by decide)).trans (val6_main_arg14 V0)
theorem val7_main_arg15 : val7 V0 (no_index (Proc.devRef .tc main_arg15)) = V0 (Proc.devRef .tc main_arg15) :=
  (val7_keep V0 main_arg15 (by decide)).trans (val6_main_arg15 V0)

/-- The device's buffer contents after the first 8 stretches. -/
def val8 : Valuation τ sig (Elt F) := after ck08 (val7 V0)
theorem val8_def : val8 V0 = after ck08 (val7 V0) := rfl
/-- A buffer that stretch 8 does not write keeps its contents through it. -/
theorem val8_keep (r : Ref sig .tc) (h : r ∉ ck08_W) : val8 V0 (Proc.devRef .tc r) = val7 V0 (Proc.devRef .tc r) :=
  after_of_writes_sub ck08 _ ck08_writes h
theorem val8_main_arg0 : val8 V0 (no_index (Proc.devRef .tc main_arg0)) = V0 (Proc.devRef .tc main_arg0) :=
  (val8_keep V0 main_arg0 (by decide)).trans (val7_main_arg0 V0)
theorem val8_main_arg1 : val8 V0 (no_index (Proc.devRef .tc main_arg1)) = V0 (Proc.devRef .tc main_arg1) :=
  (val8_keep V0 main_arg1 (by decide)).trans (val7_main_arg1 V0)
theorem val8_main_arg2 : val8 V0 (no_index (Proc.devRef .tc main_arg2)) = V0 (Proc.devRef .tc main_arg2) :=
  (val8_keep V0 main_arg2 (by decide)).trans (val7_main_arg2 V0)
theorem val8_main_arg3 : val8 V0 (no_index (Proc.devRef .tc main_arg3)) = V0 (Proc.devRef .tc main_arg3) :=
  (val8_keep V0 main_arg3 (by decide)).trans (val7_main_arg3 V0)
theorem val8_main_arg4 : val8 V0 (no_index (Proc.devRef .tc main_arg4)) = V0 (Proc.devRef .tc main_arg4) :=
  (val8_keep V0 main_arg4 (by decide)).trans (val7_main_arg4 V0)
theorem val8_main_arg5 : val8 V0 (no_index (Proc.devRef .tc main_arg5)) = V0 (Proc.devRef .tc main_arg5) :=
  (val8_keep V0 main_arg5 (by decide)).trans (val7_main_arg5 V0)
theorem val8_main_arg6 : val8 V0 (no_index (Proc.devRef .tc main_arg6)) = V0 (Proc.devRef .tc main_arg6) :=
  (val8_keep V0 main_arg6 (by decide)).trans (val7_main_arg6 V0)
theorem val8_main_arg7 : val8 V0 (no_index (Proc.devRef .tc main_arg7)) = V0 (Proc.devRef .tc main_arg7) :=
  (val8_keep V0 main_arg7 (by decide)).trans (val7_main_arg7 V0)
theorem val8_main_arg8 : val8 V0 (no_index (Proc.devRef .tc main_arg8)) = V0 (Proc.devRef .tc main_arg8) :=
  (val8_keep V0 main_arg8 (by decide)).trans (val7_main_arg8 V0)
theorem val8_main_arg9 : val8 V0 (no_index (Proc.devRef .tc main_arg9)) = V0 (Proc.devRef .tc main_arg9) :=
  (val8_keep V0 main_arg9 (by decide)).trans (val7_main_arg9 V0)
theorem val8_main_arg10 : val8 V0 (no_index (Proc.devRef .tc main_arg10)) = V0 (Proc.devRef .tc main_arg10) :=
  (val8_keep V0 main_arg10 (by decide)).trans (val7_main_arg10 V0)
theorem val8_main_arg11 : val8 V0 (no_index (Proc.devRef .tc main_arg11)) = V0 (Proc.devRef .tc main_arg11) :=
  (val8_keep V0 main_arg11 (by decide)).trans (val7_main_arg11 V0)
theorem val8_main_arg12 : val8 V0 (no_index (Proc.devRef .tc main_arg12)) = V0 (Proc.devRef .tc main_arg12) :=
  (val8_keep V0 main_arg12 (by decide)).trans (val7_main_arg12 V0)
theorem val8_main_arg13 : val8 V0 (no_index (Proc.devRef .tc main_arg13)) = V0 (Proc.devRef .tc main_arg13) :=
  (val8_keep V0 main_arg13 (by decide)).trans (val7_main_arg13 V0)
theorem val8_main_arg14 : val8 V0 (no_index (Proc.devRef .tc main_arg14)) = V0 (Proc.devRef .tc main_arg14) :=
  (val8_keep V0 main_arg14 (by decide)).trans (val7_main_arg14 V0)
theorem val8_main_arg15 : val8 V0 (no_index (Proc.devRef .tc main_arg15)) = V0 (Proc.devRef .tc main_arg15) :=
  (val8_keep V0 main_arg15 (by decide)).trans (val7_main_arg15 V0)

/-- The device's buffer contents after the first 9 stretches. -/
def val9 : Valuation τ sig (Elt F) := after ck09 (val8 V0)
theorem val9_def : val9 V0 = after ck09 (val8 V0) := rfl
/-- A buffer that stretch 9 does not write keeps its contents through it. -/
theorem val9_keep (r : Ref sig .tc) (h : r ∉ ck09_W) : val9 V0 (Proc.devRef .tc r) = val8 V0 (Proc.devRef .tc r) :=
  after_of_writes_sub ck09 _ ck09_writes h
theorem val9_main_arg0 : val9 V0 (no_index (Proc.devRef .tc main_arg0)) = V0 (Proc.devRef .tc main_arg0) :=
  (val9_keep V0 main_arg0 (by decide)).trans (val8_main_arg0 V0)
theorem val9_main_arg1 : val9 V0 (no_index (Proc.devRef .tc main_arg1)) = V0 (Proc.devRef .tc main_arg1) :=
  (val9_keep V0 main_arg1 (by decide)).trans (val8_main_arg1 V0)
theorem val9_main_arg2 : val9 V0 (no_index (Proc.devRef .tc main_arg2)) = V0 (Proc.devRef .tc main_arg2) :=
  (val9_keep V0 main_arg2 (by decide)).trans (val8_main_arg2 V0)
theorem val9_main_arg3 : val9 V0 (no_index (Proc.devRef .tc main_arg3)) = V0 (Proc.devRef .tc main_arg3) :=
  (val9_keep V0 main_arg3 (by decide)).trans (val8_main_arg3 V0)
theorem val9_main_arg4 : val9 V0 (no_index (Proc.devRef .tc main_arg4)) = V0 (Proc.devRef .tc main_arg4) :=
  (val9_keep V0 main_arg4 (by decide)).trans (val8_main_arg4 V0)
theorem val9_main_arg5 : val9 V0 (no_index (Proc.devRef .tc main_arg5)) = V0 (Proc.devRef .tc main_arg5) :=
  (val9_keep V0 main_arg5 (by decide)).trans (val8_main_arg5 V0)
theorem val9_main_arg6 : val9 V0 (no_index (Proc.devRef .tc main_arg6)) = V0 (Proc.devRef .tc main_arg6) :=
  (val9_keep V0 main_arg6 (by decide)).trans (val8_main_arg6 V0)
theorem val9_main_arg7 : val9 V0 (no_index (Proc.devRef .tc main_arg7)) = V0 (Proc.devRef .tc main_arg7) :=
  (val9_keep V0 main_arg7 (by decide)).trans (val8_main_arg7 V0)
theorem val9_main_arg8 : val9 V0 (no_index (Proc.devRef .tc main_arg8)) = V0 (Proc.devRef .tc main_arg8) :=
  (val9_keep V0 main_arg8 (by decide)).trans (val8_main_arg8 V0)
theorem val9_main_arg9 : val9 V0 (no_index (Proc.devRef .tc main_arg9)) = V0 (Proc.devRef .tc main_arg9) :=
  (val9_keep V0 main_arg9 (by decide)).trans (val8_main_arg9 V0)
theorem val9_main_arg10 : val9 V0 (no_index (Proc.devRef .tc main_arg10)) = V0 (Proc.devRef .tc main_arg10) :=
  (val9_keep V0 main_arg10 (by decide)).trans (val8_main_arg10 V0)
theorem val9_main_arg11 : val9 V0 (no_index (Proc.devRef .tc main_arg11)) = V0 (Proc.devRef .tc main_arg11) :=
  (val9_keep V0 main_arg11 (by decide)).trans (val8_main_arg11 V0)
theorem val9_main_arg12 : val9 V0 (no_index (Proc.devRef .tc main_arg12)) = V0 (Proc.devRef .tc main_arg12) :=
  (val9_keep V0 main_arg12 (by decide)).trans (val8_main_arg12 V0)
theorem val9_main_arg13 : val9 V0 (no_index (Proc.devRef .tc main_arg13)) = V0 (Proc.devRef .tc main_arg13) :=
  (val9_keep V0 main_arg13 (by decide)).trans (val8_main_arg13 V0)
theorem val9_main_arg14 : val9 V0 (no_index (Proc.devRef .tc main_arg14)) = V0 (Proc.devRef .tc main_arg14) :=
  (val9_keep V0 main_arg14 (by decide)).trans (val8_main_arg14 V0)
theorem val9_main_arg15 : val9 V0 (no_index (Proc.devRef .tc main_arg15)) = V0 (Proc.devRef .tc main_arg15) :=
  (val9_keep V0 main_arg15 (by decide)).trans (val8_main_arg15 V0)

/-- The device's buffer contents after the first 10 stretches. -/
def val10 : Valuation τ sig (Elt F) := after ck10 (val9 V0)
theorem val10_def : val10 V0 = after ck10 (val9 V0) := rfl
/-- A buffer that stretch 10 does not write keeps its contents through it. -/
theorem val10_keep (r : Ref sig .tc) (h : r ∉ ck10_W) : val10 V0 (Proc.devRef .tc r) = val9 V0 (Proc.devRef .tc r) :=
  after_of_writes_sub ck10 _ ck10_writes h
theorem val10_main_arg0 : val10 V0 (no_index (Proc.devRef .tc main_arg0)) = V0 (Proc.devRef .tc main_arg0) :=
  (val10_keep V0 main_arg0 (by decide)).trans (val9_main_arg0 V0)
theorem val10_main_arg1 : val10 V0 (no_index (Proc.devRef .tc main_arg1)) = V0 (Proc.devRef .tc main_arg1) :=
  (val10_keep V0 main_arg1 (by decide)).trans (val9_main_arg1 V0)
theorem val10_main_arg2 : val10 V0 (no_index (Proc.devRef .tc main_arg2)) = V0 (Proc.devRef .tc main_arg2) :=
  (val10_keep V0 main_arg2 (by decide)).trans (val9_main_arg2 V0)
theorem val10_main_arg3 : val10 V0 (no_index (Proc.devRef .tc main_arg3)) = V0 (Proc.devRef .tc main_arg3) :=
  (val10_keep V0 main_arg3 (by decide)).trans (val9_main_arg3 V0)
theorem val10_main_arg4 : val10 V0 (no_index (Proc.devRef .tc main_arg4)) = V0 (Proc.devRef .tc main_arg4) :=
  (val10_keep V0 main_arg4 (by decide)).trans (val9_main_arg4 V0)
theorem val10_main_arg5 : val10 V0 (no_index (Proc.devRef .tc main_arg5)) = V0 (Proc.devRef .tc main_arg5) :=
  (val10_keep V0 main_arg5 (by decide)).trans (val9_main_arg5 V0)
theorem val10_main_arg6 : val10 V0 (no_index (Proc.devRef .tc main_arg6)) = V0 (Proc.devRef .tc main_arg6) :=
  (val10_keep V0 main_arg6 (by decide)).trans (val9_main_arg6 V0)
theorem val10_main_arg7 : val10 V0 (no_index (Proc.devRef .tc main_arg7)) = V0 (Proc.devRef .tc main_arg7) :=
  (val10_keep V0 main_arg7 (by decide)).trans (val9_main_arg7 V0)
theorem val10_main_arg8 : val10 V0 (no_index (Proc.devRef .tc main_arg8)) = V0 (Proc.devRef .tc main_arg8) :=
  (val10_keep V0 main_arg8 (by decide)).trans (val9_main_arg8 V0)
theorem val10_main_arg9 : val10 V0 (no_index (Proc.devRef .tc main_arg9)) = V0 (Proc.devRef .tc main_arg9) :=
  (val10_keep V0 main_arg9 (by decide)).trans (val9_main_arg9 V0)
theorem val10_main_arg10 : val10 V0 (no_index (Proc.devRef .tc main_arg10)) = V0 (Proc.devRef .tc main_arg10) :=
  (val10_keep V0 main_arg10 (by decide)).trans (val9_main_arg10 V0)
theorem val10_main_arg11 : val10 V0 (no_index (Proc.devRef .tc main_arg11)) = V0 (Proc.devRef .tc main_arg11) :=
  (val10_keep V0 main_arg11 (by decide)).trans (val9_main_arg11 V0)
theorem val10_main_arg12 : val10 V0 (no_index (Proc.devRef .tc main_arg12)) = V0 (Proc.devRef .tc main_arg12) :=
  (val10_keep V0 main_arg12 (by decide)).trans (val9_main_arg12 V0)
theorem val10_main_arg13 : val10 V0 (no_index (Proc.devRef .tc main_arg13)) = V0 (Proc.devRef .tc main_arg13) :=
  (val10_keep V0 main_arg13 (by decide)).trans (val9_main_arg13 V0)
theorem val10_main_arg14 : val10 V0 (no_index (Proc.devRef .tc main_arg14)) = V0 (Proc.devRef .tc main_arg14) :=
  (val10_keep V0 main_arg14 (by decide)).trans (val9_main_arg14 V0)
theorem val10_main_arg15 : val10 V0 (no_index (Proc.devRef .tc main_arg15)) = V0 (Proc.devRef .tc main_arg15) :=
  (val10_keep V0 main_arg15 (by decide)).trans (val9_main_arg15 V0)

/-- The device's buffer contents after the first 11 stretches. -/
def val11 : Valuation τ sig (Elt F) := after ck11 (val10 V0)
theorem val11_def : val11 V0 = after ck11 (val10 V0) := rfl
/-- A buffer that stretch 11 does not write keeps its contents through it. -/
theorem val11_keep (r : Ref sig .tc) (h : r ∉ ck11_W) : val11 V0 (Proc.devRef .tc r) = val10 V0 (Proc.devRef .tc r) :=
  after_of_writes_sub ck11 _ ck11_writes h
theorem val11_main_arg0 : val11 V0 (no_index (Proc.devRef .tc main_arg0)) = V0 (Proc.devRef .tc main_arg0) :=
  (val11_keep V0 main_arg0 (by decide)).trans (val10_main_arg0 V0)
theorem val11_main_arg1 : val11 V0 (no_index (Proc.devRef .tc main_arg1)) = V0 (Proc.devRef .tc main_arg1) :=
  (val11_keep V0 main_arg1 (by decide)).trans (val10_main_arg1 V0)
theorem val11_main_arg2 : val11 V0 (no_index (Proc.devRef .tc main_arg2)) = V0 (Proc.devRef .tc main_arg2) :=
  (val11_keep V0 main_arg2 (by decide)).trans (val10_main_arg2 V0)
theorem val11_main_arg3 : val11 V0 (no_index (Proc.devRef .tc main_arg3)) = V0 (Proc.devRef .tc main_arg3) :=
  (val11_keep V0 main_arg3 (by decide)).trans (val10_main_arg3 V0)
theorem val11_main_arg4 : val11 V0 (no_index (Proc.devRef .tc main_arg4)) = V0 (Proc.devRef .tc main_arg4) :=
  (val11_keep V0 main_arg4 (by decide)).trans (val10_main_arg4 V0)
theorem val11_main_arg5 : val11 V0 (no_index (Proc.devRef .tc main_arg5)) = V0 (Proc.devRef .tc main_arg5) :=
  (val11_keep V0 main_arg5 (by decide)).trans (val10_main_arg5 V0)
theorem val11_main_arg6 : val11 V0 (no_index (Proc.devRef .tc main_arg6)) = V0 (Proc.devRef .tc main_arg6) :=
  (val11_keep V0 main_arg6 (by decide)).trans (val10_main_arg6 V0)
theorem val11_main_arg7 : val11 V0 (no_index (Proc.devRef .tc main_arg7)) = V0 (Proc.devRef .tc main_arg7) :=
  (val11_keep V0 main_arg7 (by decide)).trans (val10_main_arg7 V0)
theorem val11_main_arg8 : val11 V0 (no_index (Proc.devRef .tc main_arg8)) = V0 (Proc.devRef .tc main_arg8) :=
  (val11_keep V0 main_arg8 (by decide)).trans (val10_main_arg8 V0)
theorem val11_main_arg9 : val11 V0 (no_index (Proc.devRef .tc main_arg9)) = V0 (Proc.devRef .tc main_arg9) :=
  (val11_keep V0 main_arg9 (by decide)).trans (val10_main_arg9 V0)
theorem val11_main_arg10 : val11 V0 (no_index (Proc.devRef .tc main_arg10)) = V0 (Proc.devRef .tc main_arg10) :=
  (val11_keep V0 main_arg10 (by decide)).trans (val10_main_arg10 V0)
theorem val11_main_arg11 : val11 V0 (no_index (Proc.devRef .tc main_arg11)) = V0 (Proc.devRef .tc main_arg11) :=
  (val11_keep V0 main_arg11 (by decide)).trans (val10_main_arg11 V0)
theorem val11_main_arg12 : val11 V0 (no_index (Proc.devRef .tc main_arg12)) = V0 (Proc.devRef .tc main_arg12) :=
  (val11_keep V0 main_arg12 (by decide)).trans (val10_main_arg12 V0)
theorem val11_main_arg13 : val11 V0 (no_index (Proc.devRef .tc main_arg13)) = V0 (Proc.devRef .tc main_arg13) :=
  (val11_keep V0 main_arg13 (by decide)).trans (val10_main_arg13 V0)
theorem val11_main_arg14 : val11 V0 (no_index (Proc.devRef .tc main_arg14)) = V0 (Proc.devRef .tc main_arg14) :=
  (val11_keep V0 main_arg14 (by decide)).trans (val10_main_arg14 V0)
theorem val11_main_arg15 : val11 V0 (no_index (Proc.devRef .tc main_arg15)) = V0 (Proc.devRef .tc main_arg15) :=
  (val11_keep V0 main_arg15 (by decide)).trans (val10_main_arg15 V0)

/-- The device's buffer contents after the first 12 stretches. -/
def val12 : Valuation τ sig (Elt F) := after ck12 (val11 V0)
theorem val12_def : val12 V0 = after ck12 (val11 V0) := rfl
/-- A buffer that stretch 12 does not write keeps its contents through it. -/
theorem val12_keep (r : Ref sig .tc) (h : r ∉ ck12_W) : val12 V0 (Proc.devRef .tc r) = val11 V0 (Proc.devRef .tc r) :=
  after_of_writes_sub ck12 _ ck12_writes h
theorem val12_main_arg0 : val12 V0 (no_index (Proc.devRef .tc main_arg0)) = V0 (Proc.devRef .tc main_arg0) :=
  (val12_keep V0 main_arg0 (by decide)).trans (val11_main_arg0 V0)
theorem val12_main_arg1 : val12 V0 (no_index (Proc.devRef .tc main_arg1)) = V0 (Proc.devRef .tc main_arg1) :=
  (val12_keep V0 main_arg1 (by decide)).trans (val11_main_arg1 V0)
theorem val12_main_arg2 : val12 V0 (no_index (Proc.devRef .tc main_arg2)) = V0 (Proc.devRef .tc main_arg2) :=
  (val12_keep V0 main_arg2 (by decide)).trans (val11_main_arg2 V0)
theorem val12_main_arg3 : val12 V0 (no_index (Proc.devRef .tc main_arg3)) = V0 (Proc.devRef .tc main_arg3) :=
  (val12_keep V0 main_arg3 (by decide)).trans (val11_main_arg3 V0)
theorem val12_main_arg4 : val12 V0 (no_index (Proc.devRef .tc main_arg4)) = V0 (Proc.devRef .tc main_arg4) :=
  (val12_keep V0 main_arg4 (by decide)).trans (val11_main_arg4 V0)
theorem val12_main_arg5 : val12 V0 (no_index (Proc.devRef .tc main_arg5)) = V0 (Proc.devRef .tc main_arg5) :=
  (val12_keep V0 main_arg5 (by decide)).trans (val11_main_arg5 V0)
theorem val12_main_arg6 : val12 V0 (no_index (Proc.devRef .tc main_arg6)) = V0 (Proc.devRef .tc main_arg6) :=
  (val12_keep V0 main_arg6 (by decide)).trans (val11_main_arg6 V0)
theorem val12_main_arg7 : val12 V0 (no_index (Proc.devRef .tc main_arg7)) = V0 (Proc.devRef .tc main_arg7) :=
  (val12_keep V0 main_arg7 (by decide)).trans (val11_main_arg7 V0)
theorem val12_main_arg8 : val12 V0 (no_index (Proc.devRef .tc main_arg8)) = V0 (Proc.devRef .tc main_arg8) :=
  (val12_keep V0 main_arg8 (by decide)).trans (val11_main_arg8 V0)
theorem val12_main_arg9 : val12 V0 (no_index (Proc.devRef .tc main_arg9)) = V0 (Proc.devRef .tc main_arg9) :=
  (val12_keep V0 main_arg9 (by decide)).trans (val11_main_arg9 V0)
theorem val12_main_arg10 : val12 V0 (no_index (Proc.devRef .tc main_arg10)) = V0 (Proc.devRef .tc main_arg10) :=
  (val12_keep V0 main_arg10 (by decide)).trans (val11_main_arg10 V0)
theorem val12_main_arg11 : val12 V0 (no_index (Proc.devRef .tc main_arg11)) = V0 (Proc.devRef .tc main_arg11) :=
  (val12_keep V0 main_arg11 (by decide)).trans (val11_main_arg11 V0)
theorem val12_main_arg12 : val12 V0 (no_index (Proc.devRef .tc main_arg12)) = V0 (Proc.devRef .tc main_arg12) :=
  (val12_keep V0 main_arg12 (by decide)).trans (val11_main_arg12 V0)
theorem val12_main_arg13 : val12 V0 (no_index (Proc.devRef .tc main_arg13)) = V0 (Proc.devRef .tc main_arg13) :=
  (val12_keep V0 main_arg13 (by decide)).trans (val11_main_arg13 V0)
theorem val12_main_arg14 : val12 V0 (no_index (Proc.devRef .tc main_arg14)) = V0 (Proc.devRef .tc main_arg14) :=
  (val12_keep V0 main_arg14 (by decide)).trans (val11_main_arg14 V0)
theorem val12_main_arg15 : val12 V0 (no_index (Proc.devRef .tc main_arg15)) = V0 (Proc.devRef .tc main_arg15) :=
  (val12_keep V0 main_arg15 (by decide)).trans (val11_main_arg15 V0)

/-- The device's buffer contents after the first 13 stretches. -/
def val13 : Valuation τ sig (Elt F) := after ck13 (val12 V0)
theorem val13_def : val13 V0 = after ck13 (val12 V0) := rfl
/-- A buffer that stretch 13 does not write keeps its contents through it. -/
theorem val13_keep (r : Ref sig .tc) (h : r ∉ ck13_W) : val13 V0 (Proc.devRef .tc r) = val12 V0 (Proc.devRef .tc r) :=
  after_of_writes_sub ck13 _ ck13_writes h
theorem val13_main_arg0 : val13 V0 (no_index (Proc.devRef .tc main_arg0)) = V0 (Proc.devRef .tc main_arg0) :=
  (val13_keep V0 main_arg0 (by decide)).trans (val12_main_arg0 V0)
theorem val13_main_arg1 : val13 V0 (no_index (Proc.devRef .tc main_arg1)) = V0 (Proc.devRef .tc main_arg1) :=
  (val13_keep V0 main_arg1 (by decide)).trans (val12_main_arg1 V0)
theorem val13_main_arg2 : val13 V0 (no_index (Proc.devRef .tc main_arg2)) = V0 (Proc.devRef .tc main_arg2) :=
  (val13_keep V0 main_arg2 (by decide)).trans (val12_main_arg2 V0)
theorem val13_main_arg3 : val13 V0 (no_index (Proc.devRef .tc main_arg3)) = V0 (Proc.devRef .tc main_arg3) :=
  (val13_keep V0 main_arg3 (by decide)).trans (val12_main_arg3 V0)
theorem val13_main_arg4 : val13 V0 (no_index (Proc.devRef .tc main_arg4)) = V0 (Proc.devRef .tc main_arg4) :=
  (val13_keep V0 main_arg4 (by decide)).trans (val12_main_arg4 V0)
theorem val13_main_arg5 : val13 V0 (no_index (Proc.devRef .tc main_arg5)) = V0 (Proc.devRef .tc main_arg5) :=
  (val13_keep V0 main_arg5 (by decide)).trans (val12_main_arg5 V0)
theorem val13_main_arg6 : val13 V0 (no_index (Proc.devRef .tc main_arg6)) = V0 (Proc.devRef .tc main_arg6) :=
  (val13_keep V0 main_arg6 (by decide)).trans (val12_main_arg6 V0)
theorem val13_main_arg7 : val13 V0 (no_index (Proc.devRef .tc main_arg7)) = V0 (Proc.devRef .tc main_arg7) :=
  (val13_keep V0 main_arg7 (by decide)).trans (val12_main_arg7 V0)
theorem val13_main_arg8 : val13 V0 (no_index (Proc.devRef .tc main_arg8)) = V0 (Proc.devRef .tc main_arg8) :=
  (val13_keep V0 main_arg8 (by decide)).trans (val12_main_arg8 V0)
theorem val13_main_arg9 : val13 V0 (no_index (Proc.devRef .tc main_arg9)) = V0 (Proc.devRef .tc main_arg9) :=
  (val13_keep V0 main_arg9 (by decide)).trans (val12_main_arg9 V0)
theorem val13_main_arg10 : val13 V0 (no_index (Proc.devRef .tc main_arg10)) = V0 (Proc.devRef .tc main_arg10) :=
  (val13_keep V0 main_arg10 (by decide)).trans (val12_main_arg10 V0)
theorem val13_main_arg11 : val13 V0 (no_index (Proc.devRef .tc main_arg11)) = V0 (Proc.devRef .tc main_arg11) :=
  (val13_keep V0 main_arg11 (by decide)).trans (val12_main_arg11 V0)
theorem val13_main_arg12 : val13 V0 (no_index (Proc.devRef .tc main_arg12)) = V0 (Proc.devRef .tc main_arg12) :=
  (val13_keep V0 main_arg12 (by decide)).trans (val12_main_arg12 V0)
theorem val13_main_arg13 : val13 V0 (no_index (Proc.devRef .tc main_arg13)) = V0 (Proc.devRef .tc main_arg13) :=
  (val13_keep V0 main_arg13 (by decide)).trans (val12_main_arg13 V0)
theorem val13_main_arg14 : val13 V0 (no_index (Proc.devRef .tc main_arg14)) = V0 (Proc.devRef .tc main_arg14) :=
  (val13_keep V0 main_arg14 (by decide)).trans (val12_main_arg14 V0)
theorem val13_main_arg15 : val13 V0 (no_index (Proc.devRef .tc main_arg15)) = V0 (Proc.devRef .tc main_arg15) :=
  (val13_keep V0 main_arg15 (by decide)).trans (val12_main_arg15 V0)

/-- The device's buffer contents after the first 14 stretches. -/
def val14 : Valuation τ sig (Elt F) := after ck14 (val13 V0)
theorem val14_def : val14 V0 = after ck14 (val13 V0) := rfl
/-- A buffer that stretch 14 does not write keeps its contents through it. -/
theorem val14_keep (r : Ref sig .tc) (h : r ∉ ck14_W) : val14 V0 (Proc.devRef .tc r) = val13 V0 (Proc.devRef .tc r) :=
  after_of_writes_sub ck14 _ ck14_writes h
theorem val14_main_arg0 : val14 V0 (no_index (Proc.devRef .tc main_arg0)) = V0 (Proc.devRef .tc main_arg0) :=
  (val14_keep V0 main_arg0 (by decide)).trans (val13_main_arg0 V0)
theorem val14_main_arg1 : val14 V0 (no_index (Proc.devRef .tc main_arg1)) = V0 (Proc.devRef .tc main_arg1) :=
  (val14_keep V0 main_arg1 (by decide)).trans (val13_main_arg1 V0)
theorem val14_main_arg2 : val14 V0 (no_index (Proc.devRef .tc main_arg2)) = V0 (Proc.devRef .tc main_arg2) :=
  (val14_keep V0 main_arg2 (by decide)).trans (val13_main_arg2 V0)
theorem val14_main_arg3 : val14 V0 (no_index (Proc.devRef .tc main_arg3)) = V0 (Proc.devRef .tc main_arg3) :=
  (val14_keep V0 main_arg3 (by decide)).trans (val13_main_arg3 V0)
theorem val14_main_arg4 : val14 V0 (no_index (Proc.devRef .tc main_arg4)) = V0 (Proc.devRef .tc main_arg4) :=
  (val14_keep V0 main_arg4 (by decide)).trans (val13_main_arg4 V0)
theorem val14_main_arg5 : val14 V0 (no_index (Proc.devRef .tc main_arg5)) = V0 (Proc.devRef .tc main_arg5) :=
  (val14_keep V0 main_arg5 (by decide)).trans (val13_main_arg5 V0)
theorem val14_main_arg6 : val14 V0 (no_index (Proc.devRef .tc main_arg6)) = V0 (Proc.devRef .tc main_arg6) :=
  (val14_keep V0 main_arg6 (by decide)).trans (val13_main_arg6 V0)
theorem val14_main_arg7 : val14 V0 (no_index (Proc.devRef .tc main_arg7)) = V0 (Proc.devRef .tc main_arg7) :=
  (val14_keep V0 main_arg7 (by decide)).trans (val13_main_arg7 V0)
theorem val14_main_arg8 : val14 V0 (no_index (Proc.devRef .tc main_arg8)) = V0 (Proc.devRef .tc main_arg8) :=
  (val14_keep V0 main_arg8 (by decide)).trans (val13_main_arg8 V0)
theorem val14_main_arg9 : val14 V0 (no_index (Proc.devRef .tc main_arg9)) = V0 (Proc.devRef .tc main_arg9) :=
  (val14_keep V0 main_arg9 (by decide)).trans (val13_main_arg9 V0)
theorem val14_main_arg10 : val14 V0 (no_index (Proc.devRef .tc main_arg10)) = V0 (Proc.devRef .tc main_arg10) :=
  (val14_keep V0 main_arg10 (by decide)).trans (val13_main_arg10 V0)
theorem val14_main_arg11 : val14 V0 (no_index (Proc.devRef .tc main_arg11)) = V0 (Proc.devRef .tc main_arg11) :=
  (val14_keep V0 main_arg11 (by decide)).trans (val13_main_arg11 V0)
theorem val14_main_arg12 : val14 V0 (no_index (Proc.devRef .tc main_arg12)) = V0 (Proc.devRef .tc main_arg12) :=
  (val14_keep V0 main_arg12 (by decide)).trans (val13_main_arg12 V0)
theorem val14_main_arg13 : val14 V0 (no_index (Proc.devRef .tc main_arg13)) = V0 (Proc.devRef .tc main_arg13) :=
  (val14_keep V0 main_arg13 (by decide)).trans (val13_main_arg13 V0)
theorem val14_main_arg14 : val14 V0 (no_index (Proc.devRef .tc main_arg14)) = V0 (Proc.devRef .tc main_arg14) :=
  (val14_keep V0 main_arg14 (by decide)).trans (val13_main_arg14 V0)
theorem val14_main_arg15 : val14 V0 (no_index (Proc.devRef .tc main_arg15)) = V0 (Proc.devRef .tc main_arg15) :=
  (val14_keep V0 main_arg15 (by decide)).trans (val13_main_arg15 V0)

/-- The device's buffer contents after the first 15 stretches. -/
def val15 : Valuation τ sig (Elt F) := after ck15 (val14 V0)
theorem val15_def : val15 V0 = after ck15 (val14 V0) := rfl
/-- A buffer that stretch 15 does not write keeps its contents through it. -/
theorem val15_keep (r : Ref sig .tc) (h : r ∉ ck15_W) : val15 V0 (Proc.devRef .tc r) = val14 V0 (Proc.devRef .tc r) :=
  after_of_writes_sub ck15 _ ck15_writes h
theorem val15_main_arg0 : val15 V0 (no_index (Proc.devRef .tc main_arg0)) = V0 (Proc.devRef .tc main_arg0) :=
  (val15_keep V0 main_arg0 (by decide)).trans (val14_main_arg0 V0)
theorem val15_main_arg1 : val15 V0 (no_index (Proc.devRef .tc main_arg1)) = V0 (Proc.devRef .tc main_arg1) :=
  (val15_keep V0 main_arg1 (by decide)).trans (val14_main_arg1 V0)
theorem val15_main_arg2 : val15 V0 (no_index (Proc.devRef .tc main_arg2)) = V0 (Proc.devRef .tc main_arg2) :=
  (val15_keep V0 main_arg2 (by decide)).trans (val14_main_arg2 V0)
theorem val15_main_arg3 : val15 V0 (no_index (Proc.devRef .tc main_arg3)) = V0 (Proc.devRef .tc main_arg3) :=
  (val15_keep V0 main_arg3 (by decide)).trans (val14_main_arg3 V0)
theorem val15_main_arg4 : val15 V0 (no_index (Proc.devRef .tc main_arg4)) = V0 (Proc.devRef .tc main_arg4) :=
  (val15_keep V0 main_arg4 (by decide)).trans (val14_main_arg4 V0)
theorem val15_main_arg5 : val15 V0 (no_index (Proc.devRef .tc main_arg5)) = V0 (Proc.devRef .tc main_arg5) :=
  (val15_keep V0 main_arg5 (by decide)).trans (val14_main_arg5 V0)
theorem val15_main_arg6 : val15 V0 (no_index (Proc.devRef .tc main_arg6)) = V0 (Proc.devRef .tc main_arg6) :=
  (val15_keep V0 main_arg6 (by decide)).trans (val14_main_arg6 V0)
theorem val15_main_arg7 : val15 V0 (no_index (Proc.devRef .tc main_arg7)) = V0 (Proc.devRef .tc main_arg7) :=
  (val15_keep V0 main_arg7 (by decide)).trans (val14_main_arg7 V0)
theorem val15_main_arg8 : val15 V0 (no_index (Proc.devRef .tc main_arg8)) = V0 (Proc.devRef .tc main_arg8) :=
  (val15_keep V0 main_arg8 (by decide)).trans (val14_main_arg8 V0)
theorem val15_main_arg9 : val15 V0 (no_index (Proc.devRef .tc main_arg9)) = V0 (Proc.devRef .tc main_arg9) :=
  (val15_keep V0 main_arg9 (by decide)).trans (val14_main_arg9 V0)
theorem val15_main_arg10 : val15 V0 (no_index (Proc.devRef .tc main_arg10)) = V0 (Proc.devRef .tc main_arg10) :=
  (val15_keep V0 main_arg10 (by decide)).trans (val14_main_arg10 V0)
theorem val15_main_arg11 : val15 V0 (no_index (Proc.devRef .tc main_arg11)) = V0 (Proc.devRef .tc main_arg11) :=
  (val15_keep V0 main_arg11 (by decide)).trans (val14_main_arg11 V0)
theorem val15_main_arg12 : val15 V0 (no_index (Proc.devRef .tc main_arg12)) = V0 (Proc.devRef .tc main_arg12) :=
  (val15_keep V0 main_arg12 (by decide)).trans (val14_main_arg12 V0)
theorem val15_main_arg13 : val15 V0 (no_index (Proc.devRef .tc main_arg13)) = V0 (Proc.devRef .tc main_arg13) :=
  (val15_keep V0 main_arg13 (by decide)).trans (val14_main_arg13 V0)
theorem val15_main_arg14 : val15 V0 (no_index (Proc.devRef .tc main_arg14)) = V0 (Proc.devRef .tc main_arg14) :=
  (val15_keep V0 main_arg14 (by decide)).trans (val14_main_arg14 V0)
theorem val15_main_arg15 : val15 V0 (no_index (Proc.devRef .tc main_arg15)) = V0 (Proc.devRef .tc main_arg15) :=
  (val15_keep V0 main_arg15 (by decide)).trans (val14_main_arg15 V0)

/-- The whole list's fold is the last stretch's contents. -/
theorem after_ops : after ops V0 = val15 V0 := by
  simp only [ops, p0, p1, p2, after_app]
  rfl

end Cert.ReferenceIdeal.RefRun

end
-- ==== Proof.RefSpec.lean ====
/-
  The reference program's host operations, grouped into named stages: each definition below is the composition of
  the printed operations of one stretch of the reference's @main, as a pure function of the arrays it reads.

  * `srcOf`, `dstOf`   : the two rows of edge_index as vectors;
  * `wrapIdx`          : an index vector with negative entries shifted by the number of nodes, as a column;
  * `rowsOf`           : the rows of a node array picked by an index vector;
  * `featR`, `w1R`     : the edge feature and the edge weight;
  * `normR`            : the symmetric normalisation d⁻¹ᐟ²[src]·w·d⁻¹ᐟ²[dst] of the edge weights by the weighted in-degree;
  * `xwR`, `aggR`      : the node projection and the normalised aggregation over incoming edges plus bias;
  * `meanR64`, `varR64`, `meanR96`, `varR96` : column mean and (population) variance;
  * `bnR64`, `bnR96`   : normalise, scale, shift, relu, add the residual;
  * `outEdge`, `outNode` : the two results.
-/
import proofs.«157719_j687194767630_1_alg».proof.ReferenceIdeal

noncomputable section

namespace Cert.RefSpec

open Cert.ReferenceIdeal Idealize.ShloMosaic

variable {F : FTy → Type} [FloatOps F] [Facts]

open Facts₀ Facts

/-- Row 0 of edge_index: each edge's source node. -/
def srcOf (ei : Vec F S2x800000 .i32) : Vec F S800000 .i32 :=
  shapeCast S800000 (extractStridedSlice S1x800000 ![0, 0] ei slices_S2x800000_S1x800000_0_0) shapeCasts_S1x800000_S800000

/-- Row 1 of edge_index: each edge's target node. -/
def dstOf (ei : Vec F S2x800000 .i32) : Vec F S800000 .i32 :=
  shapeCast S800000 (extractStridedSlice S1x800000 ![1, 0] ei slices_S2x800000_S1x800000_1_0) shapeCasts_S1x800000_S800000

/-- Negative indices count from the end (the number of nodes is added); the result is a column of indices. -/
def wrapIdx (s : Vec F S800000 .i32) : Vec F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of a [50000, 96] array at the (wrapped) indices. -/
def rowsOf (x : Vec F S50000x96 .f32) (s : Vec F S800000 .i32) : Vec F S800000x96 .f32 :=
  Host.gather gather_S50000x96_S800000x1_S800000x96_1_0_n_n_0_1_196 x (wrapIdx s)

/-- The entries of a [50000] vector at the (wrapped) indices. -/
def entriesOf (v : Vec F S50000 .f32) (s : Vec F S800000 .i32) : Vec F S800000 .f32 :=
  Host.gather gather_S50000_S800000x1_S800000_n_0_n_n_0_1_1 v (wrapIdx s)

/-- The edge feature: ((x[src] − x[dst])·Wnᵀ + bn | edge_attr | edge_f)·Wecᵀ + bec. -/
def featR (xs xd : Vec F S800000x96 .f32) (ef : Vec F S800000x32 .f32) (ea : Vec F S800000x64 .f32)
    (Wn : Vec F S96x96 .f32) (bn : Vec F S96 .f32) (Wec : Vec F S64x192 .f32) (bec : Vec F S64 .f32) : Vec F S800000x64 .f32 :=
  addf
    (Host.dotGeneral dot_S800000x192_S192x64_S800000x64_1_0_0_1_n_n none
      (concatenate S800000x192 1
        [⟨S800000x96, addf (Host.dotGeneral dot_S800000x96_S96x96_S800000x96_1_0_0_1_n_n none (subf xs xd)
            (transpose S96x96 [1, 0] Wn transposes_S96x96_S96x96_1_0))
            (broadcastInDim S800000x96 ![0, 1] bcast_S1x96_S800000x96_0_1 (broadcastInDim S1x96 ![1] bcast_S96_S1x96_1 bn))⟩,
         ⟨S800000x64, ea⟩, ⟨S800000x32, ef⟩]
        concatenates_S800000x96_S800000x64_S800000x32_S800000x192_d1)
      (transpose S192x64 [1, 0] Wec transposes_S64x192_S192x64_1_0))
    (broadcastInDim S800000x64 ![0, 1] bcast_S1x64_S800000x64_0_1 (broadcastInDim S1x64 ![1] bcast_S64_S1x64_1 bec))

/-- The edge weight: relu(relu(feat)·Wwᵀ + bw), as a vector over the edges. -/
def w1R (feat : Vec F S800000x64 .f32) (Ww : Vec F S1x64 .f32) (bw : Vec F S1 .f32) : Vec F S800000 .f32 :=
  shapeCast S800000
    (maximumf
      (addf
        (Host.dotGeneral dot_S800000x64_S64x1_S800000x1_1_0_0_1_n_n none
          (maximumf feat (broadcastInDim S800000x64 ![] bcast_S_S800000x64 (constant S_ .f32 0x00000000#32)))
          (transpose S64x1 [1, 0] Ww transposes_S1x64_S64x1_1_0))
        (broadcastInDim S800000x1 ![0, 1] bcast_S1x1_S800000x1_0_1 (broadcastInDim S1x1 ![1] bcast_S1_S1x1_1 bw)))
      (broadcastInDim S800000x1 ![] bcast_S_S800000x1 (constant S_ .f32 0x00000000#32)))
    shapeCasts_S800000x1_S800000

/-- The weighted in-degree of every node: the edge weights summed into their target nodes. -/
def degR (w1 : Vec F S800000 .f32) (d : Vec F S800000 .i32) : Vec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 d) w1

/-- deg ↦ deg⁻¹ᐟ² where deg > 0, and 0 elsewhere. -/
def dinvR (deg : Vec F S50000 .f32) : Vec F S50000 .f32 :=
  select (cmpf .ogt deg (broadcastInDim S50000 ![] bcast_S_S50000 (constant S_ .f32 0x00000000#32)))
    (Host.rsqrt
      (select (cmpf .ogt deg (broadcastInDim S50000 ![] bcast_S_S50000 (constant S_ .f32 0x00000000#32))) deg
        (broadcastInDim S50000 ![] bcast_S_S50000 (id (constant S_ .f32 0x3F800000#32)))))
    (broadcastInDim S50000 ![] bcast_S_S50000 (id (constant S_ .f32 0x00000000#32)))

/-- The normalised edge weight dinv[src]·w·dinv[dst]. -/
def normR (w1 : Vec F S800000 .f32) (s d : Vec F S800000 .i32) : Vec F S800000 .f32 :=
  mulf (mulf (entriesOf (dinvR (degR w1 d)) s) w1) (entriesOf (dinvR (degR w1 d)) d)

/-- The node projection x·Wgᵀ. -/
def xwR (x : Vec F S50000x96 .f32) (Wg : Vec F S96x96 .f32) : Vec F S50000x96 .f32 :=
  Host.dotGeneral dot_S50000x96_S96x96_S50000x96_1_0_0_1_n_n none x (transpose S96x96 [1, 0] Wg transposes_S96x96_S96x96_1_0)

/-- The aggregation: the normalised source rows of xw summed into their target nodes, plus the bias. -/
def aggR (xw : Vec F S50000x96 .f32) (nrm : Vec F S800000 .f32) (s d : Vec F S800000 .i32) (bg : Vec F S96 .f32) : Vec F S50000x96 .f32 :=
  addf
    (Host.scatterAdd scatter_S50000x96_S800000x1_S800000x96_1_0_0_1
      (broadcastInDim S50000x96 ![] bcast_S_S50000x96 (constant S_ .f32 0x00000000#32))
      (broadcastInDim S800000x1 ![0] bcast_S800000_S800000x1_0 d)
      (mulf (broadcastInDim S800000x96 ![0, 1] bcast_S800000x1_S800000x96_0_1 (broadcastInDim S800000x1 ![0] bcast_S800000_S800000x1_0 nrm))
        (rowsOf xw s)))
    (broadcastInDim S50000x96 ![0, 1] bcast_S1x96_S50000x96_0_1 (broadcastInDim S1x96 ![1] bcast_S96_S1x96_1 bg))

/-- The column sums of an [800000, 64] array. -/
def colSum64 (h : Vec F S800000x64 .f32) : Vec F S64 .f32 :=
  Host.reduceAdd h (constant S_ .f32 0x00000000#32) reducesTo_S800000x64_S64_d0 h_S_

/-- The column sums of a [50000, 96] array. -/
def colSum96 (h : Vec F S50000x96 .f32) : Vec F S96 .f32 :=
  Host.reduceAdd h (constant S_ .f32 0x00000000#32) reducesTo_S50000x96_S96_d0 h_S_

/-- The column means over the 800000 edges. -/
def meanR64 (h : Vec F S800000x64 .f32) : Vec F S64 .f32 :=
  Host.divf (colSum64 h) (broadcastInDim S64 ![] bcast_S_S64 (constant S_ .f32 0x49435000#32))

/-- The column means over the 50000 nodes. -/
def meanR96 (h : Vec F S50000x96 .f32) : Vec F S96 .f32 :=
  Host.divf (colSum96 h) (broadcastInDim S96 ![] bcast_S_S96 (constant S_ .f32 0x47435000#32))

/-- The number of samples minus the degrees of freedom (here 0), as the variance divides by it. -/
def dofCount64 : Vec F S_ .f32 := subf (constant S_ .f32 0x49435000#32) (sitofp .f32 (constantI S_ 32 0#32))
def dofCount96 : Vec F S_ .f32 := subf (constant S_ .f32 0x47435000#32) (sitofp .f32 (constantI S_ 32 0#32))

/-- The centred squares (h − mean h)², the mean taken with the reduced axis kept. -/
def sqDev64 (h : Vec F S800000x64 .f32) : Vec F S800000x64 .f32 :=
  (fun v => mulf v v)
    (subf h (broadcastInDim S800000x64 ![0, 1] bcast_S1x64_S800000x64_0_1
      (Host.divf (broadcastInDim S1x64 ![1] bcast_S64_S1x64_1 (colSum64 h))
        (broadcastInDim S1x64 ![] bcast_S_S1x64 (constant S_ .f32 0x49435000#32)))))
def sqDev96 (h : Vec F S50000x96 .f32) : Vec F S50000x96 .f32 :=
  (fun v => mulf v v)
    (subf h (broadcastInDim S50000x96 ![0, 1] bcast_S1x96_S50000x96_0_1
      (Host.divf (broadcastInDim S1x96 ![1] bcast_S96_S1x96_1 (colSum96 h))
        (broadcastInDim S1x96 ![] bcast_S_S1x96 (constant S_ .f32 0x47435000#32)))))

/-- The column variances: the column sums of the centred squares over the count, where the count is positive. -/
def varR64 (h : Vec F S800000x64 .f32) : Vec F S64 .f32 :=
  select (broadcastInDim S64 ![] bcast_S_S64 (cmpf .ogt (dofCount64 (F := F)) (constant S_ .f32 0x00000000#32)))
    (Host.divf (colSum64 (sqDev64 h)) (broadcastInDim S64 ![] bcast_S_S64 dofCount64))
    (broadcastInDim S64 ![] bcast_S_S64 (id (constant S_ .f32 0x7FC00000#32)))
def varR96 (h : Vec F S50000x96 .f32) : Vec F S96 .f32 :=
  select (broadcastInDim S96 ![] bcast_S_S96 (cmpf .ogt (dofCount96 (F := F)) (constant S_ .f32 0x00000000#32)))
    (Host.divf (colSum96 (sqDev96 h)) (broadcastInDim S96 ![] bcast_S_S96 dofCount96))
    (broadcastInDim S96 ![] bcast_S_S96 (id (constant S_ .f32 0x7FC00000#32)))

/-- relu((h − μ)·rsqrt(σ² + ε)·γ + β) + res over the edges. -/
def bnR64 (h : Vec F S800000x64 .f32) (mu var gamma beta : Vec F S64 .f32) (res : Vec F S800000x64 .f32) : Vec F S800000x64 .f32 :=
  addf
    (maximumf
      (addf
        (mulf
          (mulf (subf h (broadcastInDim S800000x64 ![0, 1] bcast_S1x64_S800000x64_0_1 (broadcastInDim S1x64 ![1] bcast_S64_S1x64_1 mu)))
            (broadcastInDim S800000x64 ![0, 1] bcast_S1x64_S800000x64_0_1 (broadcastInDim S1x64 ![1] bcast_S64_S1x64_1
              (Host.rsqrt (addf var (broadcastInDim S64 ![] bcast_S_S64 (constant S_ .f32 0x3727C5AC#32)))))))
          (broadcastInDim S800000x64 ![0, 1] bcast_S1x64_S800000x64_0_1 (broadcastInDim S1x64 ![1] bcast_S64_S1x64_1 gamma)))
        (broadcastInDim S800000x64 ![0, 1] bcast_S1x64_S800000x64_0_1 (broadcastInDim S1x64 ![1] bcast_S64_S1x64_1 beta)))
      (broadcastInDim S800000x64 ![] bcast_S_S800000x64 (constant S_ .f32 0x00000000#32)))
    res

/-- relu((h − μ)·rsqrt(σ² + ε)·γ + β) + res over the nodes. -/
def bnR96 (h : Vec F S50000x96 .f32) (mu var gamma beta : Vec F S96 .f32) (res : Vec F S50000x96 .f32) : Vec F S50000x96 .f32 :=
  addf
    (maximumf
      (addf
        (mulf
          (mulf (subf h (broadcastInDim S50000x96 ![0, 1] bcast_S1x96_S50000x96_0_1 (broadcastInDim S1x96 ![1] bcast_S96_S1x96_1 mu)))
            (broadcastInDim S50000x96 ![0, 1] bcast_S1x96_S50000x96_0_1 (broadcastInDim S1x96 ![1] bcast_S96_S1x96_1
              (Host.rsqrt (addf var (broadcastInDim S96 ![] bcast_S_S96 (constant S_ .f32 0x3727C5AC#32)))))))
          (broadcastInDim S50000x96 ![0, 1] bcast_S1x96_S50000x96_0_1 (broadcastInDim S1x96 ![1] bcast_S96_S1x96_1 gamma)))
        (broadcastInDim S50000x96 ![0, 1] bcast_S1x96_S50000x96_0_1 (broadcastInDim S1x96 ![1] bcast_S96_S1x96_1 beta)))
      (broadcastInDim S50000x96 ![] bcast_S_S50000x96 (constant S_ .f32 0x00000000#32)))
    res

/-- The edge feature as a function of the program's arguments. -/
def featOf (x : Vec F S50000x96 .f32) (ei : Vec F S2x800000 .i32) (ef : Vec F S800000x32 .f32) (ea : Vec F S800000x64 .f32)
    (Wn : Vec F S96x96 .f32) (bn : Vec F S96 .f32) (Wec : Vec F S64x192 .f32) (bec : Vec F S64 .f32) : Vec F S800000x64 .f32 :=
  featR (rowsOf x (srcOf ei)) (rowsOf x (dstOf ei)) ef ea Wn bn Wec bec

/-- The aggregated node feature (before normalisation) as a function of the edge feature and the arguments. -/
def aggOf (feat : Vec F S800000x64 .f32) (x : Vec F S50000x96 .f32) (ei : Vec F S2x800000 .i32)
    (Ww : Vec F S1x64 .f32) (bw : Vec F S1 .f32) (Wg : Vec F S96x96 .f32) (bg : Vec F S96 .f32) : Vec F S50000x96 .f32 :=
  aggR (xwR x Wg) (normR (w1R feat Ww bw) (srcOf ei) (dstOf ei)) (srcOf ei) (dstOf ei) bg

/-- The second result: the normalised edge feature plus edge_attr. -/
def outEdge (feat : Vec F S800000x64 .f32) (ea : Vec F S800000x64 .f32) (ge be : Vec F S64 .f32) : Vec F S800000x64 .f32 :=
  bnR64 feat (meanR64 feat) (varR64 feat) ge be ea

/-- The first result: the normalised aggregated node feature plus x. -/
def outNode (agg : Vec F S50000x96 .f32) (x : Vec F S50000x96 .f32) (gn bnn : Vec F S96 .f32) : Vec F S50000x96 .f32 :=
  bnR96 agg (meanR96 agg) (varR96 agg) gn bnn x

end Cert.RefSpec

end
-- ==== Proof.RefRunStageA.lean ====
/-
  The reference's stages read off the fold, stretch by stretch, from any starting contents `V0` (first half: the edge
  feature, the edge weight, the degree normalisation and the aggregation). After each stretch, every buffer a later
  stretch reads holds the stage function of idealized values that the specification names, applied to the arguments'
  starting contents: the stretch's operations composed are that function by unfolding.
-/
import proofs.«157719_j687194767630_1_alg».proof.Proof.RefRunChain
import proofs.«157719_j687194767630_1_alg».proof.Proof.RefSpec

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

open Facts₀ Facts

variable (V0 : Valuation τ sig (Elt F))

/-! ### The arguments' contents and the stages' values as terms of them -/

/-- Argument 0's contents. -/
abbrev a0 : Vec F S50000x96 .f32 := V0 (Proc.devRef .tc main_arg0)
/-- Argument 1's contents. -/
abbrev a1 : Vec F S2x800000 .i32 := V0 (Proc.devRef .tc main_arg1)
/-- Argument 2's contents. -/
abbrev a2 : Vec F S800000x32 .f32 := V0 (Proc.devRef .tc main_arg2)
/-- Argument 3's contents. -/
abbrev a3 : Vec F S800000x64 .f32 := V0 (Proc.devRef .tc main_arg3)
/-- Argument 4's contents. -/
abbrev a4 : Vec F S96x96 .f32 := V0 (Proc.devRef .tc main_arg4)
/-- Argument 5's contents. -/
abbrev a5 : Vec F S96 .f32 := V0 (Proc.devRef .tc main_arg5)
/-- Argument 6's contents. -/
abbrev a6 : Vec F S64x192 .f32 := V0 (Proc.devRef .tc main_arg6)
/-- Argument 7's contents. -/
abbrev a7 : Vec F S64 .f32 := V0 (Proc.devRef .tc main_arg7)
/-- Argument 8's contents. -/
abbrev a8 : Vec F S1x64 .f32 := V0 (Proc.devRef .tc main_arg8)
/-- Argument 9's contents. -/
abbrev a9 : Vec F S1 .f32 := V0 (Proc.devRef .tc main_arg9)
/-- Argument 10's contents. -/
abbrev a10 : Vec F S96x96 .f32 := V0 (Proc.devRef .tc main_arg10)
/-- Argument 11's contents. -/
abbrev a11 : Vec F S96 .f32 := V0 (Proc.devRef .tc main_arg11)
/-- Argument 12's contents. -/
abbrev a12 : Vec F S64 .f32 := V0 (Proc.devRef .tc main_arg12)
/-- Argument 13's contents. -/
abbrev a13 : Vec F S64 .f32 := V0 (Proc.devRef .tc main_arg13)
/-- Argument 14's contents. -/
abbrev a14 : Vec F S96 .f32 := V0 (Proc.devRef .tc main_arg14)
/-- Argument 15's contents. -/
abbrev a15 : Vec F S96 .f32 := V0 (Proc.devRef .tc main_arg15)

/-- Source and target node of every edge. -/
abbrev tSrc : Vec F S800000 .i32 := Cert.RefSpec.srcOf (a1 V0)
abbrev tDst : Vec F S800000 .i32 := Cert.RefSpec.dstOf (a1 V0)
/-- The edge feature. -/
abbrev tFeat : Vec F S800000x64 .f32 := Cert.RefSpec.featOf (a0 V0) (a1 V0) (a2 V0) (a3 V0) (a4 V0) (a5 V0) (a6 V0) (a7 V0)
/-- The edge weight. -/
abbrev tW1 : Vec F S800000 .f32 := Cert.RefSpec.w1R (tFeat V0) (a8 V0) (a9 V0)
/-- The inverse square root of the weighted in-degree. -/
abbrev tDinv : Vec F S50000 .f32 := Cert.RefSpec.dinvR (Cert.RefSpec.degR (tW1 V0) (tDst V0))
/-- Which source indices are negative. -/
abbrev tLt : Vec F S800000 .i1 := cmpi .slt (tSrc V0) (broadcastInDim S800000 ![] bcast_S_S800000 (constantI S_ 32 0#32))
/-- The normalised edge weight. -/
abbrev tNorm : Vec F S800000 .f32 := Cert.RefSpec.normR (tW1 V0) (tSrc V0) (tDst V0)
/-- The aggregated node feature. -/
abbrev tAgg : Vec F S50000x96 .f32 := Cert.RefSpec.aggOf (tFeat V0) (a0 V0) (a1 V0) (a8 V0) (a9 V0) (a10 V0) (a11 V0)
/-- The edge feature normalised and scaled, and the shift's broadcast. -/
abbrev tScaled64 : Vec F S800000x64 .f32 :=
  mulf (mulf (subf (tFeat V0) (broadcastInDim S800000x64 ![0, 1] bcast_S1x64_S800000x64_0_1 (broadcastInDim S1x64 ![1] bcast_S64_S1x64_1 (Cert.RefSpec.meanR64 (tFeat V0)))))
      (broadcastInDim S800000x64 ![0, 1] bcast_S1x64_S800000x64_0_1 (broadcastInDim S1x64 ![1] bcast_S64_S1x64_1 (Host.rsqrt (addf (Cert.RefSpec.varR64 (tFeat V0)) (broadcastInDim S64 ![] bcast_S_S64 (constant S_ .f32 0x3727C5AC#32)))))))
    (broadcastInDim S800000x64 ![0, 1] bcast_S1x64_S800000x64_0_1 (broadcastInDim S1x64 ![1] bcast_S64_S1x64_1 (a12 V0)))
abbrev tShift64 : Vec F S800000x64 .f32 := (broadcastInDim S800000x64 ![0, 1] bcast_S1x64_S800000x64_0_1 (broadcastInDim S1x64 ![1] bcast_S64_S1x64_1 (a13 V0)))
/-- The normalised edge feature after the relu, before the residual. -/
abbrev tRelu64 : Vec F S800000x64 .f32 :=
  maximumf (addf (tScaled64 V0) (tShift64 V0)) (broadcastInDim S800000x64 ![] bcast_S_S800000x64 (constant S_ .f32 0x00000000#32))
/-- The normalised aggregate after the relu, before the residual. -/
abbrev tRelu96 : Vec F S50000x96 .f32 :=
  maximumf
    (addf
      (mulf
        (mulf (subf (tAgg V0) (broadcastInDim S50000x96 ![0, 1] bcast_S1x96_S50000x96_0_1 (broadcastInDim S1x96 ![1] bcast_S96_S1x96_1 (Cert.RefSpec.meanR96 (tAgg V0)))))
          (broadcastInDim S50000x96 ![0, 1] bcast_S1x96_S50000x96_0_1 (broadcastInDim S1x96 ![1] bcast_S96_S1x96_1 (Host.rsqrt (addf (Cert.RefSpec.varR96 (tAgg V0)) (broadcastInDim S96 ![] bcast_S_S96 (constant S_ .f32 0x3727C5AC#32)))))))
        (broadcastInDim S50000x96 ![0, 1] bcast_S1x96_S50000x96_0_1 (broadcastInDim S1x96 ![1] bcast_S96_S1x96_1 (a14 V0))))
      (broadcastInDim S50000x96 ![0, 1] bcast_S1x96_S50000x96_0_1 (broadcastInDim S1x96 ![1] bcast_S96_S1x96_1 (a15 V0))))
    (broadcastInDim S50000x96 ![] bcast_S_S50000x96 (constant S_ .f32 0x00000000#32))

/-! ### After stretch 1: the two rows of edge_index -/

set_option maxRecDepth 8192 in
set_option maxHeartbeats 2000000 in
theorem val1_main_v1 : val1 V0 (no_index (Proc.devRef .tc main_v1)) = tSrc V0 := by
  rw [val1_def]
  simp only [ck01]
  after_results_simp3
  all_goals rfl
set_option maxRecDepth 8192 in
set_option maxHeartbeats 2000000 in
theorem val1_main_v3 : val1 V0 (no_index (Proc.devRef .tc main_v3)) = tDst V0 := by
  rw [val1_def]
  simp only [ck01]
  after_results_simp3
  all_goals rfl

/-! ### After stretch 2: the edge feature -/

theorem val2_main_v1 : val2 V0 (no_index (Proc.devRef .tc main_v1)) = tSrc V0 :=
  (val2_keep V0 main_v1 (by decide)).trans (val1_main_v1 V0)
theorem val2_main_v3 : val2 V0 (no_index (Proc.devRef .tc main_v3)) = tDst V0 :=
  (val2_keep V0 main_v3 (by decide)).trans (val1_main_v3 V0)
set_option maxRecDepth 8192 in
set_option maxHeartbeats 2000000 in
theorem val2_main_v29 : val2 V0 (no_index (Proc.devRef .tc main_v29)) = tFeat V0 := by
  rw [val2_def]
  simp only [ck02]
  after_results_simp3
  simp only [val1_main_v1, val1_main_v3, val1_main_arg0, val1_main_arg2, val1_main_arg3, val1_main_arg4, val1_main_arg5, val1_main_arg6, val1_main_arg7] <;> rfl

/-! ### After stretch 3: the edge weight -/

theorem val3_main_v1 : val3 V0 (no_index (Proc.devRef .tc main_v1)) = tSrc V0 :=
  (val3_keep V0 main_v1 (by decide)).trans (val2_main_v1 V0)
theorem val3_main_v3 : val3 V0 (no_index (Proc.devRef .tc main_v3)) = tDst V0 :=
  (val3_keep V0 main_v3 (by decide)).trans (val2_main_v3 V0)
theorem val3_main_v29 : val3 V0 (no_index (Proc.devRef .tc main_v29)) = tFeat V0 :=
  (val3_keep V0 main_v29 (by decide)).trans (val2_main_v29 V0)
set_option maxRecDepth 8192 in
set_option maxHeartbeats 2000000 in
theorem val3_main_v37 : val3 V0 (no_index (Proc.devRef .tc main_v37)) = tW1 V0 := by
  rw [val3_def]
  simp only [ck03]
  after_results_simp3
  simp only [val2_main_v29, val2_main_arg8, val2_main_arg9] <;> rfl

/-! ### After stretch 4: the weighted in-degree and its inverse square root -/

theorem val4_main_v1 : val4 V0 (no_index (Proc.devRef .tc main_v1)) = tSrc V0 :=
  (val4_keep V0 main_v1 (by decide)).trans (val3_main_v1 V0)
theorem val4_main_v3 : val4 V0 (no_index (Proc.devRef .tc main_v3)) = tDst V0 :=
  (val4_keep V0 main_v3 (by decide)).trans (val3_main_v3 V0)
theorem val4_main_v29 : val4 V0 (no_index (Proc.devRef .tc main_v29)) = tFeat V0 :=
  (val4_keep V0 main_v29 (by decide)).trans (val3_main_v29 V0)
theorem val4_main_v37 : val4 V0 (no_index (Proc.devRef .tc main_v37)) = tW1 V0 :=
  (val4_keep V0 main_v37 (by decide)).trans (val3_main_v37 V0)
set_option maxRecDepth 8192 in
set_option maxHeartbeats 2000000 in
theorem val4_main_v47 : val4 V0 (no_index (Proc.devRef .tc main_v47)) = tDinv V0 := by
  rw [val4_def]
  simp only [ck04]
  after_results_simp3
  simp only [val3_main_v3, val3_main_v37] <;> rfl

/-! ### After stretch 5: the sign test of the source indices -/

theorem val5_main_v1 : val5 V0 (no_index (Proc.devRef .tc main_v1)) = tSrc V0 :=
  (val5_keep V0 main_v1 (by decide)).trans (val4_main_v1 V0)
theorem val5_main_v3 : val5 V0 (no_index (Proc.devRef .tc main_v3)) = tDst V0 :=
  (val5_keep V0 main_v3 (by decide)).trans (val4_main_v3 V0)
theorem val5_main_v29 : val5 V0 (no_index (Proc.devRef .tc main_v29)) = tFeat V0 :=
  (val5_keep V0 main_v29 (by decide)).trans (val4_main_v29 V0)
theorem val5_main_v37 : val5 V0 (no_index (Proc.devRef .tc main_v37)) = tW1 V0 :=
  (val5_keep V0 main_v37 (by decide)).trans (val4_main_v37 V0)
theorem val5_main_v47 : val5 V0 (no_index (Proc.devRef .tc main_v47)) = tDinv V0 :=
  (val5_keep V0 main_v47 (by decide)).trans (val4_main_v47 V0)
set_option maxRecDepth 8192 in
set_option maxHeartbeats 2000000 in
theorem val5_main_v49 : val5 V0 (no_index (Proc.devRef .tc main_v49)) = tLt V0 := by
  rw [val5_def]
  simp only [ck05]
  after_results_simp3
  simp only [val4_main_v1] <;> rfl

/-! ### After stretch 6: the normalised edge weight -/

theorem val6_main_v1 : val6 V0 (no_index (Proc.devRef .tc main_v1)) = tSrc V0 :=
  (val6_keep V0 main_v1 (by decide)).trans (val5_main_v1 V0)
theorem val6_main_v3 : val6 V0 (no_index (Proc.devRef .tc main_v3)) = tDst V0 :=
  (val6_keep V0 main_v3 (by decide)).trans (val5_main_v3 V0)
theorem val6_main_v29 : val6 V0 (no_index (Proc.devRef .tc main_v29)) = tFeat V0 :=
  (val6_keep V0 main_v29 (by decide)).trans (val5_main_v29 V0)
set_option maxRecDepth 8192 in
set_option maxHeartbeats 2000000 in
theorem val6_main_v63 : val6 V0 (no_index (Proc.devRef .tc main_v63)) = tNorm V0 := by
  rw [val6_def]
  simp only [ck06]
  after_results_simp3
  simp only [val5_main_v1, val5_main_v49, val5_main_v47, val5_main_v37, val5_main_v3] <;> rfl

/-! ### After stretch 7: the aggregation over incoming edges -/

theorem val7_main_v29 : val7 V0 (no_index (Proc.devRef .tc main_v29)) = tFeat V0 :=
  (val7_keep V0 main_v29 (by decide)).trans (val6_main_v29 V0)
set_option maxRecDepth 8192 in
set_option maxHeartbeats 2000000 in
theorem val7_main_v81 : val7 V0 (no_index (Proc.devRef .tc main_v81)) = tAgg V0 := by
  rw [val7_def]
  simp only [ck07]
  after_results_simp3
  simp only [val6_main_arg10, val6_main_arg0, val6_main_v63, val6_main_v1, val6_main_v3, val6_main_arg11] <;> rfl

end Cert.ReferenceIdeal.RefRun

end
-- ==== Proof.RefRunStageB.lean ====
/-
  The reference's stages read off the fold, stretch by stretch (second half: the column statistics, the two batch
  normalisations and the residuals). After the last stretch the two result buffers hold the specification's two
  results of the arguments' starting contents.
-/
import proofs.«157719_j687194767630_1_alg».proof.Proof.RefRunStageA

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

open Facts₀ Facts

variable (V0 : Valuation τ sig (Elt F))

/-! ### After stretch 8: the edge feature's column means -/

theorem val8_main_v29 : val8 V0 (no_index (Proc.devRef .tc main_v29)) = tFeat V0 :=
  (val8_keep V0 main_v29 (by decide)).trans (val7_main_v29 V0)
theorem val8_main_v81 : val8 V0 (no_index (Proc.devRef .tc main_v81)) = tAgg V0 :=
  (val8_keep V0 main_v81 (by decide)).trans (val7_main_v81 V0)
set_option maxRecDepth 8192 in
set_option maxHeartbeats 2000000 in
theorem val8_main_v84 : val8 V0 (no_index (Proc.devRef .tc main_v84)) = Cert.RefSpec.meanR64 (tFeat V0) := by
  rw [val8_def]
  simp only [ck08]
  after_results_simp3
  simp only [val7_main_v29] <;> rfl

/-! ### After stretch 9: the edge feature's column variances -/

theorem val9_main_v29 : val9 V0 (no_index (Proc.devRef .tc main_v29)) = tFeat V0 :=
  (val9_keep V0 main_v29 (by decide)).trans (val8_main_v29 V0)
theorem val9_main_v81 : val9 V0 (no_index (Proc.devRef .tc main_v81)) = tAgg V0 :=
  (val9_keep V0 main_v81 (by decide)).trans (val8_main_v81 V0)
theorem val9_main_v84 : val9 V0 (no_index (Proc.devRef .tc main_v84)) = Cert.RefSpec.meanR64 (tFeat V0) :=
  (val9_keep V0 main_v84 (by decide)).trans (val8_main_v84 V0)
set_option maxRecDepth 8192 in
set_option maxHeartbeats 2000000 in
theorem val9_main_v85 : val9 V0 (no_index (Proc.devRef .tc main_v85)) = Cert.RefSpec.varR64 (tFeat V0) := by
  rw [val9_def]
  simp only [ck09]
  after_results_simp3
  simp only [val8_main_v29] <;> rfl

/-! ### After stretch 10: the edge feature normalised, scaled (up to the shift's broadcast) -/

theorem val10_main_v81 : val10 V0 (no_index (Proc.devRef .tc main_v81)) = tAgg V0 :=
  (val10_keep V0 main_v81 (by decide)).trans (val9_main_v81 V0)
set_option maxRecDepth 8192 in
set_option maxHeartbeats 2000000 in
theorem val10_main_v97 : val10 V0 (no_index (Proc.devRef .tc main_v97)) = tScaled64 V0 := by
  rw [val10_def]
  simp only [ck10]
  after_results_simp3
  simp only [val9_main_v84, val9_main_v29, val9_main_v85, val9_main_arg12] <;> rfl
set_option maxRecDepth 8192 in
set_option maxHeartbeats 2000000 in
theorem val10_main_v99 : val10 V0 (no_index (Proc.devRef .tc main_v99)) = tShift64 V0 := by
  rw [val10_def]
  simp only [ck10]
  after_results_simp3
  simp only [val9_main_arg13] <;> rfl

/-! ### After stretch 11: the shifted edge feature and its relu -/

theorem val11_main_v81 : val11 V0 (no_index (Proc.devRef .tc main_v81)) = tAgg V0 :=
  (val11_keep V0 main_v81 (by decide)).trans (val10_main_v81 V0)
set_option maxRecDepth 8192 in
set_option maxHeartbeats 2000000 in
theorem val11_main_v101 : val11 V0 (no_index (Proc.devRef .tc main_v101)) = tRelu64 V0 := by
  rw [val11_def]
  simp only [ck11]
  after_results_simp3
  simp only [val10_main_v97, val10_main_v99] <;> rfl

/-! ### After stretch 12: the aggregate's column means -/

theorem val12_main_v81 : val12 V0 (no_index (Proc.devRef .tc main_v81)) = tAgg V0 :=
  (val12_keep V0 main_v81 (by decide)).trans (val11_main_v81 V0)
theorem val12_main_v101 : val12 V0 (no_index (Proc.devRef .tc main_v101)) = tRelu64 V0 :=
  (val12_keep V0 main_v101 (by decide)).trans (val11_main_v101 V0)
set_option maxRecDepth 8192 in
set_option maxHeartbeats 2000000 in
theorem val12_main_v104 : val12 V0 (no_index (Proc.devRef .tc main_v104)) = Cert.RefSpec.meanR96 (tAgg V0) := by
  rw [val12_def]
  simp only [ck12]
  after_results_simp3
  simp only [val11_main_v81] <;> rfl

/-! ### After stretch 13: the aggregate's column variances -/

theorem val13_main_v81 : val13 V0 (no_index (Proc.devRef .tc main_v81)) = tAgg V0 :=
  (val13_keep V0 main_v81 (by decide)).trans (val12_main_v81 V0)
theorem val13_main_v101 : val13 V0 (no_index (Proc.devRef .tc main_v101)) = tRelu64 V0 :=
  (val13_keep V0 main_v101 (by decide)).trans (val12_main_v101 V0)
theorem val13_main_v104 : val13 V0 (no_index (Proc.devRef .tc main_v104)) = Cert.RefSpec.meanR96 (tAgg V0) :=
  (val13_keep V0 main_v104 (by decide)).trans (val12_main_v104 V0)
set_option maxRecDepth 8192 in
set_option maxHeartbeats 2000000 in
theorem val13_main_v105 : val13 V0 (no_index (Proc.devRef .tc main_v105)) = Cert.RefSpec.varR96 (tAgg V0) := by
  rw [val13_def]
  simp only [ck13]
  after_results_simp3
  simp only [val12_main_v81] <;> rfl

/-! ### After stretch 14: the aggregate normalised, scaled, shifted, and its relu -/

theorem val14_main_v101 : val14 V0 (no_index (Proc.devRef .tc main_v101)) = tRelu64 V0 :=
  (val14_keep V0 main_v101 (by decide)).trans (val13_main_v101 V0)
set_option maxRecDepth 8192 in
set_option maxHeartbeats 2000000 in
theorem val14_main_v121 : val14 V0 (no_index (Proc.devRef .tc main_v121)) = tRelu96 V0 := by
  rw [val14_def]
  simp only [ck14]
  after_results_simp3
  simp only [val13_main_v104, val13_main_v81, val13_main_v105, val13_main_arg14, val13_main_arg15] <;> rfl

/-! ### After stretch 15: the two results: the residuals added -/

set_option maxRecDepth 8192 in
set_option maxHeartbeats 2000000 in
theorem val15_main_v122 : val15 V0 (no_index (Proc.devRef .tc main_v122)) = Cert.RefSpec.outNode (tAgg V0) (a0 V0) (a14 V0) (a15 V0) := by
  rw [val15_def]
  simp only [ck15]
  after_results_simp3
  simp only [val14_main_v121, val14_main_arg0] <;> rfl
set_option maxRecDepth 8192 in
set_option maxHeartbeats 2000000 in
theorem val15_main_v123 : val15 V0 (no_index (Proc.devRef .tc main_v123)) = Cert.RefSpec.outEdge (tFeat V0) (a3 V0) (a12 V0) (a13 V0) := by
  rw [val15_def]
  simp only [ck15]
  after_results_simp3
  simp only [val14_main_v101, val14_main_arg3] <;> rfl

end Cert.ReferenceIdeal.RefRun

end
-- ==== Proof.RefRun.lean ====
/-
  The run of the idealized reference program: on every device, for any float values, from any memory with zero
  counters, every weakly fair execution of @main terminates with the two result buffers at the specification's two
  results of the arguments' launch contents, and the arguments unchanged.
-/
import proofs.«157719_j687194767630_1_alg».proof.Proof.RefRunStageB

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

open Facts₀ Facts

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122)
        = Cert.RefSpec.outNode (Cert.RefSpec.aggOf (Cert.RefSpec.featOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg0)) (m ((c.tc : Thread nD τ).loc main_arg14)) (m ((c.tc : Thread nD τ).loc main_arg15))
      ∧ r.2.mem ((c.tc : Thread nD τ).loc main_v123)
        = Cert.RefSpec.outEdge (Cert.RefSpec.featOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg3)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v122).trans (by rw [after_ops]; exact val15_main_v122 (launchContents m c)),
      (h c main_v123).trans (by rw [after_ops]; exact val15_main_v123 (launchContents m c)),
      (h c main_arg0).trans (by rw [after_ops]; exact val15_main_arg0 (launchContents m c)),
      (h c main_arg1).trans (by rw [after_ops]; exact val15_main_arg1 (launchContents m c)),
      (h c main_arg2).trans (by rw [after_ops]; exact val15_main_arg2 (launchContents m c)),
      (h c main_arg3).trans (by rw [after_ops]; exact val15_main_arg3 (launchContents m c)),
      (h c main_arg4).trans (by rw [after_ops]; exact val15_main_arg4 (launchContents m c)),
      (h c main_arg5).trans (by rw [after_ops]; exact val15_main_arg5 (launchContents m c)),
      (h c main_arg6).trans (by rw [after_ops]; exact val15_main_arg6 (launchContents m c)),
      (h c main_arg7).trans (by rw [after_ops]; exact val15_main_arg7 (launchContents m c)),
      (h c main_arg8).trans (by rw [after_ops]; exact val15_main_arg8 (launchContents m c)),
      (h c main_arg9).trans (by rw [after_ops]; exact val15_main_arg9 (launchContents m c)),
      (h c main_arg10).trans (by rw [after_ops]; exact val15_main_arg10 (launchContents m c)),
      (h c main_arg11).trans (by rw [after_ops]; exact val15_main_arg11 (launchContents m c)),
      (h c main_arg12).trans (by rw [after_ops]; exact val15_main_arg12 (launchContents m c)),
      (h c main_arg13).trans (by rw [after_ops]; exact val15_main_arg13 (launchContents m c)),
      (h c main_arg14).trans (by rw [after_ops]; exact val15_main_arg14 (launchContents m c)),
      (h c main_arg15).trans (by rw [after_ops]; exact val15_main_arg15 (launchContents m c))⟩)
    (run_seq scopedRefs_eq scopedSems_eq defs main (fun _ => ops) main_eq (fun _ => ops_sub) m ρ)

end Cert.ReferenceIdeal.RefRun

end
-- ==== Proof.Assemble.lean ====
/-
  The assembly of the certificate's claim from the runs of the three programs. The two kernels' frames are the
  generated ones; the reference's frame is its run with the two results dropped; the algebraic claim pairs the
  idealized kernel's run with the reference's run at the exact instance: given that the kernel's two result arrays
  hold the specification's two results of its launch arguments (the two hypotheses, proved elsewhere), the
  reference's results, which are the same two functions of its own arguments, are equal to them once the two
  memories agree on the arguments.
-/
import proofs.«157719_j687194767630_1_alg».proof.Defs
import proofs.«157719_j687194767630_1_alg».proof.Proof.Gen.Kernel
import proofs.«157719_j687194767630_1_alg».proof.Proof.Gen.Kernel.Skeleton
import proofs.«157719_j687194767630_1_alg».proof.Proof.Gen.Kernel.Launch
import proofs.«157719_j687194767630_1_alg».proof.Proof.Gen.Kernel.Points
import proofs.«157719_j687194767630_1_alg».proof.Proof.Gen.Kernel.Frame
import proofs.«157719_j687194767630_1_alg».proof.Proof.Gen.KernelIdeal
import proofs.«157719_j687194767630_1_alg».proof.Proof.Gen.KernelIdeal.Skeleton
import proofs.«157719_j687194767630_1_alg».proof.Proof.Gen.KernelIdeal.Launch
import proofs.«157719_j687194767630_1_alg».proof.Proof.Gen.KernelIdeal.Points
import proofs.«157719_j687194767630_1_alg».proof.Proof.Gen.KernelIdeal.Frame
import proofs.«157719_j687194767630_1_alg».proof.Proof.Gen.ReferenceIdeal
import proofs.«157719_j687194767630_1_alg».proof.Proof.Gen.Pre_finite_inputs
import proofs.«157719_j687194767630_1_alg».proof.Proof.KernelRun
import proofs.«157719_j687194767630_1_alg».proof.Proof.RefRun

noncomputable section

namespace Cert.Proof.Assemble

open Idealize.ShloMosaic Idealize.ShloMosaic.TcCoe Idealize.SL.Sem

/-- The reference runs and leaves its arguments as launched: its run, the two results dropped. -/
theorem frame_ri : Cert.frame_ReferenceIdeal (hReferenceIdeal := Cert.ReferenceIdeal.Gen.facts) (hPre_finite_inputs := Cert.Pre_finite_inputs.Gen.facts) :=
  fun m ρ _ =>
    (θ_run (Cert.ReferenceIdeal.defs (F := Ideal)) _ _).mono (fun _ h c => (h c).2.2) (Cert.ReferenceIdeal.RefRun.run (F := Ideal) m ρ)

set_option maxRecDepth 8192 in
/-- At the exact instance, from memories agreeing on the arguments, the idealized kernel and the reference both run,
    end with equal results and unchanged arguments — given that the kernel's node result is the specification's
    `outNode` and its edge result the specification's `outEdge` of the kernel's launch arguments. -/
theorem algebraic_of
    (hN : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
          (Cert.KernelIdeal.Gen.W14 m ρ c (Proc.devRef .tc Cert.KernelIdeal.main_v81) : Cert.KernelIdeal.S50000x96.Idx → EReal)
            = Cert.RefSpec.outNode (F := Ideal) (Cert.RefSpec.aggOf (F := Ideal) (Cert.RefSpec.featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg0)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
    (hE : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
          (Cert.KernelIdeal.Gen.W14 m ρ c (Proc.devRef .tc Cert.KernelIdeal.main_v80) : Cert.KernelIdeal.S800000x64.Idx → EReal)
            = Cert.RefSpec.outEdge (F := Ideal) (Cert.RefSpec.featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.RefSpec.outNode (F := Ideal) (Cert.RefSpec.aggOf (F := Ideal) (Cert.RefSpec.featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg0)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.RefSpec.outEdge (F := Ideal) (Cert.RefSpec.featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run (Cert.KernelIdeal.defs (F := Ideal)) _ _).mono
      (fun _ h c => ⟨(h c).1.trans (hN m ρ c), (h c).2.1.trans (hE m ρ c), (h c).2.2⟩)
      (Cert.KernelIdeal.KRun.run (F := Ideal) m ρ)
  · refine (θ_run (Cert.ReferenceIdeal.defs (F := Ideal)) _ _).mono
      (fun _ h c => ⟨(h c).1.trans ?_, (h c).2.1.trans ?_, (h c).2.2⟩)
      (Cert.ReferenceIdeal.RefRun.run (F := Ideal) m' ρ')
    · obtain ⟨h0, h1, h2, h3, h4, h5, h6, h7, h8, h9, h10, h11, h12, h13, h14, h15⟩ := hagree c
      rw [h0, h1, h2, h3, h4, h5, h6, h7, h8, h9, h10, h11, h14, h15]
    · obtain ⟨h0, h1, h2, h3, h4, h5, h6, h7, h8, h9, h10, h11, h12, h13, h14, h15⟩ := hagree c
      rw [h0, h1, h2, h3, h4, h5, h6, h7, h12, h13]

/-- Everything the certificate claims, given the kernel's two value statements. -/
theorem claim_of
    (hN : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
          (Cert.KernelIdeal.Gen.W14 m ρ c (Proc.devRef .tc Cert.KernelIdeal.main_v81) : Cert.KernelIdeal.S50000x96.Idx → EReal)
            = Cert.RefSpec.outNode (F := Ideal) (Cert.RefSpec.aggOf (F := Ideal) (Cert.RefSpec.featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg0)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
    (hE : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
          (Cert.KernelIdeal.Gen.W14 m ρ c (Proc.devRef .tc Cert.KernelIdeal.main_v80) : Cert.KernelIdeal.S800000x64.Idx → EReal)
            = Cert.RefSpec.outEdge (F := Ideal) (Cert.RefSpec.featOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) :
    Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic_of hN hE⟩

end Cert.Proof.Assemble

end
-- ==== Proof.KChain0.lean ====
/-
  The idealized kernel program's buffer contents at its first two segment boundaries, as functions of the launch
  contents of the arguments: after the first host stretch every operand of the first region is a named stage of the
  arguments (the gathered endpoint rows, the bias vectors laid out as rows), and the arguments themselves are as
  launched.
-/
import proofs.«157719_j687194767630_1_alg».proof.Proof.Gen.KernelIdeal.Frame
import proofs.«157719_j687194767630_1_alg».proof.Proof.RefSpec
import Idealize.ShloMosaic.Lib.StableHlo.Run
import Idealize.ShloMosaic.Lib.Pipeline.Value
import Idealize.ShloMosaic.PureOps.Ideal
import Idealize.ShloMosaic.Lib.ValueIdx

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

/-- A buffer that no operation of a stretch writes holds after the stretch what it held before. -/
macro "skip_ops" : tactic => `(tactic|
  exact StableHlo.after_of_forall_not_mem _ _ (List.forall_iff_forall_mem.mp (by
    simp only [hostOps0, hostOps1, hostOps1_1, hostOps1_2, hostOps1_3, hostOps1_4, hostOps1_5, hostOps1_6, hostOps2, hostOps2_1,
      List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

variable [Cert.KernelIdeal.Facts] [Cert.ReferenceIdeal.Facts]
variable (m : (ℓ : Loc nD τ sig) → Buf (Elt Ideal) ℓ) (ρ : Dev nD → PrngReg)

/-! ## After the first host stretch -/

theorem W1_v10 (c : Dev nD) :
    (W1 m ρ c (Proc.devRef .tc main_v10) : S800000x96.Idx → EReal)
      = Cert.RefSpec.rowsOf (m ((c.tc : Thread nD τ).loc main_arg0)) (Cert.RefSpec.srcOf (m ((c.tc : Thread nD τ).loc main_arg1))) := by
  dsimp only [W1, W0]; after_results_simp; rfl

theorem W1_v17 (c : Dev nD) :
    (W1 m ρ c (Proc.devRef .tc main_v17) : S800000x96.Idx → EReal)
      = Cert.RefSpec.rowsOf (m ((c.tc : Thread nD τ).loc main_arg0)) (Cert.RefSpec.dstOf (m ((c.tc : Thread nD τ).loc main_arg1))) := by
  dsimp only [W1, W0]; after_results_simp; rfl

theorem W1_v1 (c : Dev nD) :
    (W1 m ρ c (Proc.devRef .tc main_v1) : S800000.Idx → BitVec 32) = Cert.RefSpec.srcOf (m ((c.tc : Thread nD τ).loc main_arg1)) := by
  dsimp only [W1, W0]; after_results_simp; rfl

theorem W1_v3 (c : Dev nD) :
    (W1 m ρ c (Proc.devRef .tc main_v3) : S800000.Idx → BitVec 32) = Cert.RefSpec.dstOf (m ((c.tc : Thread nD τ).loc main_arg1)) := by
  dsimp only [W1, W0]; after_results_simp; rfl

/-- A vector [C] reshaped to a row [1, C] reads the vector's entry at the column. -/
theorem reshape_row_apply {α : Type} {C : Nat} (h : (⟨1, ![C]⟩ : Shape).ShapeCasts ⟨2, ![1, C]⟩)
    (v : (⟨1, ![C]⟩ : Shape).Idx → α) (q : Fin C) : shapeCast ⟨2, ![1, C]⟩ v h (ix2 (0 : Fin 1) q) = v (ix1 q) :=
  shapeCast_apply v h (ix2 (0 : Fin 1) q) (ix1 q) (by
    rw [Shape.rowMajor_val_two, Shape.rowMajor_val_one]; show q.val = 0 * C + q.val; omega)

theorem W1_v18 (c : Dev nD) (q : Fin 96) :
    (W1 m ρ c (Proc.devRef .tc main_v18) : S1x96.Idx → EReal) (ix2 (0 : Fin 1) q) = (m ((c.tc : Thread nD τ).loc main_arg5)) (ix1 q) := by
  dsimp only [W1, W0]; after_results_simp
  exact reshape_row_apply _ _ q

theorem W1_v19 (c : Dev nD) (q : Fin 64) :
    (W1 m ρ c (Proc.devRef .tc main_v19) : S1x64.Idx → EReal) (ix2 (0 : Fin 1) q) = (m ((c.tc : Thread nD τ).loc main_arg7)) (ix1 q) := by
  dsimp only [W1, W0]; after_results_simp
  exact reshape_row_apply _ _ q

theorem W1_v20 (c : Dev nD) (q : Fin 1) :
    (W1 m ρ c (Proc.devRef .tc main_v20) : S1x1.Idx → EReal) (ix2 (0 : Fin 1) q) = (m ((c.tc : Thread nD τ).loc main_arg9)) (ix1 q) := by
  dsimp only [W1, W0]; after_results_simp
  exact reshape_row_apply _ _ q

theorem W1_v21 (c : Dev nD) (q : Fin 64) :
    (W1 m ρ c (Proc.devRef .tc main_v21) : S1x64.Idx → EReal) (ix2 (0 : Fin 1) q) = (m ((c.tc : Thread nD τ).loc main_arg12)) (ix1 q) := by
  dsimp only [W1, W0]; after_results_simp
  exact reshape_row_apply _ _ q

theorem W1_v22 (c : Dev nD) (q : Fin 64) :
    (W1 m ρ c (Proc.devRef .tc main_v22) : S1x64.Idx → EReal) (ix2 (0 : Fin 1) q) = (m ((c.tc : Thread nD τ).loc main_arg13)) (ix1 q) := by
  dsimp only [W1, W0]; after_results_simp
  exact reshape_row_apply _ _ q

theorem W1_v23 (c : Dev nD) (q : Fin 96) :
    (W1 m ρ c (Proc.devRef .tc main_v23) : S1x96.Idx → EReal) (ix2 (0 : Fin 1) q) = (m ((c.tc : Thread nD τ).loc main_arg14)) (ix1 q) := by
  dsimp only [W1, W0]; after_results_simp
  exact reshape_row_apply _ _ q

theorem W1_v24 (c : Dev nD) (q : Fin 96) :
    (W1 m ρ c (Proc.devRef .tc main_v24) : S1x96.Idx → EReal) (ix2 (0 : Fin 1) q) = (m ((c.tc : Thread nD τ).loc main_arg15)) (ix1 q) := by
  dsimp only [W1, W0]; after_results_simp
  exact reshape_row_apply _ _ q

theorem W1_arg0 (c : Dev nD) : W1 m ρ c (Proc.devRef .tc main_arg0) = (m ((c.tc : Thread nD τ).loc main_arg0)) := by
  dsimp only [W1]; skip_ops

theorem W1_arg2 (c : Dev nD) : W1 m ρ c (Proc.devRef .tc main_arg2) = (m ((c.tc : Thread nD τ).loc main_arg2)) := by
  dsimp only [W1]; skip_ops

theorem W1_arg3 (c : Dev nD) : W1 m ρ c (Proc.devRef .tc main_arg3) = (m ((c.tc : Thread nD τ).loc main_arg3)) := by
  dsimp only [W1]; skip_ops

theorem W1_arg4 (c : Dev nD) : W1 m ρ c (Proc.devRef .tc main_arg4) = (m ((c.tc : Thread nD τ).loc main_arg4)) := by
  dsimp only [W1]; skip_ops

theorem W1_arg6 (c : Dev nD) : W1 m ρ c (Proc.devRef .tc main_arg6) = (m ((c.tc : Thread nD τ).loc main_arg6)) := by
  dsimp only [W1]; skip_ops

theorem W1_arg8 (c : Dev nD) : W1 m ρ c (Proc.devRef .tc main_arg8) = (m ((c.tc : Thread nD τ).loc main_arg8)) := by
  dsimp only [W1]; skip_ops

theorem W1_arg10 (c : Dev nD) : W1 m ρ c (Proc.devRef .tc main_arg10) = (m ((c.tc : Thread nD τ).loc main_arg10)) := by
  dsimp only [W1]; skip_ops

theorem W1_arg11 (c : Dev nD) : W1 m ρ c (Proc.devRef .tc main_arg11) = (m ((c.tc : Thread nD τ).loc main_arg11)) := by
  dsimp only [W1]; skip_ops

end Cert.KChain

end
-- ==== Proof.Spec.lean ====
/-
  The mathematics both programs compute, edge by edge and node by node, as plain functions of coordinates over the
  extended reals. Rows (edges or nodes) are indexed by an arbitrary type, columns by literal finite types.

  * `msg`   : the node transform of the difference of an edge's two endpoint rows, (x_src − x_dst)·Wnᵀ + bn;
  * `cat`   : the row [msg | edge_attr | edge_f] of width 96 + 64 + 32 = 192;
  * `feat`  : the edge feature, cat·Wecᵀ + bec;
  * `wgt`   : the edge weight, relu(relu(feat)·Wwᵀ + bw);
  * `xw`    : the node projection x·Wgᵀ;
  * `bnOut` : batch normalisation with given column statistics, then relu, then the residual:
               max((h − μ)·rsqrt(σ² + ε)·γ + β, 0) + res.
-/
import Idealize.ShloMosaic.PureOps.Ideal
import Idealize.ShloMosaic.Lib.ValueIdx

noncomputable section

namespace Cert.Spec

open Idealize.ShloMosaic Idealize.ShloMosaic.ValueIdx

/-- A rank-2 array read at two coordinates. -/
abbrev rd2 {a b : Nat} (X : (⟨2, ![a, b]⟩ : Shape).Idx → EReal) (p : Fin a) (q : Fin b) : EReal := X (ix2 p q)
/-- A rank-1 array read at its coordinate. -/
abbrev rd1 {a : Nat} (X : (⟨1, ![a]⟩ : Shape).Idx → EReal) (p : Fin a) : EReal := X (ix1 p)

variable {ι : Type}

/-- (x_src − x_dst)·Wnᵀ + bn at row `e`, column `j`. -/
def msg (xs xd : ι → Fin 96 → EReal) (Wn : Fin 96 → Fin 96 → EReal) (bn : Fin 96 → EReal) (e : ι) (j : Fin 96) : EReal :=
  (∑ k : Fin 96, (xs e k - xd e k) * Wn j k) + bn j

/-- The row [m | ea | ef] at column `q` of 192: columns 0–95 from `m`, 96–159 from `ea`, 160–191 from `ef`. -/
def cat (m : ι → Fin 96 → EReal) (ea : ι → Fin 64 → EReal) (ef : ι → Fin 32 → EReal) (e : ι) (q : Fin 192) : EReal :=
  if h : q.val < 96 then m e ⟨q.val, h⟩
  else if h2 : q.val < 160 then ea e ⟨q.val - 96, by omega⟩
  else ef e ⟨q.val - 160, by omega⟩

/-- c·Wecᵀ + bec at row `e`, column `o`. -/
def feat (c : ι → Fin 192 → EReal) (Wec : Fin 64 → Fin 192 → EReal) (bec : Fin 64 → EReal) (e : ι) (o : Fin 64) : EReal :=
  (∑ q : Fin 192, c e q * Wec o q) + bec o

/-- relu(relu(f)·Wwᵀ + bw) at row `e`. -/
def wgt (f : ι → Fin 64 → EReal) (Ww : Fin 64 → EReal) (bw : EReal) (e : ι) : EReal :=
  max ((∑ o : Fin 64, max (f e o) 0 * Ww o) + bw) 0

/-- x·Wgᵀ at row `n`, column `j`. -/
def xw (x : ι → Fin 96 → EReal) (Wg : Fin 96 → Fin 96 → EReal) (n : ι) (j : Fin 96) : EReal :=
  ∑ k : Fin 96, x n k * Wg j k

variable {κ : Type}

/-- max((h − μ)·rsqrt(σ² + ε)·γ + β, 0) + res at row `e`, column `j`. -/
def bnOut (h : ι → κ → EReal) (mu var gamma beta : κ → EReal) (eps : EReal) (res : ι → κ → EReal) (e : ι) (j : κ) : EReal :=
  max ((h e j - mu j) * Ideal.rsqrt (var j + eps) * gamma j + beta j) 0 + res e j

end Cert.Spec

end
-- ==== Proof.RefIdx.lean ====
/-
  The reference's stages read at an index, at the exact instance: each named stage of the reference, at a row and a
  column, is the corresponding coordinate formula — a matrix product against a transposed weight is the sum over the
  contracted coordinate, a broadcast row reads the row's entry, a concatenation reads the piece its column falls in.
-/
import proofs.«157719_j687194767630_1_alg».proof.Proof.RefSpec
import proofs.«157719_j687194767630_1_alg».proof.Proof.Spec
import Idealize.ShloMosaic.PureOps.Ideal.Laws
import Idealize.ShloMosaic.Lib.Pipeline.Value
import Idealize.ShloMosaic.Lib.IdealHost

noncomputable section

namespace Cert.RefIdx

open Cert.ReferenceIdeal Cert.RefSpec Idealize.ShloMosaic Idealize.ShloMosaic.ValueIdx

/-! ## Layout operations at an index -/

section Layout
variable {α : Type}

/-- A vector [C] made a row [1, C] and repeated down R rows reads the vector's entry at the column. -/
theorem bcast_row_apply {R C : Nat} (h1 : (⟨1, ![C]⟩ : Shape).BroadcastsInDim ⟨2, ![1, C]⟩ ![1])
    (h2 : (⟨2, ![1, C]⟩ : Shape).BroadcastsInDim ⟨2, ![R, C]⟩ ![0, 1]) (v : (⟨1, ![C]⟩ : Shape).Idx → α) (r : Fin R) (c : Fin C) :
    broadcastInDim ⟨2, ![R, C]⟩ ![0, 1] h2 (broadcastInDim ⟨2, ![1, C]⟩ ![1] h1 v) (ix2 r c) = v (ix1 c) := by
  rw [broadcastInDim_apply ![0, 1] h2 _ (ix2 r c) (ix2 (0 : Fin 1) c) (by
    intro a
    match a with
    | ⟨0, _⟩ => rfl
    | ⟨1, _⟩ =>
      show c.val = if C = 1 then 0 else c.val
      split_ifs with hC
      · have := c.isLt; omega
      · rfl)]
  rw [broadcastInDim_apply ![1] h1 v (ix2 (0 : Fin 1) c) (ix1 c) (by
    intro a
    match a with
    | ⟨0, _⟩ =>
      show c.val = if C = 1 then 0 else c.val
      split_ifs with hC
      · have := c.isLt; omega
      · rfl)]

/-- A vector [C] made a row [1, C] reads the vector's entry at the column. -/
theorem row_apply {C : Nat} (h1 : (⟨1, ![C]⟩ : Shape).BroadcastsInDim ⟨2, ![1, C]⟩ ![1])
    (v : (⟨1, ![C]⟩ : Shape).Idx → α) (c : Fin C) :
    broadcastInDim ⟨2, ![1, C]⟩ ![1] h1 v (ix2 (0 : Fin 1) c) = v (ix1 c) := by
  rw [broadcastInDim_apply ![1] h1 v (ix2 (0 : Fin 1) c) (ix1 c) (by
    intro a
    match a with
    | ⟨0, _⟩ =>
      show c.val = if C = 1 then 0 else c.val
      split_ifs with hC
      · have := c.isLt; omega
      · rfl)]

/-- A vector [R] made a column [R, 1] reads the vector's entry at the row. -/
theorem col_apply {R : Nat} (h1 : (⟨1, ![R]⟩ : Shape).BroadcastsInDim ⟨2, ![R, 1]⟩ ![0])
    (v : (⟨1, ![R]⟩ : Shape).Idx → α) (r : Fin R) :
    broadcastInDim ⟨2, ![R, 1]⟩ ![0] h1 v (ix2 r (0 : Fin 1)) = v (ix1 r) := by
  rw [broadcastInDim_apply ![0] h1 v (ix2 r (0 : Fin 1)) (ix1 r) (by
    intro a
    match a with
    | ⟨0, _⟩ =>
      show r.val = if R = 1 then 0 else r.val
      split_ifs with hR
      · have := r.isLt; omega
      · rfl)]

end Layout

/-! ## The matrix products -/

section Dots
variable [Facts]
open Facts₀ Facts

/-- The product of an [50000, 96] array with the transpose of a [96, 96] weight, at row `r` and column `c`: the sum over the
    contracted coordinate of the row's entry times the weight's entry in row `c`. -/
theorem dot_xw (X : FVec Ideal S50000x96 .f32) (W : FVec Ideal S96x96 .f32) (r : Fin 50000) (c : Fin 96) :
    Host.dotGeneral (F := Ideal) dot_S50000x96_S96x96_S50000x96_1_0_0_1_n_n none X (transpose S96x96 [1, 0] W transposes_S96x96_S96x96_1_0) (ix2 r c)
      = ∑ k : Fin 96, X (ix2 r k) * W (ix2 c k) := by
  simp only [Host.dotGeneral]
  rw [Ideal.dotGeneral_apply]
  rw [← Equiv.sum_comp (contrEquiv1 dot_S50000x96_S96x96_S50000x96_1_0_0_1_n_n 96 rfl rfl).symm]
  refine Finset.sum_congr rfl fun k _ => ?_
  congr 1
  · refine congrArg X ?_
    funext a
    match a with
    | ⟨0, _⟩ => rfl
    | ⟨1, _⟩ =>
      exact Fin.ext ((DotDims.lhsIdx_val_of_single dot_S50000x96_S96x96_S50000x96_1_0_0_1_n_n (cl := (1 : Fin 2)) rfl _ _).trans
        (contrEquiv1_symm_val _ 96 rfl rfl k))
  · refine transpose_apply _ W _ _ (ix2 c k) ?_
    intro b
    match b with
    | ⟨0, _⟩ =>
      show k.val = _
      exact ((DotDims.rhsIdx_val_of_single dot_S50000x96_S96x96_S50000x96_1_0_0_1_n_n (cr := (0 : Fin 2)) rfl _ _).trans
        (contrEquiv1_symm_val _ 96 rfl rfl k)).symm
    | ⟨1, _⟩ => rfl

/-- The product of an [800000, 96] array with the transpose of a [96, 96] weight, at row `r` and column `c`: the sum over the
    contracted coordinate of the row's entry times the weight's entry in row `c`. -/
theorem dot_msg (X : FVec Ideal S800000x96 .f32) (W : FVec Ideal S96x96 .f32) (r : Fin 800000) (c : Fin 96) :
    Host.dotGeneral (F := Ideal) dot_S800000x96_S96x96_S800000x96_1_0_0_1_n_n none X (transpose S96x96 [1, 0] W transposes_S96x96_S96x96_1_0) (ix2 r c)
      = ∑ k : Fin 96, X (ix2 r k) * W (ix2 c k) := by
  simp only [Host.dotGeneral]
  rw [Ideal.dotGeneral_apply]
  rw [← Equiv.sum_comp (contrEquiv1 dot_S800000x96_S96x96_S800000x96_1_0_0_1_n_n 96 rfl rfl).symm]
  refine Finset.sum_congr rfl fun k _ => ?_
  congr 1
  · refine congrArg X ?_
    funext a
    match a with
    | ⟨0, _⟩ => rfl
    | ⟨1, _⟩ =>
      exact Fin.ext ((DotDims.lhsIdx_val_of_single dot_S800000x96_S96x96_S800000x96_1_0_0_1_n_n (cl := (1 : Fin 2)) rfl _ _).trans
        (contrEquiv1_symm_val _ 96 rfl rfl k))
  · refine transpose_apply _ W _ _ (ix2 c k) ?_
    intro b
    match b with
    | ⟨0, _⟩ =>
      show k.val = _
      exact ((DotDims.rhsIdx_val_of_single dot_S800000x96_S96x96_S800000x96_1_0_0_1_n_n (cr := (0 : Fin 2)) rfl _ _).trans
        (contrEquiv1_symm_val _ 96 rfl rfl k)).symm
    | ⟨1, _⟩ => rfl

/-- The product of an [800000, 192] array with the transpose of a [64, 192] weight, at row `r` and column `c`: the sum over the
    contracted coordinate of the row's entry times the weight's entry in row `c`. -/
theorem dot_feat (X : FVec Ideal S800000x192 .f32) (W : FVec Ideal S64x192 .f32) (r : Fin 800000) (c : Fin 64) :
    Host.dotGeneral (F := Ideal) dot_S800000x192_S192x64_S800000x64_1_0_0_1_n_n none X (transpose S192x64 [1, 0] W transposes_S64x192_S192x64_1_0) (ix2 r c)
      = ∑ k : Fin 192, X (ix2 r k) * W (ix2 c k) := by
  simp only [Host.dotGeneral]
  rw [Ideal.dotGeneral_apply]
  rw [← Equiv.sum_comp (contrEquiv1 dot_S800000x192_S192x64_S800000x64_1_0_0_1_n_n 192 rfl rfl).symm]
  refine Finset.sum_congr rfl fun k _ => ?_
  congr 1
  · refine congrArg X ?_
    funext a
    match a with
    | ⟨0, _⟩ => rfl
    | ⟨1, _⟩ =>
      exact Fin.ext ((DotDims.lhsIdx_val_of_single dot_S800000x192_S192x64_S800000x64_1_0_0_1_n_n (cl := (1 : Fin 2)) rfl _ _).trans
        (contrEquiv1_symm_val _ 192 rfl rfl k))
  · refine transpose_apply _ W _ _ (ix2 c k) ?_
    intro b
    match b with
    | ⟨0, _⟩ =>
      show k.val = _
      exact ((DotDims.rhsIdx_val_of_single dot_S800000x192_S192x64_S800000x64_1_0_0_1_n_n (cr := (0 : Fin 2)) rfl _ _).trans
        (contrEquiv1_symm_val _ 192 rfl rfl k)).symm
    | ⟨1, _⟩ => rfl

/-- The product of an [800000, 64] array with the transpose of a [1, 64] weight, at row `r` and column `c`: the sum over the
    contracted coordinate of the row's entry times the weight's entry in row `c`. -/
theorem dot_wgt (X : FVec Ideal S800000x64 .f32) (W : FVec Ideal S1x64 .f32) (r : Fin 800000) (c : Fin 1) :
    Host.dotGeneral (F := Ideal) dot_S800000x64_S64x1_S800000x1_1_0_0_1_n_n none X (transpose S64x1 [1, 0] W transposes_S1x64_S64x1_1_0) (ix2 r c)
      = ∑ k : Fin 64, X (ix2 r k) * W (ix2 c k) := by
  simp only [Host.dotGeneral]
  rw [Ideal.dotGeneral_apply]
  rw [← Equiv.sum_comp (contrEquiv1 dot_S800000x64_S64x1_S800000x1_1_0_0_1_n_n 64 rfl rfl).symm]
  refine Finset.sum_congr rfl fun k _ => ?_
  congr 1
  · refine congrArg X ?_
    funext a
    match a with
    | ⟨0, _⟩ => rfl
    | ⟨1, _⟩ =>
      exact Fin.ext ((DotDims.lhsIdx_val_of_single dot_S800000x64_S64x1_S800000x1_1_0_0_1_n_n (cl := (1 : Fin 2)) rfl _ _).trans
        (contrEquiv1_symm_val _ 64 rfl rfl k))
  · refine transpose_apply _ W _ _ (ix2 c k) ?_
    intro b
    match b with
    | ⟨0, _⟩ =>
      show k.val = _
      exact ((DotDims.rhsIdx_val_of_single dot_S800000x64_S64x1_S800000x1_1_0_0_1_n_n (cr := (0 : Fin 2)) rfl _ _).trans
        (contrEquiv1_symm_val _ 64 rfl rfl k)).symm
    | ⟨1, _⟩ => rfl

end Dots

/-! ## The stages -/

section Stages
variable [Facts]
open Facts₀ Facts

/-- The concatenation [M | ea | ef] along the columns, at row `e` and column `q`. -/
theorem cat_apply (M : FVec Ideal S800000x96 .f32) (ea : FVec Ideal S800000x64 .f32) (ef : FVec Ideal S800000x32 .f32)
    (e : Fin 800000) (q : Fin 192) :
    concatenate S800000x192 1 [⟨S800000x96, M⟩, ⟨S800000x64, ea⟩, ⟨S800000x32, ef⟩]
        concatenates_S800000x96_S800000x64_S800000x32_S800000x192_d1 (ix2 e q)
      = Cert.Spec.cat (Cert.Spec.rd2 M) (Cert.Spec.rd2 ea) (Cert.Spec.rd2 ef) e q := by
  unfold Cert.Spec.cat
  by_cases h1 : q.val < 96
  · rw [dif_pos h1]
    exact concatenate_apply_piece (t := S800000x192) (1 : Fin 2) [⟨S800000x96, M⟩, ⟨S800000x64, ea⟩, ⟨S800000x32, ef⟩] concatenates_S800000x96_S800000x64_S800000x32_S800000x192_d1 (ix2 e q) 0 (by simp) S800000x96 M rfl rfl 0 rfl (ix2 e ⟨q.val, h1⟩)
      (by intro b hb; match b with | ⟨0, _⟩ => rfl | ⟨1, _⟩ => exact absurd rfl hb)
      (by show 0 + q.val = q.val; omega)
  · rw [dif_neg h1]
    by_cases h2 : q.val < 160
    · rw [dif_pos h2]
      exact concatenate_apply_piece (t := S800000x192) (1 : Fin 2) [⟨S800000x96, M⟩, ⟨S800000x64, ea⟩, ⟨S800000x32, ef⟩] concatenates_S800000x96_S800000x64_S800000x32_S800000x192_d1 (ix2 e q) 1 (by simp) S800000x64 ea rfl rfl 96 rfl
        (ix2 e ⟨q.val - 96, by omega⟩)
        (by intro b hb; match b with | ⟨0, _⟩ => rfl | ⟨1, _⟩ => exact absurd rfl hb)
        (by show 96 + (q.val - 96) = q.val; omega)
    · rw [dif_neg h2]
      exact concatenate_apply_piece (t := S800000x192) (1 : Fin 2) [⟨S800000x96, M⟩, ⟨S800000x64, ea⟩, ⟨S800000x32, ef⟩] concatenates_S800000x96_S800000x64_S800000x32_S800000x192_d1 (ix2 e q) 2 (by simp) S800000x32 ef rfl rfl 160 rfl
        (ix2 e ⟨q.val - 160, by have := q.isLt; omega⟩)
        (by intro b hb; match b with | ⟨0, _⟩ => rfl | ⟨1, _⟩ => exact absurd rfl hb)
        (by show 160 + (q.val - 160) = q.val; omega)

/-- (xs − xd)·Wnᵀ + bn at an index. -/
theorem msgR_apply (xs xd : FVec Ideal S800000x96 .f32) (Wn : FVec Ideal S96x96 .f32) (bn : FVec Ideal S96 .f32)
    (e : Fin 800000) (j : Fin 96) :
    addf (Host.dotGeneral (F := Ideal) dot_S800000x96_S96x96_S800000x96_1_0_0_1_n_n none (subf xs xd)
          (transpose S96x96 [1, 0] Wn transposes_S96x96_S96x96_1_0))
        (broadcastInDim S800000x96 ![0, 1] bcast_S1x96_S800000x96_0_1 (broadcastInDim S1x96 ![1] bcast_S96_S1x96_1 bn)) (ix2 e j)
      = Cert.Spec.msg (Cert.Spec.rd2 xs) (Cert.Spec.rd2 xd) (Cert.Spec.rd2 Wn) (Cert.Spec.rd1 bn) e j := by
  rw [addf_apply, dot_msg, bcast_row_apply]
  rfl

/-- The edge feature at an index. -/
theorem featR_apply (xs xd : FVec Ideal S800000x96 .f32) (ef : FVec Ideal S800000x32 .f32) (ea : FVec Ideal S800000x64 .f32)
    (Wn : FVec Ideal S96x96 .f32) (bn : FVec Ideal S96 .f32) (Wec : FVec Ideal S64x192 .f32) (bec : FVec Ideal S64 .f32)
    (e : Fin 800000) (o : Fin 64) :
    featR (F := Ideal) xs xd ef ea Wn bn Wec bec (ix2 e o)
      = Cert.Spec.feat (Cert.Spec.cat (Cert.Spec.msg (Cert.Spec.rd2 xs) (Cert.Spec.rd2 xd) (Cert.Spec.rd2 Wn) (Cert.Spec.rd1 bn))
          (Cert.Spec.rd2 ea) (Cert.Spec.rd2 ef)) (Cert.Spec.rd2 Wec) (Cert.Spec.rd1 bec) e o := by
  unfold featR
  rw [addf_apply, dot_feat, bcast_row_apply]
  unfold Cert.Spec.feat
  refine congrArg (· + _) (Finset.sum_congr rfl fun q _ => congrArg (· * _) ?_)
  rw [cat_apply]
  refine congrArg (fun mm => Cert.Spec.cat mm (Cert.Spec.rd2 ea) (Cert.Spec.rd2 ef) e q) ?_
  funext e' j
  exact msgR_apply xs xd Wn bn e' j

/-- The edge weight at an edge. -/
theorem w1R_apply (feat : FVec Ideal S800000x64 .f32) (Ww : FVec Ideal S1x64 .f32) (bw : FVec Ideal S1 .f32) (e : Fin 800000) :
    w1R (F := Ideal) feat Ww bw (ix1 e)
      = Cert.Spec.wgt (Cert.Spec.rd2 feat) (fun o => Cert.Spec.rd2 Ww 0 o) (Cert.Spec.rd1 bw 0) e := by
  unfold w1R
  rw [shapeCast_apply _ shapeCasts_S800000x1_S800000 (ix1 e) (ix2 e (0 : Fin 1)) (by
    rw [Shape.rowMajor_val_two, Shape.rowMajor_val_one]; show e.val * 1 + 0 = e.val; omega)]
  rw [maximumf_apply, addf_apply, dot_wgt, bcast_row_apply, broadcastInDim_scalar_apply, constant_apply, Ideal.ofBits_zero_f32]
  unfold Cert.Spec.wgt
  refine congrArg (fun s => max (s + _) 0) (Finset.sum_congr rfl fun o _ => congrArg (· * _) ?_)
  rw [maximumf_apply, broadcastInDim_scalar_apply, constant_apply, Ideal.ofBits_zero_f32]

/-- The node projection at an index. -/
theorem xwR_apply (x : FVec Ideal S50000x96 .f32) (Wg : FVec Ideal S96x96 .f32) (n : Fin 50000) (j : Fin 96) :
    xwR (F := Ideal) x Wg (ix2 n j) = Cert.Spec.xw (Cert.Spec.rd2 x) (Cert.Spec.rd2 Wg) n j := by
  unfold xwR
  rw [dot_xw]
  rfl

/-- Normalisation, relu and residual over the edges, at an index. -/
theorem bnR64_apply (h : FVec Ideal S800000x64 .f32) (mu var gamma beta : FVec Ideal S64 .f32) (res : FVec Ideal S800000x64 .f32)
    (e : Fin 800000) (o : Fin 64) :
    bnR64 (F := Ideal) h mu var gamma beta res (ix2 e o)
      = Cert.Spec.bnOut (Cert.Spec.rd2 h) (Cert.Spec.rd1 mu) (Cert.Spec.rd1 var) (Cert.Spec.rd1 gamma) (Cert.Spec.rd1 beta)
          (Ideal.ofBits .f32 0x3727C5AC#32) (Cert.Spec.rd2 res) e o := by
  unfold bnR64
  rw [addf_apply, maximumf_apply, addf_apply, mulf_apply, mulf_apply, subf_apply, bcast_row_apply, bcast_row_apply, bcast_row_apply,
    bcast_row_apply, broadcastInDim_scalar_apply, constant_apply, Ideal.ofBits_zero_f32]
  rfl

/-- Normalisation, relu and residual over the nodes, at an index. -/
theorem bnR96_apply (h : FVec Ideal S50000x96 .f32) (mu var gamma beta : FVec Ideal S96 .f32) (res : FVec Ideal S50000x96 .f32)
    (n : Fin 50000) (j : Fin 96) :
    bnR96 (F := Ideal) h mu var gamma beta res (ix2 n j)
      = Cert.Spec.bnOut (Cert.Spec.rd2 h) (Cert.Spec.rd1 mu) (Cert.Spec.rd1 var) (Cert.Spec.rd1 gamma) (Cert.Spec.rd1 beta)
          (Ideal.ofBits .f32 0x3727C5AC#32) (Cert.Spec.rd2 res) n j := by
  unfold bnR96
  rw [addf_apply, maximumf_apply, addf_apply, mulf_apply, mulf_apply, subf_apply, bcast_row_apply, bcast_row_apply, bcast_row_apply,
    bcast_row_apply, broadcastInDim_scalar_apply, constant_apply, Ideal.ofBits_zero_f32]
  rfl

end Stages

end Cert.RefIdx

end
-- ==== Proof.KStats.lean ====
/-
  Column means and variances taken with the reduced axis kept (a [1, C] row), against the same statistics as plain
  vectors: entry by entry they agree, since a row built from a vector reads the vector's entry and a scalar spread
  over any shape reads the scalar.
-/
import proofs.«157719_j687194767630_1_alg».proof.Proof.RefSpec
import proofs.«157719_j687194767630_1_alg».proof.Proof.RefIdx

noncomputable section

namespace Cert.KStats

open Cert.ReferenceIdeal Cert.RefSpec Idealize.ShloMosaic Idealize.ShloMosaic.ValueIdx

variable [Facts]
open Facts₀ Facts

/-- The column means over the edges, as a row. -/
def meanK64 (h : FVec Ideal S800000x64 .f32) : FVec Ideal S1x64 .f32 :=
  Host.divf (broadcastInDim S1x64 ![1] bcast_S64_S1x64_1 (colSum64 (F := Ideal) h))
    (broadcastInDim S1x64 ![] bcast_S_S1x64 (constant (F := Ideal) S_ .f32 0x49435000#32))

/-- The column variances over the edges, as a row. -/
def varK64 (h : FVec Ideal S800000x64 .f32) : FVec Ideal S1x64 .f32 :=
  select (broadcastInDim S1x64 ![] bcast_S_S1x64 (cmpf .ogt (dofCount64 (F := Ideal)) (constant (F := Ideal) S_ .f32 0x00000000#32)))
    (Host.divf (broadcastInDim S1x64 ![1] bcast_S64_S1x64_1 (colSum64 (F := Ideal) (sqDev64 (F := Ideal) h)))
      (broadcastInDim S1x64 ![] bcast_S_S1x64 (dofCount64 (F := Ideal))))
    (broadcastInDim S1x64 ![] bcast_S_S1x64 (id (constant (F := Ideal) S_ .f32 0x7FC00000#32)))

/-- The column means over the nodes, as a row. -/
def meanK96 (h : FVec Ideal S50000x96 .f32) : FVec Ideal S1x96 .f32 :=
  Host.divf (broadcastInDim S1x96 ![1] bcast_S96_S1x96_1 (colSum96 (F := Ideal) h))
    (broadcastInDim S1x96 ![] bcast_S_S1x96 (constant (F := Ideal) S_ .f32 0x47435000#32))

/-- The column variances over the nodes, as a row. -/
def varK96 (h : FVec Ideal S50000x96 .f32) : FVec Ideal S1x96 .f32 :=
  select (broadcastInDim S1x96 ![] bcast_S_S1x96 (cmpf .ogt (dofCount96 (F := Ideal)) (constant (F := Ideal) S_ .f32 0x00000000#32)))
    (Host.divf (broadcastInDim S1x96 ![1] bcast_S96_S1x96_1 (colSum96 (F := Ideal) (sqDev96 (F := Ideal) h)))
      (broadcastInDim S1x96 ![] bcast_S_S1x96 (dofCount96 (F := Ideal))))
    (broadcastInDim S1x96 ![] bcast_S_S1x96 (id (constant (F := Ideal) S_ .f32 0x7FC00000#32)))

theorem meanK64_apply (h : FVec Ideal S800000x64 .f32) (q : Fin 64) :
    meanK64 h (ix2 (0 : Fin 1) q) = meanR64 (F := Ideal) h (ix1 q) := by
  unfold meanK64 meanR64 Host.divf
  dsimp only
  rw [Cert.RefIdx.row_apply, broadcastInDim_scalar_apply, broadcastInDim_scalar_apply]

theorem meanK96_apply (h : FVec Ideal S50000x96 .f32) (q : Fin 96) :
    meanK96 h (ix2 (0 : Fin 1) q) = meanR96 (F := Ideal) h (ix1 q) := by
  unfold meanK96 meanR96 Host.divf
  dsimp only
  rw [Cert.RefIdx.row_apply, broadcastInDim_scalar_apply, broadcastInDim_scalar_apply]

theorem varK64_apply (h : FVec Ideal S800000x64 .f32) (q : Fin 64) :
    varK64 h (ix2 (0 : Fin 1) q) = varR64 (F := Ideal) h (ix1 q) := by
  unfold varK64 varR64 Host.divf
  rw [select_apply, select_apply]
  dsimp only
  rw [Cert.RefIdx.row_apply, broadcastInDim_scalar_apply, broadcastInDim_scalar_apply, broadcastInDim_scalar_apply,
    broadcastInDim_scalar_apply, broadcastInDim_scalar_apply, broadcastInDim_scalar_apply]

theorem varK96_apply (h : FVec Ideal S50000x96 .f32) (q : Fin 96) :
    varK96 h (ix2 (0 : Fin 1) q) = varR96 (F := Ideal) h (ix1 q) := by
  unfold varK96 varR96 Host.divf
  rw [select_apply, select_apply]
  dsimp only
  rw [Cert.RefIdx.row_apply, broadcastInDim_scalar_apply, broadcastInDim_scalar_apply, broadcastInDim_scalar_apply,
    broadcastInDim_scalar_apply, broadcastInDim_scalar_apply, broadcastInDim_scalar_apply]

end Cert.KStats

end
-- ==== Proof.KFlat.lean ====
/-
  An [800000, 1] column read as a vector over the edges, and the round trip of contents through a typed reference.
-/
import proofs.«157719_j687194767630_1_alg».proof.Proof.RefSpec
import Idealize.ShloMosaic.Lib.Pipeline.Value
import Idealize.ShloMosaic.Lib.ValueIdx
import Idealize.ShloMosaic.Lib.StableHlo
import Idealize.ShloMosaic.PureOps.Ideal

noncomputable section

namespace Cert.KChain

open Idealize.ShloMosaic Idealize.ShloMosaic.ValueIdx

/-- An [800000, 1] column as a vector over the edges. -/
def flat [Cert.ReferenceIdeal.Facts] (X : Cert.ReferenceIdeal.S800000x1.Idx → EReal) : Cert.ReferenceIdeal.S800000.Idx → EReal :=
  shapeCast Cert.ReferenceIdeal.S800000 X Cert.ReferenceIdeal.Facts₀.shapeCasts_S800000x1_S800000

theorem flat_apply [Cert.ReferenceIdeal.Facts] (X : Cert.ReferenceIdeal.S800000x1.Idx → EReal) (e : Fin 800000) :
    flat X (ix1 e) = X (ix2 e (0 : Fin 1)) :=
  shapeCast_apply X _ (ix1 e) (ix2 e (0 : Fin 1)) (by
    rw [Shape.rowMajor_val_two, Shape.rowMajor_val_one]; show e.val * 1 + 0 = e.val; omega)

/-- Contents carried to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.KChain

end
-- ==== Proof.KChain2.lean ====
/-
  The idealized kernel program's buffer contents between its second and third regions: the aggregated node feature
  and its column means and variances (taken with the reduced axis kept), as the named stages applied to what the
  second region left.
-/
import proofs.«157719_j687194767630_1_alg».proof.Proof.KChain0
import proofs.«157719_j687194767630_1_alg».proof.Proof.KStats
import proofs.«157719_j687194767630_1_alg».proof.Proof.KFlat

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg)

/-- The aggregated node feature, from what the second region left: the projected rows, the normalised weights, the
    two index vectors and the bias. -/
abbrev aggK (c : Dev nD) : Cert.ReferenceIdeal.S50000x96.Idx → EReal :=
  Cert.RefSpec.aggR (F := Ideal) (W10 m ρ c (Proc.devRef .tc main_v58)) (W10 m ρ c (Proc.devRef .tc main_v57))
    (W10 m ρ c (Proc.devRef .tc main_v1)) (W10 m ρ c (Proc.devRef .tc main_v3)) (W10 m ρ c (Proc.devRef .tc main_arg11))

set_option maxHeartbeats 1000000 in
set_option maxRecDepth 200000 in
theorem W11_v74 (c : Dev nD) :
    (W11 m ρ c (Proc.devRef .tc main_v74) : S50000x96.Idx → EReal) = aggK m ρ c := by
  dsimp only [W11]; after_results_simp; rfl

set_option maxHeartbeats 1000000 in
set_option maxRecDepth 200000 in
/-- The aggregated feature's column means, kept as a row. -/
theorem W11_v78 (c : Dev nD) :
    (W11 m ρ c (Proc.devRef .tc main_v78) : S1x96.Idx → EReal) = Cert.KStats.meanK96 (aggK m ρ c) := by
  dsimp only [W11]; after_results_simp; rfl

/-- The integer 0 the variance's count subtracts (no degrees of freedom are taken off). -/
theorem W11_c19 (c : Dev nD) :
    (W11 m ρ c (Proc.devRef .tc main_c_19) : S_.Idx → BitVec 32) = constantI S_ 32 0#32 := by
  dsimp only [W11]; after_results_simp

/-- The variance stretch over ANY contents `G` whose subtracted count is 0: it leaves the column variances of what `G`
    holds as the aggregated feature. Stated over a variable so that the stretch is read once, on a small term. -/
theorem var96_of (G : Valuation τ sig (Elt Ideal))
    (h19 : (G (Proc.devRef .tc main_c_19) : S_.Idx → BitVec 32) = constantI S_ 32 0#32) :
    (StableHlo.after hostOps2_1 G (Proc.devRef .tc main_v79) : S1x96.Idx → EReal)
      = Cert.KStats.varK96 (G (Proc.devRef .tc main_v74)) := by
  after_results_simp
  simp only [ofBuf_toBuf]
  rw [h19]
  rfl

/-- The aggregated feature's column variances, kept as a row. -/
theorem W12_v79 (c : Dev nD) :
    (W12 m ρ c (Proc.devRef .tc main_v79) : S1x96.Idx → EReal) = Cert.KStats.varK96 (aggK m ρ c) :=
  (var96_of (W11 m ρ c) (W11_c19 m ρ c)).trans (congrArg Cert.KStats.varK96 (W11_v74 m ρ c))

end Cert.KChain

end
-- ==== Proof.KPass.lean ====
/-
  The idealized kernel program's buffer contents at the boundaries of its regions, walked back to named stages of
  the arguments' launch contents: a buffer that no operation of a host stretch writes and that is no array of a
  region holds afterwards what it held before; an argument staged by an input window of a region is left as the
  region found it.
-/
import proofs.«157719_j687194767630_1_alg».proof.Proof.KChain2

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg)

/-! ## At the first region's exit -/

theorem W2_v1 (c : Dev nD) :
    (W2 m ρ c (Proc.devRef .tc main_v1) : S800000.Idx → BitVec 32) = Cert.RefSpec.srcOf (m ((c.tc : Thread nD τ).loc main_arg1)) :=
  (W2_of_ne m ρ c main_v1 (by decide)).trans (W1_v1 m ρ c)

theorem W2_v3 (c : Dev nD) :
    (W2 m ρ c (Proc.devRef .tc main_v3) : S800000.Idx → BitVec 32) = Cert.RefSpec.dstOf (m ((c.tc : Thread nD τ).loc main_arg1)) :=
  (W2_of_ne m ρ c main_v3 (by decide)).trans (W1_v3 m ρ c)

/-- The edge attributes are staged by the first region's fourth input window and left as found. -/
theorem W2_arg3 (c : Dev nD) : W2 m ρ c (Proc.devRef .tc main_arg3) = m ((c.tc : Thread nD τ).loc main_arg3) :=
  (W2_arr m ρ c 3).trans (((dat0 (V1 m ρ) c).arrAt_in 3 rfl _).trans ((A_eq0 (V1 m ρ) c 3).trans (W1_arg3 m ρ c)))

/-! ## At the second region's entry: buffers the stretches after the first region leave alone -/

theorem kept_9_2_arg0 (c : Dev nD) : W9 m ρ c (Proc.devRef .tc main_arg0) = W2 m ρ c (Proc.devRef .tc main_arg0) := by
  dsimp only [W9, W8, W7, W6, W5, W4, W3]; after_results_simp

theorem W9_arg0 (c : Dev nD) : W9 m ρ c (Proc.devRef .tc main_arg0) = m ((c.tc : Thread nD τ).loc main_arg0) :=
  (kept_9_2_arg0 m ρ c).trans ((W2_of_ne m ρ c main_arg0 (by decide)).trans (W1_arg0 m ρ c))

theorem kept_9_2_arg10 (c : Dev nD) : W9 m ρ c (Proc.devRef .tc main_arg10) = W2 m ρ c (Proc.devRef .tc main_arg10) := by
  dsimp only [W9, W8, W7, W6, W5, W4, W3]; after_results_simp

theorem W9_arg10 (c : Dev nD) : W9 m ρ c (Proc.devRef .tc main_arg10) = m ((c.tc : Thread nD τ).loc main_arg10) :=
  (kept_9_2_arg10 m ρ c).trans ((W2_of_ne m ρ c main_arg10 (by decide)).trans (W1_arg10 m ρ c))

/-! ## At the second region's exit -/

theorem W10_v57 (c : Dev nD) : W10 m ρ c (Proc.devRef .tc main_v57) = W9 m ρ c (Proc.devRef .tc main_v57) :=
  W10_of_ne m ρ c main_v57 (by decide)

theorem kept_9_2_v1 (c : Dev nD) : W9 m ρ c (Proc.devRef .tc main_v1) = W2 m ρ c (Proc.devRef .tc main_v1) := by
  dsimp only [W9, W8, W7, W6, W5, W4, W3]; after_results_simp

theorem kept_9_2_v3 (c : Dev nD) : W9 m ρ c (Proc.devRef .tc main_v3) = W2 m ρ c (Proc.devRef .tc main_v3) := by
  dsimp only [W9, W8, W7, W6, W5, W4, W3]; after_results_simp

theorem W10_v1 (c : Dev nD) :
    (W10 m ρ c (Proc.devRef .tc main_v1) : S800000.Idx → BitVec 32) = Cert.RefSpec.srcOf (m ((c.tc : Thread nD τ).loc main_arg1)) :=
  (W10_of_ne m ρ c main_v1 (by decide)).trans ((kept_9_2_v1 m ρ c).trans (W2_v1 m ρ c))

theorem W10_v3 (c : Dev nD) :
    (W10 m ρ c (Proc.devRef .tc main_v3) : S800000.Idx → BitVec 32) = Cert.RefSpec.dstOf (m ((c.tc : Thread nD τ).loc main_arg1)) :=
  (W10_of_ne m ρ c main_v3 (by decide)).trans ((kept_9_2_v3 m ρ c).trans (W2_v3 m ρ c))

theorem kept_9_2_arg11 (c : Dev nD) : W9 m ρ c (Proc.devRef .tc main_arg11) = W2 m ρ c (Proc.devRef .tc main_arg11) := by
  dsimp only [W9, W8, W7, W6, W5, W4, W3]; after_results_simp

theorem W10_arg11 (c : Dev nD) : W10 m ρ c (Proc.devRef .tc main_arg11) = m ((c.tc : Thread nD τ).loc main_arg11) :=
  (W10_of_ne m ρ c main_arg11 (by decide)).trans ((kept_9_2_arg11 m ρ c).trans
    ((W2_of_ne m ρ c main_arg11 (by decide)).trans (W1_arg11 m ρ c)))

/-! ## At the fourth region's entry (the third region's exit) -/

theorem kept_12_11_v74 (c : Dev nD) : W12 m ρ c (Proc.devRef .tc main_v74) = W11 m ρ c (Proc.devRef .tc main_v74) := by
  dsimp only [W12]; after_results_simp

/-- The aggregated node feature, as the fourth region finds it. -/
theorem W13_v74 (c : Dev nD) :
    (W13 m ρ c (Proc.devRef .tc main_v74) : S50000x96.Idx → EReal) = aggK m ρ c :=
  (W13_of_ne m ρ c main_v74 (by decide)).trans ((kept_12_11_v74 m ρ c).trans (W11_v74 m ρ c))

theorem kept_12_11_v78 (c : Dev nD) : W12 m ρ c (Proc.devRef .tc main_v78) = W11 m ρ c (Proc.devRef .tc main_v78) := by
  dsimp only [W12]; after_results_simp

/-- The aggregated feature's column means, as the fourth region finds them. -/
theorem W13_v78 (c : Dev nD) :
    (W13 m ρ c (Proc.devRef .tc main_v78) : S1x96.Idx → EReal) = Cert.KStats.meanK96 (aggK m ρ c) :=
  (W13_of_ne m ρ c main_v78 (by decide)).trans ((kept_12_11_v78 m ρ c).trans (W11_v78 m ρ c))

/-- The aggregated feature's column variances, as the fourth region finds them. -/
theorem W13_v79 (c : Dev nD) :
    (W13 m ρ c (Proc.devRef .tc main_v79) : S1x96.Idx → EReal) = Cert.KStats.varK96 (aggK m ρ c) :=
  (W13_of_ne m ρ c main_v79 (by decide)).trans (W12_v79 m ρ c)

theorem kept_12_10_v23 (c : Dev nD) : W12 m ρ c (Proc.devRef .tc main_v23) = W10 m ρ c (Proc.devRef .tc main_v23) := by
  dsimp only [W12, W11]; after_results_simp

theorem kept_9_2_v23 (c : Dev nD) : W9 m ρ c (Proc.devRef .tc main_v23) = W2 m ρ c (Proc.devRef .tc main_v23) := by
  dsimp only [W9, W8, W7, W6, W5, W4, W3]; after_results_simp

theorem kept_13_1_v23 (c : Dev nD) : W13 m ρ c (Proc.devRef .tc main_v23) = W1 m ρ c (Proc.devRef .tc main_v23) :=
  (W13_of_ne m ρ c main_v23 (by decide)).trans ((kept_12_10_v23 m ρ c).trans ((W10_of_ne m ρ c main_v23 (by decide)).trans
    ((kept_9_2_v23 m ρ c).trans (W2_of_ne m ρ c main_v23 (by decide)))))

/-- The node scale row, as the fourth region finds it, reads the scale vector. -/
theorem W13_v23 (c : Dev nD) (q : Fin 96) :
    (W13 m ρ c (Proc.devRef .tc main_v23) : S1x96.Idx → EReal) (ix2 (0 : Fin 1) q) = (m ((c.tc : Thread nD τ).loc main_arg14)) (ix1 q) := by
  rw [kept_13_1_v23 m ρ c]; exact W1_v23 m ρ c q

theorem kept_12_10_v24 (c : Dev nD) : W12 m ρ c (Proc.devRef .tc main_v24) = W10 m ρ c (Proc.devRef .tc main_v24) := by
  dsimp only [W12, W11]; after_results_simp

theorem kept_9_2_v24 (c : Dev nD) : W9 m ρ c (Proc.devRef .tc main_v24) = W2 m ρ c (Proc.devRef .tc main_v24) := by
  dsimp only [W9, W8, W7, W6, W5, W4, W3]; after_results_simp

theorem kept_13_1_v24 (c : Dev nD) : W13 m ρ c (Proc.devRef .tc main_v24) = W1 m ρ c (Proc.devRef .tc main_v24) :=
  (W13_of_ne m ρ c main_v24 (by decide)).trans ((kept_12_10_v24 m ρ c).trans ((W10_of_ne m ρ c main_v24 (by decide)).trans
    ((kept_9_2_v24 m ρ c).trans (W2_of_ne m ρ c main_v24 (by decide)))))

/-- The node shift row, as the fourth region finds it, reads the shift vector. -/
theorem W13_v24 (c : Dev nD) (q : Fin 96) :
    (W13 m ρ c (Proc.devRef .tc main_v24) : S1x96.Idx → EReal) (ix2 (0 : Fin 1) q) = (m ((c.tc : Thread nD τ).loc main_arg15)) (ix1 q) := by
  rw [kept_13_1_v24 m ρ c]; exact W1_v24 m ρ c q

theorem kept_12_10_arg0 (c : Dev nD) : W12 m ρ c (Proc.devRef .tc main_arg0) = W10 m ρ c (Proc.devRef .tc main_arg0) := by
  dsimp only [W12, W11]; after_results_simp

/-- The node features are staged by the second region's first input window and left as found. -/
theorem W13_arg0 (c : Dev nD) : W13 m ρ c (Proc.devRef .tc main_arg0) = m ((c.tc : Thread nD τ).loc main_arg0) :=
  (W13_of_ne m ρ c main_arg0 (by decide)).trans ((kept_12_10_arg0 m ρ c).trans
    (((W10_arr m ρ c 0).trans (((dat1 (V9 m ρ) c).arrAt_in 0 rfl _).trans (A_eq1 (V9 m ρ) c 0))).trans (W9_arg0 m ρ c)))

/-! ## At the fourth region's exit -/

/-- The edge output is as the third region left it. -/
theorem W14_v80 (c : Dev nD) : W14 m ρ c (Proc.devRef .tc main_v80) = W13 m ρ c (Proc.devRef .tc main_v80) :=
  W14_of_ne m ρ c main_v80 (by decide)

end Cert.KChain

end
-- ==== Proof.KPass2.lean ====
/-
  The third region's operands at its entry, each traced back along the program: a buffer that no operation or region
  between two boundaries writes holds at the later boundary what it held at the earlier one. The edge feature and
  edge_attr reach the third region as the first region left them, and the two scale / shift rows as the first host
  stretch laid them out.
-/
import proofs.«157719_j687194767630_1_alg».proof.Proof.KChain0

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg)

/-! ## Unwritten between the first region's exit and the third region's entry -/

/-- The edge feature is not written between the first region's exit and the third region's entry. -/
theorem W12_W2_v25_0 (c : Dev nD) : W12 m ρ c (Proc.devRef .tc main_v25_0) = W2 m ρ c (Proc.devRef .tc main_v25_0) := by
  have h12 : W12 m ρ c (Proc.devRef .tc main_v25_0) = W11 m ρ c (Proc.devRef .tc main_v25_0) := by dsimp only [W12]; skip_ops
  have h11 : W11 m ρ c (Proc.devRef .tc main_v25_0) = W10 m ρ c (Proc.devRef .tc main_v25_0) := by dsimp only [W11]; skip_ops
  have h10 : W10 m ρ c (Proc.devRef .tc main_v25_0) = W9 m ρ c (Proc.devRef .tc main_v25_0) := W10_of_ne m ρ c main_v25_0 (by decide)
  have h9 : W9 m ρ c (Proc.devRef .tc main_v25_0) = W8 m ρ c (Proc.devRef .tc main_v25_0) := by dsimp only [W9]; skip_ops
  have h8 : W8 m ρ c (Proc.devRef .tc main_v25_0) = W7 m ρ c (Proc.devRef .tc main_v25_0) := by dsimp only [W8]; skip_ops
  have h7 : W7 m ρ c (Proc.devRef .tc main_v25_0) = W6 m ρ c (Proc.devRef .tc main_v25_0) := by dsimp only [W7]; skip_ops
  have h6 : W6 m ρ c (Proc.devRef .tc main_v25_0) = W5 m ρ c (Proc.devRef .tc main_v25_0) := by dsimp only [W6]; skip_ops
  have h5 : W5 m ρ c (Proc.devRef .tc main_v25_0) = W4 m ρ c (Proc.devRef .tc main_v25_0) := by dsimp only [W5]; skip_ops
  have h4 : W4 m ρ c (Proc.devRef .tc main_v25_0) = W3 m ρ c (Proc.devRef .tc main_v25_0) := by dsimp only [W4]; skip_ops
  have h3 : W3 m ρ c (Proc.devRef .tc main_v25_0) = W2 m ρ c (Proc.devRef .tc main_v25_0) := by dsimp only [W3]; skip_ops
  rw [h12, h11, h10, h9, h8, h7, h6, h5, h4, h3]

/-- The edge scale row likewise. -/
theorem W12_W2_v21 (c : Dev nD) : W12 m ρ c (Proc.devRef .tc main_v21) = W2 m ρ c (Proc.devRef .tc main_v21) := by
  have h12 : W12 m ρ c (Proc.devRef .tc main_v21) = W11 m ρ c (Proc.devRef .tc main_v21) := by dsimp only [W12]; skip_ops
  have h11 : W11 m ρ c (Proc.devRef .tc main_v21) = W10 m ρ c (Proc.devRef .tc main_v21) := by dsimp only [W11]; skip_ops
  have h10 : W10 m ρ c (Proc.devRef .tc main_v21) = W9 m ρ c (Proc.devRef .tc main_v21) := W10_of_ne m ρ c main_v21 (by decide)
  have h9 : W9 m ρ c (Proc.devRef .tc main_v21) = W8 m ρ c (Proc.devRef .tc main_v21) := by dsimp only [W9]; skip_ops
  have h8 : W8 m ρ c (Proc.devRef .tc main_v21) = W7 m ρ c (Proc.devRef .tc main_v21) := by dsimp only [W8]; skip_ops
  have h7 : W7 m ρ c (Proc.devRef .tc main_v21) = W6 m ρ c (Proc.devRef .tc main_v21) := by dsimp only [W7]; skip_ops
  have h6 : W6 m ρ c (Proc.devRef .tc main_v21) = W5 m ρ c (Proc.devRef .tc main_v21) := by dsimp only [W6]; skip_ops
  have h5 : W5 m ρ c (Proc.devRef .tc main_v21) = W4 m ρ c (Proc.devRef .tc main_v21) := by dsimp only [W5]; skip_ops
  have h4 : W4 m ρ c (Proc.devRef .tc main_v21) = W3 m ρ c (Proc.devRef .tc main_v21) := by dsimp only [W4]; skip_ops
  have h3 : W3 m ρ c (Proc.devRef .tc main_v21) = W2 m ρ c (Proc.devRef .tc main_v21) := by dsimp only [W3]; skip_ops
  rw [h12, h11, h10, h9, h8, h7, h6, h5, h4, h3]

/-- The edge shift row likewise. -/
theorem W12_W2_v22 (c : Dev nD) : W12 m ρ c (Proc.devRef .tc main_v22) = W2 m ρ c (Proc.devRef .tc main_v22) := by
  have h12 : W12 m ρ c (Proc.devRef .tc main_v22) = W11 m ρ c (Proc.devRef .tc main_v22) := by dsimp only [W12]; skip_ops
  have h11 : W11 m ρ c (Proc.devRef .tc main_v22) = W10 m ρ c (Proc.devRef .tc main_v22) := by dsimp only [W11]; skip_ops
  have h10 : W10 m ρ c (Proc.devRef .tc main_v22) = W9 m ρ c (Proc.devRef .tc main_v22) := W10_of_ne m ρ c main_v22 (by decide)
  have h9 : W9 m ρ c (Proc.devRef .tc main_v22) = W8 m ρ c (Proc.devRef .tc main_v22) := by dsimp only [W9]; skip_ops
  have h8 : W8 m ρ c (Proc.devRef .tc main_v22) = W7 m ρ c (Proc.devRef .tc main_v22) := by dsimp only [W8]; skip_ops
  have h7 : W7 m ρ c (Proc.devRef .tc main_v22) = W6 m ρ c (Proc.devRef .tc main_v22) := by dsimp only [W7]; skip_ops
  have h6 : W6 m ρ c (Proc.devRef .tc main_v22) = W5 m ρ c (Proc.devRef .tc main_v22) := by dsimp only [W6]; skip_ops
  have h5 : W5 m ρ c (Proc.devRef .tc main_v22) = W4 m ρ c (Proc.devRef .tc main_v22) := by dsimp only [W5]; skip_ops
  have h4 : W4 m ρ c (Proc.devRef .tc main_v22) = W3 m ρ c (Proc.devRef .tc main_v22) := by dsimp only [W4]; skip_ops
  have h3 : W3 m ρ c (Proc.devRef .tc main_v22) = W2 m ρ c (Proc.devRef .tc main_v22) := by dsimp only [W3]; skip_ops
  rw [h12, h11, h10, h9, h8, h7, h6, h5, h4, h3]

/-- edge_attr likewise. -/
theorem W12_W2_arg3 (c : Dev nD) : W12 m ρ c (Proc.devRef .tc main_arg3) = W2 m ρ c (Proc.devRef .tc main_arg3) := by
  have h12 : W12 m ρ c (Proc.devRef .tc main_arg3) = W11 m ρ c (Proc.devRef .tc main_arg3) := by dsimp only [W12]; skip_ops
  have h11 : W11 m ρ c (Proc.devRef .tc main_arg3) = W10 m ρ c (Proc.devRef .tc main_arg3) := by dsimp only [W11]; skip_ops
  have h10 : W10 m ρ c (Proc.devRef .tc main_arg3) = W9 m ρ c (Proc.devRef .tc main_arg3) := W10_of_ne m ρ c main_arg3 (by decide)
  have h9 : W9 m ρ c (Proc.devRef .tc main_arg3) = W8 m ρ c (Proc.devRef .tc main_arg3) := by dsimp only [W9]; skip_ops
  have h8 : W8 m ρ c (Proc.devRef .tc main_arg3) = W7 m ρ c (Proc.devRef .tc main_arg3) := by dsimp only [W8]; skip_ops
  have h7 : W7 m ρ c (Proc.devRef .tc main_arg3) = W6 m ρ c (Proc.devRef .tc main_arg3) := by dsimp only [W7]; skip_ops
  have h6 : W6 m ρ c (Proc.devRef .tc main_arg3) = W5 m ρ c (Proc.devRef .tc main_arg3) := by dsimp only [W6]; skip_ops
  have h5 : W5 m ρ c (Proc.devRef .tc main_arg3) = W4 m ρ c (Proc.devRef .tc main_arg3) := by dsimp only [W5]; skip_ops
  have h4 : W4 m ρ c (Proc.devRef .tc main_arg3) = W3 m ρ c (Proc.devRef .tc main_arg3) := by dsimp only [W4]; skip_ops
  have h3 : W3 m ρ c (Proc.devRef .tc main_arg3) = W2 m ρ c (Proc.devRef .tc main_arg3) := by dsimp only [W3]; skip_ops
  rw [h12, h11, h10, h9, h8, h7, h6, h5, h4, h3]

/-! ## The third region's operands -/

/-- The edge feature at the third region's entry is what the first region left. -/
theorem W12_v25_0 (c : Dev nD) : W12 m ρ c (Proc.devRef .tc main_v25_0) = W2 m ρ c (Proc.devRef .tc main_v25_0) :=
  W12_W2_v25_0 m ρ c

/-- The edge scale row at the third region's entry is the scale vector laid out as a row. -/
theorem W12_v21 (c : Dev nD) (q : Fin 64) :
    (W12 m ρ c (Proc.devRef .tc main_v21) : S1x64.Idx → EReal) (ix2 (0 : Fin 1) q) = (m ((c.tc : Thread nD τ).loc main_arg12)) (ix1 q) := by
  rw [W12_W2_v21 m ρ c, W2_of_ne m ρ c main_v21 (by decide)]
  exact W1_v21 m ρ c q

/-- The edge shift row at the third region's entry is the shift vector laid out as a row. -/
theorem W12_v22 (c : Dev nD) (q : Fin 64) :
    (W12 m ρ c (Proc.devRef .tc main_v22) : S1x64.Idx → EReal) (ix2 (0 : Fin 1) q) = (m ((c.tc : Thread nD τ).loc main_arg13)) (ix1 q) := by
  rw [W12_W2_v22 m ρ c, W2_of_ne m ρ c main_v22 (by decide)]
  exact W1_v22 m ρ c q

/-- edge_attr at the third region's entry is as launched: the first region only reads it. -/
theorem W12_arg3 (c : Dev nD) : W12 m ρ c (Proc.devRef .tc main_arg3) = (m ((c.tc : Thread nD τ).loc main_arg3)) := by
  rw [W12_W2_arg3 m ρ c]
  refine ((W2_arr m ρ c 3).trans (((dat0 (V1 m ρ) c).arrAt_in 3 rfl _).trans (A_eq0 (V1 m ρ) c 3))).trans ?_
  exact W1_arg3 m ρ c

end Cert.KChain

end
-- ==== Proof.KChain1.lean ====
/-
  The idealized kernel program's buffer contents between its first and second regions: the column means and
  variances of the edge feature (taken with the reduced axis kept), and the normalised edge weights, as the named
  stages applied to what the first region left.
-/
import proofs.«157719_j687194767630_1_alg».proof.Proof.KChain0
import proofs.«157719_j687194767630_1_alg».proof.Proof.KStats
import proofs.«157719_j687194767630_1_alg».proof.Proof.KFlat

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg)

/-! ## Between the first and the second region, relative to what the first region left (`W2`) -/

/-! Contents carried to or from a typed reference whose buffer has the stated type are unchanged. -/

theorem toBuf_main_v41 (h1 h2 h3) (v : (⟨S50000, .f32⟩ : BufTy).Contents (Elt Ideal)) :
    (StableHlo.TRef.of (sig := sig) main_v41 h1 h2 h3 : StableHlo.TRef sig ⟨S50000, .f32⟩).toBuf v = v := rfl
theorem ofBuf_main_v41 (h1 h2 h3) (v : (main_v41 : Ref sig .tc).ty.Contents (Elt Ideal)) :
    (StableHlo.TRef.of (sig := sig) main_v41 h1 h2 h3 : StableHlo.TRef sig ⟨S50000, .f32⟩).ofBuf v = v := rfl
theorem toBuf_main_v36 (h1 h2 h3) (v : (⟨S50000, .i1⟩ : BufTy).Contents (Elt Ideal)) :
    (StableHlo.TRef.of (sig := sig) main_v36 h1 h2 h3 : StableHlo.TRef sig ⟨S50000, .i1⟩).toBuf v = v := rfl
theorem ofBuf_main_v36 (h1 h2 h3) (v : (main_v36 : Ref sig .tc).ty.Contents (Elt Ideal)) :
    (StableHlo.TRef.of (sig := sig) main_v36 h1 h2 h3 : StableHlo.TRef sig ⟨S50000, .i1⟩).ofBuf v = v := rfl
theorem toBuf_main_v40 (h1 h2 h3) (v : (⟨S50000, .f32⟩ : BufTy).Contents (Elt Ideal)) :
    (StableHlo.TRef.of (sig := sig) main_v40 h1 h2 h3 : StableHlo.TRef sig ⟨S50000, .f32⟩).toBuf v = v := rfl
theorem ofBuf_main_v40 (h1 h2 h3) (v : (main_v40 : Ref sig .tc).ty.Contents (Elt Ideal)) :
    (StableHlo.TRef.of (sig := sig) main_v40 h1 h2 h3 : StableHlo.TRef sig ⟨S50000, .f32⟩).ofBuf v = v := rfl
theorem toBuf_main_v39 (h1 h2 h3) (v : (⟨S50000, .f32⟩ : BufTy).Contents (Elt Ideal)) :
    (StableHlo.TRef.of (sig := sig) main_v39 h1 h2 h3 : StableHlo.TRef sig ⟨S50000, .f32⟩).toBuf v = v := rfl
theorem ofBuf_main_v39 (h1 h2 h3) (v : (main_v39 : Ref sig .tc).ty.Contents (Elt Ideal)) :
    (StableHlo.TRef.of (sig := sig) main_v39 h1 h2 h3 : StableHlo.TRef sig ⟨S50000, .f32⟩).ofBuf v = v := rfl
theorem toBuf_main_v38 (h1 h2 h3) (v : (⟨S50000, .i1⟩ : BufTy).Contents (Elt Ideal)) :
    (StableHlo.TRef.of (sig := sig) main_v38 h1 h2 h3 : StableHlo.TRef sig ⟨S50000, .i1⟩).toBuf v = v := rfl
theorem ofBuf_main_v38 (h1 h2 h3) (v : (main_v38 : Ref sig .tc).ty.Contents (Elt Ideal)) :
    (StableHlo.TRef.of (sig := sig) main_v38 h1 h2 h3 : StableHlo.TRef sig ⟨S50000, .i1⟩).ofBuf v = v := rfl
theorem toBuf_main_v34 (h1 h2 h3) (v : (⟨S50000, .f32⟩ : BufTy).Contents (Elt Ideal)) :
    (StableHlo.TRef.of (sig := sig) main_v34 h1 h2 h3 : StableHlo.TRef sig ⟨S50000, .f32⟩).toBuf v = v := rfl
theorem ofBuf_main_v34 (h1 h2 h3) (v : (main_v34 : Ref sig .tc).ty.Contents (Elt Ideal)) :
    (StableHlo.TRef.of (sig := sig) main_v34 h1 h2 h3 : StableHlo.TRef sig ⟨S50000, .f32⟩).ofBuf v = v := rfl
theorem toBuf_main_cst_8 (h1 h2 h3) (v : (⟨S_, .f32⟩ : BufTy).Contents (Elt Ideal)) :
    (StableHlo.TRef.of (sig := sig) main_cst_8 h1 h2 h3 : StableHlo.TRef sig ⟨S_, .f32⟩).toBuf v = v := rfl
theorem ofBuf_main_cst_8 (h1 h2 h3) (v : (main_cst_8 : Ref sig .tc).ty.Contents (Elt Ideal)) :
    (StableHlo.TRef.of (sig := sig) main_cst_8 h1 h2 h3 : StableHlo.TRef sig ⟨S_, .f32⟩).ofBuf v = v := rfl
theorem toBuf_main_cst_9 (h1 h2 h3) (v : (⟨S_, .f32⟩ : BufTy).Contents (Elt Ideal)) :
    (StableHlo.TRef.of (sig := sig) main_cst_9 h1 h2 h3 : StableHlo.TRef sig ⟨S_, .f32⟩).toBuf v = v := rfl
theorem ofBuf_main_cst_9 (h1 h2 h3) (v : (main_cst_9 : Ref sig .tc).ty.Contents (Elt Ideal)) :
    (StableHlo.TRef.of (sig := sig) main_cst_9 h1 h2 h3 : StableHlo.TRef sig ⟨S_, .f32⟩).ofBuf v = v := rfl

set_option maxHeartbeats 1000000 in
/-- The normalised edge weights. -/
theorem W9_v57 (c : Dev nD) :
    (W9 m ρ c (Proc.devRef .tc main_v57) : S800000.Idx → EReal)
      = Cert.RefSpec.normR (F := Ideal) (flat (W2 m ρ c (Proc.devRef .tc main_v25_1)))
          (W2 m ρ c (Proc.devRef .tc main_v1)) (W2 m ρ c (Proc.devRef .tc main_v3)) := by
  dsimp only [W9, W8, W7, W6, W5, W4, W3]; after_results_simp
  simp only [ofBuf_toBuf, toBuf_main_v41, ofBuf_main_v41, toBuf_main_v36, ofBuf_main_v36, toBuf_main_v40, ofBuf_main_v40, toBuf_main_v39, ofBuf_main_v39, toBuf_main_v38, ofBuf_main_v38, toBuf_main_v34, ofBuf_main_v34, toBuf_main_cst_8, ofBuf_main_cst_8, toBuf_main_cst_9, ofBuf_main_cst_9]
  rfl

set_option maxHeartbeats 1000000 in
/-- The edge feature's column means, kept as a row. -/
theorem W3_v29 (c : Dev nD) :
    (W3 m ρ c (Proc.devRef .tc main_v29) : S1x64.Idx → EReal)
      = Cert.KStats.meanK64 (W2 m ρ c (Proc.devRef .tc main_v25_0)) := by
  dsimp only [W3]; after_results_simp; rfl

set_option maxHeartbeats 1000000 in
/-- The edge feature's column variances, kept as a row. -/
theorem W4_v30 (c : Dev nD) :
    (W4 m ρ c (Proc.devRef .tc main_v30) : S1x64.Idx → EReal)
      = Cert.KStats.varK64 (W2 m ρ c (Proc.devRef .tc main_v25_0)) := by
  dsimp only [W4, W3]; after_results_simp
  simp only [ofBuf_toBuf]
  rfl

end Cert.KChain

end
-- ==== Proof.KPass2Stats.lean ====
/-
  The third region's two statistics rows at its entry: the edge feature's column means are written by the first host
  stretch after the first region and its column variances by the second, and nothing later writes either before the
  third region.
-/
import proofs.«157719_j687194767630_1_alg».proof.Proof.KPass2
import proofs.«157719_j687194767630_1_alg».proof.Proof.KChain1
import proofs.«157719_j687194767630_1_alg».proof.Proof.KStats

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg)

/-- The mean row is not written after the stretch that computes it. -/
theorem W12_W3_v29 (c : Dev nD) : W12 m ρ c (Proc.devRef .tc main_v29) = W3 m ρ c (Proc.devRef .tc main_v29) := by
  have h12 : W12 m ρ c (Proc.devRef .tc main_v29) = W11 m ρ c (Proc.devRef .tc main_v29) := by dsimp only [W12]; skip_ops
  have h11 : W11 m ρ c (Proc.devRef .tc main_v29) = W10 m ρ c (Proc.devRef .tc main_v29) := by dsimp only [W11]; skip_ops
  have h10 : W10 m ρ c (Proc.devRef .tc main_v29) = W9 m ρ c (Proc.devRef .tc main_v29) := W10_of_ne m ρ c main_v29 (by decide)
  have h9 : W9 m ρ c (Proc.devRef .tc main_v29) = W8 m ρ c (Proc.devRef .tc main_v29) := by dsimp only [W9]; skip_ops
  have h8 : W8 m ρ c (Proc.devRef .tc main_v29) = W7 m ρ c (Proc.devRef .tc main_v29) := by dsimp only [W8]; skip_ops
  have h7 : W7 m ρ c (Proc.devRef .tc main_v29) = W6 m ρ c (Proc.devRef .tc main_v29) := by dsimp only [W7]; skip_ops
  have h6 : W6 m ρ c (Proc.devRef .tc main_v29) = W5 m ρ c (Proc.devRef .tc main_v29) := by dsimp only [W6]; skip_ops
  have h5 : W5 m ρ c (Proc.devRef .tc main_v29) = W4 m ρ c (Proc.devRef .tc main_v29) := by dsimp only [W5]; skip_ops
  have h4 : W4 m ρ c (Proc.devRef .tc main_v29) = W3 m ρ c (Proc.devRef .tc main_v29) := by dsimp only [W4]; skip_ops
  rw [h12, h11, h10, h9, h8, h7, h6, h5, h4]

/-- The variance row is not written after the stretch that computes it. -/
theorem W12_W4_v30 (c : Dev nD) : W12 m ρ c (Proc.devRef .tc main_v30) = W4 m ρ c (Proc.devRef .tc main_v30) := by
  have h12 : W12 m ρ c (Proc.devRef .tc main_v30) = W11 m ρ c (Proc.devRef .tc main_v30) := by dsimp only [W12]; skip_ops
  have h11 : W11 m ρ c (Proc.devRef .tc main_v30) = W10 m ρ c (Proc.devRef .tc main_v30) := by dsimp only [W11]; skip_ops
  have h10 : W10 m ρ c (Proc.devRef .tc main_v30) = W9 m ρ c (Proc.devRef .tc main_v30) := W10_of_ne m ρ c main_v30 (by decide)
  have h9 : W9 m ρ c (Proc.devRef .tc main_v30) = W8 m ρ c (Proc.devRef .tc main_v30) := by dsimp only [W9]; skip_ops
  have h8 : W8 m ρ c (Proc.devRef .tc main_v30) = W7 m ρ c (Proc.devRef .tc main_v30) := by dsimp only [W8]; skip_ops
  have h7 : W7 m ρ c (Proc.devRef .tc main_v30) = W6 m ρ c (Proc.devRef .tc main_v30) := by dsimp only [W7]; skip_ops
  have h6 : W6 m ρ c (Proc.devRef .tc main_v30) = W5 m ρ c (Proc.devRef .tc main_v30) := by dsimp only [W6]; skip_ops
  have h5 : W5 m ρ c (Proc.devRef .tc main_v30) = W4 m ρ c (Proc.devRef .tc main_v30) := by dsimp only [W5]; skip_ops
  rw [h12, h11, h10, h9, h8, h7, h6, h5]

/-- The mean row at the third region's entry: the column means of the edge feature the first region left. -/
theorem W12_v29 (c : Dev nD) :
    (W12 m ρ c (Proc.devRef .tc main_v29) : S1x64.Idx → EReal) = Cert.KStats.meanK64 (W2 m ρ c (Proc.devRef .tc main_v25_0)) :=
  (W12_W3_v29 m ρ c).trans (W3_v29 m ρ c)

/-- The variance row at the third region's entry: the column variances of the edge feature the first region left. -/
theorem W12_v30 (c : Dev nD) :
    (W12 m ρ c (Proc.devRef .tc main_v30) : S1x64.Idx → EReal) = Cert.KStats.varK64 (W2 m ρ c (Proc.devRef .tc main_v25_0)) :=
  (W12_W4_v30 m ρ c).trans (W4_v30 m ρ c)

end Cert.KChain

end
-- ==== Proof.EdgeBlockWin.lean ====
/-
  The edge kernel's windows, as geometry. The grid has 125 points; at point `t` each of the four edge-row inputs and
  the two outputs hold rows `6400·t … 6400·t + 6399` of their arrays (all columns), and each weight or bias window holds
  its whole array. So a block's local index `(p, q)` is the array's `(6400·t + p, q)`, the row `r` of an output lies
  in the block of point `r / 6400`, and the 125 blocks cover the 800000 rows.
-/
import proofs.«157719_j687194767630_1_alg».proof.Proof.Gen.KernelIdeal.Frame
import Idealize.ShloMosaic.Lib.Pipeline.Value
import Idealize.ShloMosaic.Lib.ValueIdx

noncomputable section

namespace Cert.KernelIdeal.EdgeValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block load or store, spelt as a constant function. -/
theorem hz : (![0, 0] : Fin 2 → Nat) = fun _ => 0 := funext fun a => by fin_cases a <;> rfl

/-- The windows' index maps over the 125 points: a row window's block index is `(t, 0)`, a whole-array window's `(0, 0)`. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## The input blocks as parts of their arrays -/

/-- Window 0's block at point `t` is rows `6400·t … 6400·t + 6399` of its array. -/
theorem iblk0_0_apply (c : Dev nD) (t : Fin cfg0.N) (x : S6400x96.Idx) (k : S800000x96.Idx)
    (hk0 : (k 0).val = 6400 * t.val + (x 0).val) (hk1 : (k 1).val = (x 1).val) :
    (iblk0 (F := Ideal) V c 0 t : S6400x96.Idx → EReal) x = (V c main_v10 : S800000x96.Idx → EReal) k := by
  have hi := (idx0 t).1
  unfold iblk0
  rw [View.read_apply]
  show V c main_v10 _ = V c main_v10 _
  congr 1
  funext a
  apply Fin.ext
  match a with
  | ⟨0, _⟩ => show win0_0.index t (0 : Fin 2) * 6400 + 1 * (x 0).val = (k 0).val; rw [hi.1, hk0]; omega
  | ⟨1, _⟩ => show win0_0.index t (1 : Fin 2) * 96 + 1 * (x 1).val = (k 1).val; rw [hi.2, hk1]; omega

/-- Window 1's block at point `t` is rows `6400·t … 6400·t + 6399` of its array. -/
theorem iblk0_1_apply (c : Dev nD) (t : Fin cfg0.N) (x : S6400x96.Idx) (k : S800000x96.Idx)
    (hk0 : (k 0).val = 6400 * t.val + (x 0).val) (hk1 : (k 1).val = (x 1).val) :
    (iblk0 (F := Ideal) V c 1 t : S6400x96.Idx → EReal) x = (V c main_v17 : S800000x96.Idx → EReal) k := by
  have hi := (idx0 t).2.1
  unfold iblk0
  rw [View.read_apply]
  show V c main_v17 _ = V c main_v17 _
  congr 1
  funext a
  apply Fin.ext
  match a with
  | ⟨0, _⟩ => show win0_1.index t (0 : Fin 2) * 6400 + 1 * (x 0).val = (k 0).val; rw [hi.1, hk0]; omega
  | ⟨1, _⟩ => show win0_1.index t (1 : Fin 2) * 96 + 1 * (x 1).val = (k 1).val; rw [hi.2, hk1]; omega

/-- Window 2's block at point `t` is rows `6400·t … 6400·t + 6399` of its array. -/
theorem iblk0_2_apply (c : Dev nD) (t : Fin cfg0.N) (x : S6400x32.Idx) (k : S800000x32.Idx)
    (hk0 : (k 0).val = 6400 * t.val + (x 0).val) (hk1 : (k 1).val = (x 1).val) :
    (iblk0 (F := Ideal) V c 2 t : S6400x32.Idx → EReal) x = (V c main_arg2 : S800000x32.Idx → EReal) k := by
  have hi := (idx0 t).2.2.1
  unfold iblk0
  rw [View.read_apply]
  show V c main_arg2 _ = V c main_arg2 _
  congr 1
  funext a
  apply Fin.ext
  match a with
  | ⟨0, _⟩ => show win0_2.index t (0 : Fin 2) * 6400 + 1 * (x 0).val = (k 0).val; rw [hi.1, hk0]; omega
  | ⟨1, _⟩ => show win0_2.index t (1 : Fin 2) * 32 + 1 * (x 1).val = (k 1).val; rw [hi.2, hk1]; omega

/-- Window 3's block at point `t` is rows `6400·t … 6400·t + 6399` of its array. -/
theorem iblk0_3_apply (c : Dev nD) (t : Fin cfg0.N) (x : S6400x64.Idx) (k : S800000x64.Idx)
    (hk0 : (k 0).val = 6400 * t.val + (x 0).val) (hk1 : (k 1).val = (x 1).val) :
    (iblk0 (F := Ideal) V c 3 t : S6400x64.Idx → EReal) x = (V c main_arg3 : S800000x64.Idx → EReal) k := by
  have hi := (idx0 t).2.2.2.1
  unfold iblk0
  rw [View.read_apply]
  show V c main_arg3 _ = V c main_arg3 _
  congr 1
  funext a
  apply Fin.ext
  match a with
  | ⟨0, _⟩ => show win0_3.index t (0 : Fin 2) * 6400 + 1 * (x 0).val = (k 0).val; rw [hi.1, hk0]; omega
  | ⟨1, _⟩ => show win0_3.index t (1 : Fin 2) * 64 + 1 * (x 1).val = (k 1).val; rw [hi.2, hk1]; omega

/-- Window 4's block at every point is its whole array. -/
theorem iblk0_4_eq (c : Dev nD) (t : Fin cfg0.N) :
    (iblk0 (F := Ideal) V c 4 t : S96x96.Idx → EReal) = (V c main_arg4 : S96x96.Idx → EReal) := by
  have hi := (idx0 t).2.2.2.2.1
  funext x
  unfold iblk0
  rw [View.read_apply]
  show V c main_arg4 _ = V c main_arg4 _
  congr 1
  funext a
  apply Fin.ext
  match a with
  | ⟨0, _⟩ => show win0_4.index t (0 : Fin 2) * 96 + 1 * (x 0).val = (x 0).val; rw [hi.1]; omega
  | ⟨1, _⟩ => show win0_4.index t (1 : Fin 2) * 96 + 1 * (x 1).val = (x 1).val; rw [hi.2]; omega

/-- Window 5's block at every point is its whole array. -/
theorem iblk0_5_eq (c : Dev nD) (t : Fin cfg0.N) :
    (iblk0 (F := Ideal) V c 5 t : S1x96.Idx → EReal) = (V c main_v18 : S1x96.Idx → EReal) := by
  have hi := (idx0 t).2.2.2.2.2.1
  funext x
  unfold iblk0
  rw [View.read_apply]
  show V c main_v18 _ = V c main_v18 _
  congr 1
  funext a
  apply Fin.ext
  match a with
  | ⟨0, _⟩ => show win0_5.index t (0 : Fin 2) * 1 + 1 * (x 0).val = (x 0).val; rw [hi.1]; omega
  | ⟨1, _⟩ => show win0_5.index t (1 : Fin 2) * 96 + 1 * (x 1).val = (x 1).val; rw [hi.2]; omega

/-- Window 6's block at every point is its whole array. -/
theorem iblk0_6_eq (c : Dev nD) (t : Fin cfg0.N) :
    (iblk0 (F := Ideal) V c 6 t : S64x192.Idx → EReal) = (V c main_arg6 : S64x192.Idx → EReal) := by
  have hi := (idx0 t).2.2.2.2.2.2.1
  funext x
  unfold iblk0
  rw [View.read_apply]
  show V c main_arg6 _ = V c main_arg6 _
  congr 1
  funext a
  apply Fin.ext
  match a with
  | ⟨0, _⟩ => show win0_6.index t (0 : Fin 2) * 64 + 1 * (x 0).val = (x 0).val; rw [hi.1]; omega
  | ⟨1, _⟩ => show win0_6.index t (1 : Fin 2) * 192 + 1 * (x 1).val = (x 1).val; rw [hi.2]; omega

/-- Window 7's block at every point is its whole array. -/
theorem iblk0_7_eq (c : Dev nD) (t : Fin cfg0.N) :
    (iblk0 (F := Ideal) V c 7 t : S1x64.Idx → EReal) = (V c main_v19 : S1x64.Idx → EReal) := by
  have hi := (idx0 t).2.2.2.2.2.2.2.1
  funext x
  unfold iblk0
  rw [View.read_apply]
  show V c main_v19 _ = V c main_v19 _
  congr 1
  funext a
  apply Fin.ext
  match a with
  | ⟨0, _⟩ => show win0_7.index t (0 : Fin 2) * 1 + 1 * (x 0).val = (x 0).val; rw [hi.1]; omega
  | ⟨1, _⟩ => show win0_7.index t (1 : Fin 2) * 64 + 1 * (x 1).val = (x 1).val; rw [hi.2]; omega

/-- Window 8's block at every point is its whole array. -/
theorem iblk0_8_eq (c : Dev nD) (t : Fin cfg0.N) :
    (iblk0 (F := Ideal) V c 8 t : S1x64.Idx → EReal) = (V c main_arg8 : S1x64.Idx → EReal) := by
  have hi := (idx0 t).2.2.2.2.2.2.2.2.1
  funext x
  unfold iblk0
  rw [View.read_apply]
  show V c main_arg8 _ = V c main_arg8 _
  congr 1
  funext a
  apply Fin.ext
  match a with
  | ⟨0, _⟩ => show win0_8.index t (0 : Fin 2) * 1 + 1 * (x 0).val = (x 0).val; rw [hi.1]; omega
  | ⟨1, _⟩ => show win0_8.index t (1 : Fin 2) * 64 + 1 * (x 1).val = (x 1).val; rw [hi.2]; omega

/-- Window 9's block at every point is its whole array. -/
theorem iblk0_9_eq (c : Dev nD) (t : Fin cfg0.N) :
    (iblk0 (F := Ideal) V c 9 t : S1x1.Idx → EReal) = (V c main_v20 : S1x1.Idx → EReal) := by
  have hi := (idx0 t).2.2.2.2.2.2.2.2.2.1
  funext x
  unfold iblk0
  rw [View.read_apply]
  show V c main_v20 _ = V c main_v20 _
  congr 1
  funext a
  apply Fin.ext
  match a with
  | ⟨0, _⟩ => show win0_9.index t (0 : Fin 2) * 1 + 1 * (x 0).val = (x 0).val; rw [hi.1]; omega
  | ⟨1, _⟩ => show win0_9.index t (1 : Fin 2) * 1 + 1 * (x 1).val = (x 1).val; rw [hi.2]; omega

/-! ## The output blocks: membership, the cover, and where a local index lands -/

/-- An index of output window 10's array is in point `t`'s block iff each coordinate is in the block's range. -/
theorem mem_blk10 (t : Fin cfg0.N) (i : S800000x64.Idx) :
    i ∈ ((cfg0.win 10).blk t).view.set ↔ ∀ a : Fin 2, win0_10.index t a * S6400x64.size a ≤ (i a).val ∧ (i a).val < win0_10.index t a * S6400x64.size a + S6400x64.size a := by
  show i ∈ ((View.whole main_v25_0).slice (win0_10.rect t)).set ↔ _
  rw [View.set_slice_whole, Rect.mem_set_unit]
  exact Iff.rfl

/-- Every index of output window 10's array is in the block of the point its row falls in: row `r` is in block `r / 6400`. -/
theorem cover10 (i : S800000x64.Idx) :
    ∃ t : Fin cfg0.N, (cfg0.win 10).flush t = true ∧ i ∈ ((cfg0.win 10).blk t).view.set := by
  have hi0 : (i 0).val < 800000 := (i 0).isLt
  have hi1 : (i 1).val < 64 := (i 1).isLt
  have hN : grid0.N = 125 := N_0
  obtain ⟨t, htv⟩ : ∃ t : Fin cfg0.N, t.val = (i 0).val / 6400 :=
    ⟨⟨(i 0).val / 6400, by show _ < grid0.N; rw [hN]; omega⟩, rfl⟩
  have ht := (idx0 t).2.2.2.2.2.2.2.2.2.2.1
  refine ⟨t, flush0_10 t, ?_⟩
  rw [mem_blk10]
  intro a
  match a with
  | ⟨0, _⟩ =>
    show win0_10.index t (0 : Fin 2) * 6400 ≤ (i 0).val ∧ (i 0).val < win0_10.index t (0 : Fin 2) * 6400 + 6400
    rw [ht.1, htv]; omega
  | ⟨1, _⟩ =>
    show win0_10.index t (1 : Fin 2) * 64 ≤ (i 1).val ∧ (i 1).val < win0_10.index t (1 : Fin 2) * 64 + 64
    rw [ht.2]; omega

/-- Where point `t`'s block of output window 10 puts its local index `(p, q)`: row `6400·t + p`, column `q`. -/
theorem emb10 (t : Fin cfg0.N) (p : Fin 6400) (q : Fin 64) :
    ((((cfg0.win 10).blk t).view.emb (ix2 p q) : S800000x64.Idx) 0).val = 6400 * t.val + p.val
      ∧ ((((cfg0.win 10).blk t).view.emb (ix2 p q) : S800000x64.Idx) 1).val = q.val := by
  have ht := (idx0 t).2.2.2.2.2.2.2.2.2.2.1
  constructor
  · show win0_10.index t (0 : Fin 2) * 6400 + 1 * p.val = _; rw [ht.1]; omega
  · show win0_10.index t (1 : Fin 2) * 64 + 1 * q.val = _; rw [ht.2]; omega

/-- An index of output window 11's array is in point `t`'s block iff each coordinate is in the block's range. -/
theorem mem_blk11 (t : Fin cfg0.N) (i : S800000x1.Idx) :
    i ∈ ((cfg0.win 11).blk t).view.set ↔ ∀ a : Fin 2, win0_11.index t a * S6400x1.size a ≤ (i a).val ∧ (i a).val < win0_11.index t a * S6400x1.size a + S6400x1.size a := by
  show i ∈ ((View.whole main_v25_1).slice (win0_11.rect t)).set ↔ _
  rw [View.set_slice_whole, Rect.mem_set_unit]
  exact Iff.rfl

/-- Every index of output window 11's array is in the block of the point its row falls in: row `r` is in block `r / 6400`. -/
theorem cover11 (i : S800000x1.Idx) :
    ∃ t : Fin cfg0.N, (cfg0.win 11).flush t = true ∧ i ∈ ((cfg0.win 11).blk t).view.set := by
  have hi0 : (i 0).val < 800000 := (i 0).isLt
  have hi1 : (i 1).val < 1 := (i 1).isLt
  have hN : grid0.N = 125 := N_0
  obtain ⟨t, htv⟩ : ∃ t : Fin cfg0.N, t.val = (i 0).val / 6400 :=
    ⟨⟨(i 0).val / 6400, by show _ < grid0.N; rw [hN]; omega⟩, rfl⟩
  have ht := (idx0 t).2.2.2.2.2.2.2.2.2.2.2
  refine ⟨t, flush0_11 t, ?_⟩
  rw [mem_blk11]
  intro a
  match a with
  | ⟨0, _⟩ =>
    show win0_11.index t (0 : Fin 2) * 6400 ≤ (i 0).val ∧ (i 0).val < win0_11.index t (0 : Fin 2) * 6400 + 6400
    rw [ht.1, htv]; omega
  | ⟨1, _⟩ =>
    show win0_11.index t (1 : Fin 2) * 1 ≤ (i 1).val ∧ (i 1).val < win0_11.index t (1 : Fin 2) * 1 + 1
    rw [ht.2]; omega

/-- Where point `t`'s block of output window 11 puts its local index `(p, q)`: row `6400·t + p`, column `q`. -/
theorem emb11 (t : Fin cfg0.N) (p : Fin 6400) (q : Fin 1) :
    ((((cfg0.win 11).blk t).view.emb (ix2 p q) : S800000x1.Idx) 0).val = 6400 * t.val + p.val
      ∧ ((((cfg0.win 11).blk t).view.emb (ix2 p q) : S800000x1.Idx) 1).val = q.val := by
  have ht := (idx0 t).2.2.2.2.2.2.2.2.2.2.2
  constructor
  · show win0_11.index t (0 : Fin 2) * 6400 + 1 * p.val = _; rw [ht.1]; omega
  · show win0_11.index t (1 : Fin 2) * 1 + 1 * q.val = _; rw [ht.2]; omega

end Cert.KernelIdeal.EdgeValue

end
-- ==== Proof.EdgeBlockSum.lean ====
/-
  A matrix product's sum, re-indexed. A product of two rank-2 operands contracts one axis of each; its sum runs over the
  one-axis contraction shape of the dimension numbers. Here that sum is rewritten as a sum over `Fin K`, `K` the
  contracted extent, with each operand read at an index whose contracted coordinate is the summation variable and whose
  free coordinate is the result's row (left operand) or column (right operand). The statement is for any dimension
  numbers with no batch axis, one contracting and one free axis per operand; the caller names the operand indices and
  gives their coordinates.
-/
import Idealize.ShloMosaic.PureOps.Ideal
import Idealize.ShloMosaic.Lib.ValueIdx

namespace Cert.SumIdx

open Idealize.ShloMosaic Idealize.ShloMosaic.ValueIdx

variable {sl sr so : Shape} (d : DotDims sl sr so)

/-- With no batch axis and one free left axis `nl`, the left operand's index on `nl` is the result's coordinate 0. -/
theorem lhsIdx_val_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free left axis and one free right axis `nr`, the right operand's index on `nr` is the
    result's coordinate 1. -/
theorem rhsIdx_val_free {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- THE SUM OF A PRODUCT OF TWO MATRICES, over `Fin K`: for dimension numbers with no batch axis, contracting the left
    operand's axis `cl` with the right operand's axis `cr` (extent `K`), free axes `nl` and `nr`, the sum over the
    contraction shape of `L` at the left index times `R` at the right index is the sum over `i : Fin K` of `L (lix i) *
    R (rix i)`, for any indices `lix i`, `rix i` with coordinate `i` on the contracted axis and the result's row / column
    on the free axis. -/
theorem sum_contr_eq {M : Type} [AddCommMonoid M] (K : Nat) (hr : d.contr.rank = 1) (hs : d.contr.size ⟨0, by omega⟩ = K)
    {cl nl : Fin sl.rank} {cr nr : Fin sr.rank}
    (hlc : d.lhsContracting = [cl]) (hrc : d.rhsContracting = [cr]) (hlb : d.lhsBatch = []) (hrb : d.rhsBatch = [])
    (hln : d.lhsNonContracting = [nl]) (hrn : d.rhsNonContracting = [nr]) (h1 : 1 < so.rank)
    (j : so.Idx) (g : sl.Idx → sr.Idx → M) (lix : Fin K → sl.Idx) (rix : Fin K → sr.Idx)
    (hl_c : ∀ i, (lix i cl).val = i.val) (hl_n : ∀ i, (lix i nl).val = (j ⟨0, by omega⟩).val)
    (hr_c : ∀ i, (rix i cr).val = i.val) (hr_n : ∀ i, (rix i nr).val = (j ⟨1, h1⟩).val) :
    ∑ k : d.contr.Idx, g (d.lhsIdx j k) (d.rhsIdx j k) = ∑ i : Fin K, g (lix i) (rix i) := by
  rw [← Equiv.sum_comp (contrEquiv1 d K hr hs).symm]
  refine Finset.sum_congr rfl fun i _ => ?_
  have hk := contrEquiv1_symm_val d K hr hs i
  have el : d.lhsIdx j ((contrEquiv1 d K hr hs).symm i) = lix i := funext fun a => Fin.ext (by
    rcases d.mem_lhs a with h | h | h
    · rw [hlb] at h; exact absurd h List.not_mem_nil
    · rw [hln] at h; obtain rfl := List.mem_singleton.mp h
      exact (lhsIdx_val_free d hlb hln j _ (by omega)).trans (hl_n i).symm
    · rw [hlc] at h; obtain rfl := List.mem_singleton.mp h
      exact ((d.lhsIdx_val_of_single hlc j _).trans hk).trans (hl_c i).symm)
  have er : d.rhsIdx j ((contrEquiv1 d K hr hs).symm i) = rix i := funext fun a => Fin.ext (by
    rcases d.mem_rhs a with h | h | h
    · rw [hrb] at h; exact absurd h List.not_mem_nil
    · rw [hrn] at h; obtain rfl := List.mem_singleton.mp h
      exact (rhsIdx_val_free d hlb hrb hln hrn j _ h1).trans (hr_n i).symm
    · rw [hrc] at h; obtain rfl := List.mem_singleton.mp h
      exact ((d.rhsIdx_val_of_single hrc j _).trans hk).trans (hr_c i).symm)
  rw [el, er]

end Cert.SumIdx
-- ==== Proof.EdgeBlockPayload.lean ====
/-
  The edge kernel's block arithmetic read at a coordinate. A block holds 6400 edges. For the edge in block row `p`:
  the node message is (x_src − x_dst)·Wnᵀ + bn (a product with the transposed weight is a sum over the weight's second
  coordinate); the row [message | edge_attr | edge_f] has width 96 + 64 + 32; the edge feature is that row times Wecᵀ plus
  bec; the edge weight is relu(relu(feature)·Wwᵀ + bw). Narrowing to bf16 is the identity on extended reals, and a
  product into a zero accumulator is the plain sum. Each statement is over variables of the block types, at explicit
  coordinates, with the block's row type `Fin 6400` for the specification's row type.
-/
import proofs.«157719_j687194767630_1_alg».proof.Proof.Gen.KernelIdeal.Skeleton
import proofs.«157719_j687194767630_1_alg».proof.Proof.Spec
import proofs.«157719_j687194767630_1_alg».proof.Proof.EdgeBlockSum
import Idealize.ShloMosaic.Lib.ValueLayout
import Idealize.ShloMosaic.PureOps.Ideal.Laws

noncomputable section

namespace Cert.KernelIdeal.EdgeValue

open Cert.KernelIdeal Cert.KernelIdeal.Gen Cert.Spec Idealize.ShloMosaic Idealize.ShloMosaic.ValueIdx

/-! ## The three products, each as a sum over the contracted coordinate -/

/-- The product of a [6400,96] block with a [96,96] matrix into a zero accumulator, at row `p` and column `j`: the
    sum over the 96 contracted positions. -/
theorem mm_node {φ₁ φ₂ : FTy} (lhs : FVec Ideal S6400x96 φ₁) (rhs : FVec Ideal S96x96 φ₂) (p : Fin 6400) (j : Fin 96) :
    matmul dot_S6400x96_S96x96_S6400x96_1_0_0_1_n_n none lhs rhs (constant S6400x96 .f32 0x00000000#32) (ix2 p j)
      = ∑ k : Fin 96, lhs (ix2 p k) * rhs (ix2 k j) := by
  show FloatOps.matmul dot_S6400x96_S96x96_S6400x96_1_0_0_1_n_n none lhs rhs (constant S6400x96 .f32 0x00000000#32) (ix2 p j) = _
  rw [Ideal.matmul_constant_zero_apply]
  exact Cert.SumIdx.sum_contr_eq dot_S6400x96_S96x96_S6400x96_1_0_0_1_n_n 96 rfl rfl
    (cl := (1 : Fin S6400x96.rank)) (nl := (0 : Fin S6400x96.rank)) (cr := (0 : Fin S96x96.rank)) (nr := (1 : Fin S96x96.rank))
    rfl rfl rfl rfl rfl rfl (by decide) (ix2 p j) (fun a b => lhs a * rhs b) (fun i => ix2 p i) (fun i => ix2 i j)
    (fun _ => rfl) (fun _ => rfl) (fun _ => rfl) (fun _ => rfl)

/-- The product of a [6400,192] block with a [192,64] matrix into a zero accumulator, at row `p` and column `j`: the
    sum over the 192 contracted positions. -/
theorem mm_feat {φ₁ φ₂ : FTy} (lhs : FVec Ideal S6400x192 φ₁) (rhs : FVec Ideal S192x64 φ₂) (p : Fin 6400) (j : Fin 64) :
    matmul dot_S6400x192_S192x64_S6400x64_1_0_0_1_n_n none lhs rhs (constant S6400x64 .f32 0x00000000#32) (ix2 p j)
      = ∑ k : Fin 192, lhs (ix2 p k) * rhs (ix2 k j) := by
  show FloatOps.matmul dot_S6400x192_S192x64_S6400x64_1_0_0_1_n_n none lhs rhs (constant S6400x64 .f32 0x00000000#32) (ix2 p j) = _
  rw [Ideal.matmul_constant_zero_apply]
  exact Cert.SumIdx.sum_contr_eq dot_S6400x192_S192x64_S6400x64_1_0_0_1_n_n 192 rfl rfl
    (cl := (1 : Fin S6400x192.rank)) (nl := (0 : Fin S6400x192.rank)) (cr := (0 : Fin S192x64.rank)) (nr := (1 : Fin S192x64.rank))
    rfl rfl rfl rfl rfl rfl (by decide) (ix2 p j) (fun a b => lhs a * rhs b) (fun i => ix2 p i) (fun i => ix2 i j)
    (fun _ => rfl) (fun _ => rfl) (fun _ => rfl) (fun _ => rfl)

/-- The product of a [6400,64] block with a [64,1] matrix into a zero accumulator, at row `p` and column `j`: the
    sum over the 64 contracted positions. -/
theorem mm_wgt {φ₁ φ₂ : FTy} (lhs : FVec Ideal S6400x64 φ₁) (rhs : FVec Ideal S64x1 φ₂) (p : Fin 6400) (j : Fin 1) :
    matmul dot_S6400x64_S64x1_S6400x1_1_0_0_1_n_n none lhs rhs (constant S6400x1 .f32 0x00000000#32) (ix2 p j)
      = ∑ k : Fin 64, lhs (ix2 p k) * rhs (ix2 k j) := by
  show FloatOps.matmul dot_S6400x64_S64x1_S6400x1_1_0_0_1_n_n none lhs rhs (constant S6400x1 .f32 0x00000000#32) (ix2 p j) = _
  rw [Ideal.matmul_constant_zero_apply]
  exact Cert.SumIdx.sum_contr_eq dot_S6400x64_S64x1_S6400x1_1_0_0_1_n_n 64 rfl rfl
    (cl := (1 : Fin S6400x64.rank)) (nl := (0 : Fin S6400x64.rank)) (cr := (0 : Fin S64x1.rank)) (nr := (1 : Fin S64x1.rank))
    rfl rfl rfl rfl rfl rfl (by decide) (ix2 p j) (fun a b => lhs a * rhs b) (fun i => ix2 p i) (fun i => ix2 i j)
    (fun _ => rfl) (fun _ => rfl) (fun _ => rfl) (fun _ => rfl)

/-! ## The concatenated row -/

/-- The row [m | ea | ef] of widths 96, 64, 32 read at column `q`: the piece whose span holds `q`, at `q` less the
    widths before it. -/
theorem cat3_apply (m : S6400x96.Idx → EReal) (ea : S6400x64.Idx → EReal) (ef : S6400x32.Idx → EReal)
    (h : Shape.Concatenates (([⟨S6400x96, m⟩, ⟨S6400x64, ea⟩, ⟨S6400x32, ef⟩] : List ((s : Shape) × (s.Idx → EReal))).map (·.1)) S6400x192 1)
    (p : Fin 6400) (q : Fin 192) :
    concatenate S6400x192 1 [⟨S6400x96, m⟩, ⟨S6400x64, ea⟩, ⟨S6400x32, ef⟩] h (ix2 p q)
      = cat (fun e j => m (ix2 e j)) (fun e j => ea (ix2 e j)) (fun e j => ef (ix2 e j)) p q := by
  have hq : q.val < 192 := q.isLt
  unfold cat
  split
  · next h1 =>
    exact concatenate_apply_piece (1 : Fin S6400x192.rank) _ h (ix2 p q) 0 (by simp) S6400x96 m rfl rfl 0 rfl
      (ix2 p ⟨q.val, h1⟩)
      (fun b hb => by
        match b with
        | ⟨0, _⟩ => rfl
        | ⟨1, _⟩ => exact absurd rfl hb)
      (by show 0 + q.val = q.val; omega)
  · next h1 =>
    split
    · next h2 =>
      exact concatenate_apply_piece (1 : Fin S6400x192.rank) _ h (ix2 p q) 1 (by simp) S6400x64 ea rfl rfl 96 rfl
        (ix2 p ⟨q.val - 96, by omega⟩)
        (fun b hb => by
          match b with
          | ⟨0, _⟩ => rfl
          | ⟨1, _⟩ => exact absurd rfl hb)
        (by show 96 + (q.val - 96) = q.val; omega)
    · next h2 =>
      exact concatenate_apply_piece (1 : Fin S6400x192.rank) _ h (ix2 p q) 2 (by simp) S6400x32 ef rfl rfl 160 rfl
        (ix2 p ⟨q.val - 160, by omega⟩)
        (fun b hb => by
          match b with
          | ⟨0, _⟩ => rfl
          | ⟨1, _⟩ => exact absurd rfl hb)
        (by show 160 + (q.val - 160) = q.val; omega)

/-! ## The payloads at a coordinate -/

/-- The node message of block row `p` at column `j`. -/
theorem node_apply (x0 x1 : FVec Ideal S6400x96 .f32) (wn : FVec Ideal S96x96 .f32) (bn : FVec Ideal S1x96 .f32)
    (h1 : FTy.bf16.bits < FTy.f32.bits) (h2 : FTy.bf16.bits < FTy.f32.bits) (h3 : S96x96.Transposes [1, 0] S96x96) (h4 : S1x96.Broadcasts S6400x96) (p : Fin 6400) (j : Fin 96) :
    addf (F := Ideal) (matmul (F := Ideal) dot_S6400x96_S96x96_S6400x96_1_0_0_1_n_n none (truncf (F := Ideal) (φ := .f32) .bf16 (subf (F := Ideal) (φ := .f32) x0 x1) h1)
        (transpose S96x96 [1, 0] (truncf (F := Ideal) (φ := .f32) .bf16 wn h2) h3) (constant (F := Ideal) S6400x96 .f32 0x00000000#32))
      (broadcastTo S6400x96 bn h4) (ix2 p j)
      = msg (rd2 x0) (rd2 x1) (rd2 wn) (fun j => rd2 bn 0 j) p j := by
  rw [addf_apply, mm_node, broadcastTo_1b_ab_apply]
  unfold msg
  refine congrArg₂ (· + ·) (Finset.sum_congr rfl fun k _ => ?_) rfl
  rw [transpose_ix2_apply]
  rfl

end Cert.KernelIdeal.EdgeValue

end
-- ==== Proof.EdgeBlockPay.lean ====
/-
  The edge kernel's two stored blocks read at a coordinate: the edge feature block is the specification's `feat` of
  the loaded blocks, the edge weight block its `wgt`, with the block's row type `Fin 6400` for the row type.
-/
import proofs.«157719_j687194767630_1_alg».proof.Proof.EdgeBlockPayload

noncomputable section

namespace Cert.KernelIdeal.EdgeValue

open Cert.KernelIdeal Cert.KernelIdeal.Gen Cert.Spec Idealize.ShloMosaic Idealize.ShloMosaic.ValueIdx

/-- THE EDGE FEATURE BLOCK at row `p`, column `o`: the specification's `feat` of the blocks. -/
theorem pay2_apply (x0 x1 : Vec Ideal S6400x96 .f32) (wn : Vec Ideal S96x96 .f32) (bn : Vec Ideal S1x96 .f32)
    (ea : Vec Ideal S6400x64 .f32) (ef : Vec Ideal S6400x32 .f32) (wec : Vec Ideal S64x192 .f32) (bec : Vec Ideal S1x64 .f32)
    (p : Fin 6400) (o : Fin 64) :
    k0_pay2 (F := Ideal) x0 x1 wn bn ea ef wec bec (ix2 p o)
      = feat (cat (msg (rd2 x0) (rd2 x1) (rd2 wn) (fun j => rd2 bn 0 j)) (rd2 ea) (rd2 ef)) (rd2 wec) (fun o' => rd2 bec 0 o') p o := by
  unfold k0_pay2
  dsimp only
  rw [shapeCast_self x0, shapeCast_self x1, shapeCast_self bn, shapeCast_self bec, addf_apply, mm_feat,
    broadcastTo_1b_ab_apply]
  unfold feat
  refine congrArg₂ (· + ·) (Finset.sum_congr rfl fun k _ => ?_) rfl
  rw [transpose_ix2_apply, truncf_apply, truncf_apply, cat3_apply]
  refine congrArg₂ (· * ·) ?_ rfl
  refine congrArg (fun f => cat f (rd2 ea) (rd2 ef) p k) ?_
  funext e j
  exact node_apply x0 x1 wn bn _ _ _ _ e j

/-- THE EDGE WEIGHT BLOCK at row `p`: the specification's `wgt` of the feature block. -/
theorem pay1_apply (x0 x1 : Vec Ideal S6400x96 .f32) (wn : Vec Ideal S96x96 .f32) (bn : Vec Ideal S1x96 .f32)
    (ea : Vec Ideal S6400x64 .f32) (ef : Vec Ideal S6400x32 .f32) (wec : Vec Ideal S64x192 .f32) (bec : Vec Ideal S1x64 .f32)
    (ww : Vec Ideal S1x64 .f32) (bw : Vec Ideal S1x1 .f32) (p : Fin 6400) :
    k0_pay1 (F := Ideal) (k0_pay3 x0 x1 wn bn ea ef wec bec ww) (k0_pay4 bw) (ix2 p 0)
      = wgt (feat (cat (msg (rd2 x0) (rd2 x1) (rd2 wn) (fun j => rd2 bn 0 j)) (rd2 ea) (rd2 ef)) (rd2 wec) (fun o' => rd2 bec 0 o'))
          (fun o' => rd2 ww 0 o') (rd2 bw 0 0) p := by
  unfold k0_pay1 k0_pay3 k0_pay4
  dsimp only
  rw [shapeCast_self bw, maximumf_apply, addf_apply, mm_wgt, broadcastTo_1b_ab_apply, broadcast_apply]
  unfold wgt
  have hz : (Scalar.ofBits .f32 0x00000000#32 : Ideal .f32) = 0 := Ideal.ofBits_zero_f32
  rw [hz]
  refine congrArg (fun z => max z 0) (congrArg₂ (· + ·) (Finset.sum_congr rfl fun k _ => ?_) rfl)
  rw [transpose_ix2_apply, truncf_apply, truncf_apply, maximumf_apply, broadcast_apply, pay2_apply]

end Cert.KernelIdeal.EdgeValue

end
-- ==== Proof.EdgeBlockArr.lean ====
/-
  From a block to the whole array. The edge feature and the edge weight of an edge depend on the edge arrays only
  through that edge's own row: the node message of edge `e` reads rows `e` of x_src and x_dst, the concatenated row
  reads rows `e` of the message, edge_attr and edge_f, the feature reads row `e` of that, the weight row `e` of the
  feature. So when a block's row `p` is the arrays' row `e` (and the weight blocks are the whole weights), the block's
  payload at `(p, q)` is the whole-array function at `(e, q)`.
-/
import proofs.«157719_j687194767630_1_alg».proof.Proof.EdgeBlockPay

noncomputable section

namespace Cert.KernelIdeal.EdgeValue

open Cert.KernelIdeal Cert.KernelIdeal.Gen Cert.Spec Idealize.ShloMosaic Idealize.ShloMosaic.ValueIdx

/-! ## Row locality of the specification -/

/-- The edge feature of row `e` is the same over any other arrays whose row `e'` equals this row. -/
theorem feat_row {ι κ : Type} (xs xd : ι → Fin 96 → EReal) (ea : ι → Fin 64 → EReal) (ef : ι → Fin 32 → EReal)
    (xs' xd' : κ → Fin 96 → EReal) (ea' : κ → Fin 64 → EReal) (ef' : κ → Fin 32 → EReal)
    (Wn : Fin 96 → Fin 96 → EReal) (bn : Fin 96 → EReal) (Wec : Fin 64 → Fin 192 → EReal) (bec : Fin 64 → EReal)
    (e : ι) (e' : κ) (h0 : xs e = xs' e') (h1 : xd e = xd' e') (h2 : ea e = ea' e') (h3 : ef e = ef' e') (o : Fin 64) :
    feat (cat (msg xs xd Wn bn) ea ef) Wec bec e o = feat (cat (msg xs' xd' Wn bn) ea' ef') Wec bec e' o := by
  unfold feat cat msg
  rw [h0, h1, h2, h3]

/-- The edge weight of row `e` is the same over any other feature array whose row `e'` equals this row. -/
theorem wgt_row {ι κ : Type} (f : ι → Fin 64 → EReal) (f' : κ → Fin 64 → EReal) (Ww : Fin 64 → EReal) (bw : EReal)
    (e : ι) (e' : κ) (h : f e = f' e') : wgt f Ww bw e = wgt f' Ww bw e' := by
  unfold wgt
  rw [h]

/-! ## The two results as functions of the whole arrays -/

/-- The edge features [800000, 64] from the whole arrays. -/
def featG (X0 X1 : S800000x96.Idx → EReal) (Wn : S96x96.Idx → EReal) (Bn : S1x96.Idx → EReal)
    (EA : S800000x64.Idx → EReal) (EF : S800000x32.Idx → EReal) (Wec : S64x192.Idx → EReal) (Bec : S1x64.Idx → EReal) :
    S800000x64.Idx → EReal := fun i =>
  feat (cat (msg (rd2 X0) (rd2 X1) (rd2 Wn) (fun j => rd2 Bn 0 j)) (rd2 EA) (rd2 EF)) (rd2 Wec) (fun o' => rd2 Bec 0 o') (i 0) (i 1)

/-- The edge weights [800000, 1] from the whole arrays. -/
def wgtG (X0 X1 : S800000x96.Idx → EReal) (Wn : S96x96.Idx → EReal) (Bn : S1x96.Idx → EReal)
    (EA : S800000x64.Idx → EReal) (EF : S800000x32.Idx → EReal) (Wec : S64x192.Idx → EReal) (Bec : S1x64.Idx → EReal)
    (Ww : S1x64.Idx → EReal) (Bw : S1x1.Idx → EReal) : S800000x1.Idx → EReal := fun i =>
  wgt (feat (cat (msg (rd2 X0) (rd2 X1) (rd2 Wn) (fun j => rd2 Bn 0 j)) (rd2 EA) (rd2 EF)) (rd2 Wec) (fun o' => rd2 Bec 0 o'))
    (fun o' => rd2 Ww 0 o') (rd2 Bw 0 0) (i 0)

/-! ## A block's payload is the whole-array function at the block's place -/

/-- The feature block of the point whose rows start at `6400·tv`, at `(p, q)`, is `featG` at any index with row
    `6400·tv + p` and column `q`. -/
theorem feat_block (X0 X1 : S800000x96.Idx → EReal) (Wn : S96x96.Idx → EReal) (Bn : S1x96.Idx → EReal)
    (EA : S800000x64.Idx → EReal) (EF : S800000x32.Idx → EReal) (Wec : S64x192.Idx → EReal) (Bec : S1x64.Idx → EReal)
    (x0 x1 : Vec Ideal S6400x96 .f32) (wn : Vec Ideal S96x96 .f32) (bn : Vec Ideal S1x96 .f32)
    (ea : Vec Ideal S6400x64 .f32) (ef : Vec Ideal S6400x32 .f32) (wec : Vec Ideal S64x192 .f32) (bec : Vec Ideal S1x64 .f32)
    (tv : Nat)
    (h0 : ∀ (p : Fin 6400) (k : Fin 96) (e : Fin 800000), e.val = 6400 * tv + p.val → x0 (ix2 p k) = X0 (ix2 e k))
    (h1 : ∀ (p : Fin 6400) (k : Fin 96) (e : Fin 800000), e.val = 6400 * tv + p.val → x1 (ix2 p k) = X1 (ix2 e k))
    (h2 : ∀ (p : Fin 6400) (k : Fin 64) (e : Fin 800000), e.val = 6400 * tv + p.val → ea (ix2 p k) = EA (ix2 e k))
    (h3 : ∀ (p : Fin 6400) (k : Fin 32) (e : Fin 800000), e.val = 6400 * tv + p.val → ef (ix2 p k) = EF (ix2 e k))
    (h4 : wn = Wn) (h5 : bn = Bn) (h6 : wec = Wec) (h7 : bec = Bec)
    (p : Fin 6400) (q : Fin 64) (i : S800000x64.Idx) (hi0 : (i 0).val = 6400 * tv + p.val) (hi1 : (i 1).val = q.val) :
    k0_pay2 (F := Ideal) x0 x1 wn bn ea ef wec bec (ix2 p q) = featG X0 X1 Wn Bn EA EF Wec Bec i := by
  subst h4 h5 h6 h7
  rw [pay2_apply]
  unfold featG
  have hq : (i 1 : Fin 64) = q := Fin.ext hi1
  rw [hq]
  exact feat_row _ _ _ _ _ _ _ _ _ _ _ _ p (i 0 : Fin 800000)
    (funext fun k => h0 p k (i 0) hi0) (funext fun k => h1 p k (i 0) hi0)
    (funext fun k => h2 p k (i 0) hi0) (funext fun k => h3 p k (i 0) hi0) q

/-- The weight block of that point, at `(p, q)` (`q` the one column), is `wgtG` at any index with row `6400·tv + p`. -/
theorem wgt_block (X0 X1 : S800000x96.Idx → EReal) (Wn : S96x96.Idx → EReal) (Bn : S1x96.Idx → EReal)
    (EA : S800000x64.Idx → EReal) (EF : S800000x32.Idx → EReal) (Wec : S64x192.Idx → EReal) (Bec : S1x64.Idx → EReal)
    (Ww : S1x64.Idx → EReal) (Bw : S1x1.Idx → EReal)
    (x0 x1 : Vec Ideal S6400x96 .f32) (wn : Vec Ideal S96x96 .f32) (bn : Vec Ideal S1x96 .f32)
    (ea : Vec Ideal S6400x64 .f32) (ef : Vec Ideal S6400x32 .f32) (wec : Vec Ideal S64x192 .f32) (bec : Vec Ideal S1x64 .f32)
    (ww : Vec Ideal S1x64 .f32) (bw : Vec Ideal S1x1 .f32)
    (tv : Nat)
    (h0 : ∀ (p : Fin 6400) (k : Fin 96) (e : Fin 800000), e.val = 6400 * tv + p.val → x0 (ix2 p k) = X0 (ix2 e k))
    (h1 : ∀ (p : Fin 6400) (k : Fin 96) (e : Fin 800000), e.val = 6400 * tv + p.val → x1 (ix2 p k) = X1 (ix2 e k))
    (h2 : ∀ (p : Fin 6400) (k : Fin 64) (e : Fin 800000), e.val = 6400 * tv + p.val → ea (ix2 p k) = EA (ix2 e k))
    (h3 : ∀ (p : Fin 6400) (k : Fin 32) (e : Fin 800000), e.val = 6400 * tv + p.val → ef (ix2 p k) = EF (ix2 e k))
    (h4 : wn = Wn) (h5 : bn = Bn) (h6 : wec = Wec) (h7 : bec = Bec) (h8 : ww = Ww) (h9 : bw = Bw)
    (p : Fin 6400) (q : Fin 1) (i : S800000x1.Idx) (hi0 : (i 0).val = 6400 * tv + p.val) :
    k0_pay1 (F := Ideal) (k0_pay3 x0 x1 wn bn ea ef wec bec ww) (k0_pay4 bw) (ix2 p q) = wgtG X0 X1 Wn Bn EA EF Wec Bec Ww Bw i := by
  subst h4 h5 h6 h7 h8 h9
  obtain rfl : q = 0 := Subsingleton.elim _ _
  rw [pay1_apply]
  unfold wgtG
  refine wgt_row _ _ _ _ p (i 0 : Fin 800000) (funext fun o => ?_)
  exact feat_row _ _ _ _ _ _ _ _ _ _ _ _ p (i 0 : Fin 800000)
    (funext fun k => h0 p k (i 0) hi0) (funext fun k => h1 p k (i 0) hi0)
    (funext fun k => h2 p k (i 0) hi0) (funext fun k => h3 p k (i 0) hi0) o

end Cert.KernelIdeal.EdgeValue

end
-- ==== Proof.EdgeBlock.lean ====
/-
  The value of the edge kernel's region, for any contents `V` of the arrays at its entry. At grid point `t` the body
  stores, into the two output blocks, the edge feature and the edge weight of the 6400 edges of rows `6400·t …`; by row
  locality each stored block is the block of ONE whole-array function (the specification's `feat`, resp. `wgt`, of the
  arrays at entry); the 125 blocks cover the 800000 rows; so after the region the two output arrays hold those functions.
-/
import proofs.«157719_j687194767630_1_alg».proof.Proof.EdgeBlockWin
import proofs.«157719_j687194767630_1_alg».proof.Proof.EdgeBlockArr

noncomputable section

namespace Cert.KernelIdeal.EdgeValue

open Cert.KernelIdeal Cert.KernelIdeal.Gen Cert.Spec Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- WHAT POINT `t` WRITES BACK to the edge-feature array is block `t` of `featG` of the arrays at entry. -/
theorem feat_flushed (c : Dev nD) (t : Fin cfg0.N) :
    (dat0 (F := Ideal) V c).flushed 10 t = ((cfg0.win 10).blk t).view.read (Elt Ideal)
      (featG (V c main_v10 : S800000x96.Idx → EReal) (V c main_v17 : S800000x96.Idx → EReal) (V c main_arg4 : S96x96.Idx → EReal) (V c main_v18 : S1x96.Idx → EReal)
        (V c main_arg3 : S800000x64.Idx → EReal) (V c main_arg2 : S800000x32.Idx → EReal) (V c main_arg6 : S64x192.Idx → EReal) (V c main_v19 : S1x64.Idx → EReal)) := by
  show (cfg0.win 10).cut (grid0.coords t) ((dat0 (F := Ideal) V c).after 10 t) = _
  rw [after0_10]
  unfold out0_10
  rw [View.canon_unit_zero hz]
  simp only [View.ld_unit_zero (S := S6400x96) hz, View.ld_unit_zero (S := S96x96) hz, View.ld_unit_zero (S := S1x96) hz, View.ld_unit_zero (S := S6400x64) hz, View.ld_unit_zero (S := S6400x32) hz, View.ld_unit_zero (S := S64x192) hz, View.ld_unit_zero (S := S1x64) hz, View.ld_unit_zero (S := S1x1) hz]
  funext y
  obtain ⟨p, q, rfl⟩ : ∃ (p : Fin 6400) (q : Fin 64), y = ix2 p q := ⟨y 0, y 1, eq_ix2 y⟩
  show k0_pay2 (F := Ideal) (iblk0 V c 0 t) (iblk0 V c 1 t) (iblk0 V c 4 t) (iblk0 V c 5 t) (iblk0 V c 3 t) (iblk0 V c 2 t) (iblk0 V c 6 t) (iblk0 V c 7 t) (ix2 p q)
    = featG (V c main_v10 : S800000x96.Idx → EReal) (V c main_v17 : S800000x96.Idx → EReal) (V c main_arg4 : S96x96.Idx → EReal) (V c main_v18 : S1x96.Idx → EReal)
        (V c main_arg3 : S800000x64.Idx → EReal) (V c main_arg2 : S800000x32.Idx → EReal) (V c main_arg6 : S64x192.Idx → EReal) (V c main_v19 : S1x64.Idx → EReal) (((cfg0.win 10).blk t).view.emb (ix2 p q))
  exact feat_block _ _ _ _ _ _ _ _ (iblk0 V c 0 t) (iblk0 V c 1 t) (iblk0 V c 4 t) (iblk0 V c 5 t) (iblk0 V c 3 t) (iblk0 V c 2 t) (iblk0 V c 6 t) (iblk0 V c 7 t) t.val
      (fun p k e he => iblk0_0_apply V c t (ix2 p k) (ix2 e k) he rfl)
      (fun p k e he => iblk0_1_apply V c t (ix2 p k) (ix2 e k) he rfl)
      (fun p k e he => iblk0_3_apply V c t (ix2 p k) (ix2 e k) he rfl)
      (fun p k e he => iblk0_2_apply V c t (ix2 p k) (ix2 e k) he rfl)
      (iblk0_4_eq V c t) (iblk0_5_eq V c t) (iblk0_6_eq V c t) (iblk0_7_eq V c t)
      p q _ (emb10 t p q).1 (emb10 t p q).2

/-- WHAT POINT `t` WRITES BACK to the edge-weight array is block `t` of `wgtG` of the arrays at entry. -/
theorem wgt_flushed (c : Dev nD) (t : Fin cfg0.N) :
    (dat0 (F := Ideal) V c).flushed 11 t = ((cfg0.win 11).blk t).view.read (Elt Ideal)
      (wgtG (V c main_v10 : S800000x96.Idx → EReal) (V c main_v17 : S800000x96.Idx → EReal) (V c main_arg4 : S96x96.Idx → EReal) (V c main_v18 : S1x96.Idx → EReal)
        (V c main_arg3 : S800000x64.Idx → EReal) (V c main_arg2 : S800000x32.Idx → EReal) (V c main_arg6 : S64x192.Idx → EReal) (V c main_v19 : S1x64.Idx → EReal) (V c main_arg8 : S1x64.Idx → EReal) (V c main_v20 : S1x1.Idx → EReal)) := by
  show (cfg0.win 11).cut (grid0.coords t) ((dat0 (F := Ideal) V c).after 11 t) = _
  rw [after0_11]
  unfold out0_11
  rw [View.canon_unit_zero hz]
  simp only [View.ld_unit_zero (S := S6400x96) hz, View.ld_unit_zero (S := S96x96) hz, View.ld_unit_zero (S := S1x96) hz, View.ld_unit_zero (S := S6400x64) hz, View.ld_unit_zero (S := S6400x32) hz, View.ld_unit_zero (S := S64x192) hz, View.ld_unit_zero (S := S1x64) hz, View.ld_unit_zero (S := S1x1) hz]
  funext y
  obtain ⟨p, q, rfl⟩ : ∃ (p : Fin 6400) (q : Fin 1), y = ix2 p q := ⟨y 0, y 1, eq_ix2 y⟩
  show k0_pay1 (F := Ideal) (k0_pay3 (iblk0 V c 0 t) (iblk0 V c 1 t) (iblk0 V c 4 t) (iblk0 V c 5 t) (iblk0 V c 3 t) (iblk0 V c 2 t) (iblk0 V c 6 t) (iblk0 V c 7 t) (iblk0 V c 8 t)) (k0_pay4 (iblk0 V c 9 t)) (ix2 p q)
    = wgtG (V c main_v10 : S800000x96.Idx → EReal) (V c main_v17 : S800000x96.Idx → EReal) (V c main_arg4 : S96x96.Idx → EReal) (V c main_v18 : S1x96.Idx → EReal)
        (V c main_arg3 : S800000x64.Idx → EReal) (V c main_arg2 : S800000x32.Idx → EReal) (V c main_arg6 : S64x192.Idx → EReal) (V c main_v19 : S1x64.Idx → EReal) (V c main_arg8 : S1x64.Idx → EReal) (V c main_v20 : S1x1.Idx → EReal) (((cfg0.win 11).blk t).view.emb (ix2 p q))
  exact wgt_block _ _ _ _ _ _ _ _ _ _ (iblk0 V c 0 t) (iblk0 V c 1 t) (iblk0 V c 4 t) (iblk0 V c 5 t) (iblk0 V c 3 t) (iblk0 V c 2 t) (iblk0 V c 6 t) (iblk0 V c 7 t) (iblk0 V c 8 t) (iblk0 V c 9 t) t.val
      (fun p k e he => iblk0_0_apply V c t (ix2 p k) (ix2 e k) he rfl)
      (fun p k e he => iblk0_1_apply V c t (ix2 p k) (ix2 e k) he rfl)
      (fun p k e he => iblk0_3_apply V c t (ix2 p k) (ix2 e k) he rfl)
      (fun p k e he => iblk0_2_apply V c t (ix2 p k) (ix2 e k) he rfl)
      (iblk0_4_eq V c t) (iblk0_5_eq V c t) (iblk0_6_eq V c t) (iblk0_7_eq V c t) (iblk0_8_eq V c t) (iblk0_9_eq V c t)
      p q _ (emb11 t p q).1

/-- THE EDGE-FEATURE ARRAY after the region. -/
theorem feat_final (c : Dev nD) : (dat0 (F := Ideal) V c).arrAt 10 cfg0.N
      = featG (V c main_v10 : S800000x96.Idx → EReal) (V c main_v17 : S800000x96.Idx → EReal) (V c main_arg4 : S96x96.Idx → EReal) (V c main_v18 : S1x96.Idx → EReal)
        (V c main_arg3 : S800000x64.Idx → EReal) (V c main_arg2 : S800000x32.Idx → EReal) (V c main_arg6 : S64x192.Idx → EReal) (V c main_v19 : S1x64.Idx → EReal) :=
  (dat0 (F := Ideal) V c).arrAt_eq_of_cover 10 _ (fun t _ => feat_flushed V c t) cover10

/-- THE EDGE-WEIGHT ARRAY after the region. -/
theorem wgt_final (c : Dev nD) : (dat0 (F := Ideal) V c).arrAt 11 cfg0.N
      = wgtG (V c main_v10 : S800000x96.Idx → EReal) (V c main_v17 : S800000x96.Idx → EReal) (V c main_arg4 : S96x96.Idx → EReal) (V c main_v18 : S1x96.Idx → EReal)
        (V c main_arg3 : S800000x64.Idx → EReal) (V c main_arg2 : S800000x32.Idx → EReal) (V c main_arg6 : S64x192.Idx → EReal) (V c main_v19 : S1x64.Idx → EReal) (V c main_arg8 : S1x64.Idx → EReal) (V c main_v20 : S1x1.Idx → EReal) :=
  (dat0 (F := Ideal) V c).arrAt_eq_of_cover 11 _ (fun t _ => wgt_flushed V c t) cover11

/-- The edge feature of edge `e`, column `o`, after the region: the specification's `feat` of the arrays at entry. -/
theorem feat_value (c : Dev nD) (e : Fin 800000) (o : Fin 64) :
    (dat0 (F := Ideal) V c).arrAt 10 cfg0.N (ix2 e o)
      = feat (cat (msg (rd2 (V c main_v10 : S800000x96.Idx → EReal)) (rd2 (V c main_v17 : S800000x96.Idx → EReal)) (rd2 (V c main_arg4 : S96x96.Idx → EReal)) (fun j => rd2 (V c main_v18 : S1x96.Idx → EReal) 0 j))
                  (rd2 (V c main_arg3 : S800000x64.Idx → EReal)) (rd2 (V c main_arg2 : S800000x32.Idx → EReal)))
             (rd2 (V c main_arg6 : S64x192.Idx → EReal)) (fun o' => rd2 (V c main_v19 : S1x64.Idx → EReal) 0 o') e o :=
  congrFun (feat_final V c) (ix2 e o)

/-- The edge weight of edge `e` after the region: the specification's `wgt` of that feature. -/
theorem wgt_value (c : Dev nD) (e : Fin 800000) :
    (dat0 (F := Ideal) V c).arrAt 11 cfg0.N (ix2 e 0)
      = wgt (feat (cat (msg (rd2 (V c main_v10 : S800000x96.Idx → EReal)) (rd2 (V c main_v17 : S800000x96.Idx → EReal)) (rd2 (V c main_arg4 : S96x96.Idx → EReal)) (fun j => rd2 (V c main_v18 : S1x96.Idx → EReal) 0 j))
                  (rd2 (V c main_arg3 : S800000x64.Idx → EReal)) (rd2 (V c main_arg2 : S800000x32.Idx → EReal)))
             (rd2 (V c main_arg6 : S64x192.Idx → EReal)) (fun o' => rd2 (V c main_v19 : S1x64.Idx → EReal) 0 o'))
            (fun o' => rd2 (V c main_arg8 : S1x64.Idx → EReal) 0 o') (rd2 (V c main_v20 : S1x1.Idx → EReal) 0 0) e :=
  congrFun (wgt_final V c) (ix2 e 0)

end Cert.KernelIdeal.EdgeValue

end
-- ==== Proof.NodeBlocksXw.lean ====
/-
  The value of the node projection stage, read off the blockwise run for any entry contents.

  The stage walks the 50000 node rows in ten blocks of 5000; every block sees the whole 96 × 96 weight. It
  multiplies the block of feature rows by the transposed weight into a zero accumulator, so entry (p, q) of what
  it writes is the sum over the 96 features k of x[p, k]·Wg[q, k]: the rounding to a narrower float format on the
  way into the product is the identity at the exact values, and a product accumulated from zero is the bare sum.
  Block row p of block t is array row 5000·t + p, so all ten blocks are restrictions of one function of the array
  index, and since the blocks tile the array (row r lies in block r / 5000) the array ends holding that function.
-/
import proofs.«157719_j687194767630_1_alg».proof.Proof.Spec
import proofs.«157719_j687194767630_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.NodeValue

open Cert.KernelIdeal Cert.KernelIdeal.Gen Cert.Spec Idealize.ShloMosaic Idealize.ShloMosaic.ValueIdx
open Idealize.ShloMosaic.TcCoe Idealize.SL.Sem
open Idealize.ShloMosaic.Pipeline (Dat)

theorem hz1 : (![0, 0] : Fin 2 → Nat) = fun _ => 0 := funext fun a => by fin_cases a <;> rfl

/-- The left operand's row coordinate under the product's dimension numbers is the output's row. -/
theorem lhs_row (i : S5000x96.Idx) (k : dot_S5000x96_S96x96_S5000x96_1_0_0_1_n_n.contr.Idx) :
    (dot_S5000x96_S96x96_S5000x96_1_0_0_1_n_n.lhsIdx i k 0).val = (i 0).val := by
  unfold DotDims.lhsIdx
  rw [dif_neg (show ¬(0 : Fin S5000x96.rank) ∈ dot_S5000x96_S96x96_S5000x96_1_0_0_1_n_n.lhsBatch by decide),
    dif_pos (show (0 : Fin S5000x96.rank) ∈ dot_S5000x96_S96x96_S5000x96_1_0_0_1_n_n.lhsNonContracting by decide)]
  rfl

/-- The left operand's column coordinate is the contraction index. -/
theorem lhs_col (i : S5000x96.Idx) (k : dot_S5000x96_S96x96_S5000x96_1_0_0_1_n_n.contr.Idx) :
    (dot_S5000x96_S96x96_S5000x96_1_0_0_1_n_n.lhsIdx i k 1).val = (k ⟨0, by decide⟩).val :=
  dot_S5000x96_S96x96_S5000x96_1_0_0_1_n_n.lhsIdx_val_of_single rfl i k

/-- The right operand's row coordinate is the contraction index. -/
theorem rhs_row (i : S5000x96.Idx) (k : dot_S5000x96_S96x96_S5000x96_1_0_0_1_n_n.contr.Idx) :
    (dot_S5000x96_S96x96_S5000x96_1_0_0_1_n_n.rhsIdx i k 0).val = (k ⟨0, by decide⟩).val :=
  dot_S5000x96_S96x96_S5000x96_1_0_0_1_n_n.rhsIdx_val_of_single rfl i k

/-- The right operand's column coordinate is the output's column. -/
theorem rhs_col (i : S5000x96.Idx) (k : dot_S5000x96_S96x96_S5000x96_1_0_0_1_n_n.contr.Idx) :
    (dot_S5000x96_S96x96_S5000x96_1_0_0_1_n_n.rhsIdx i k 1).val = (i 1).val := by
  unfold DotDims.rhsIdx
  rw [dif_neg (show ¬(1 : Fin S96x96.rank) ∈ dot_S5000x96_S96x96_S5000x96_1_0_0_1_n_n.rhsBatch by decide),
    dif_pos (show (1 : Fin S96x96.rank) ∈ dot_S5000x96_S96x96_S5000x96_1_0_0_1_n_n.rhsNonContracting by decide)]
  rfl

/-- The transposed weight read at (k, q) is the weight at (q, k). -/
theorem transpose96_apply {α : Type} (x : S96x96.Idx → α) (h : S96x96.Transposes [1, 0] S96x96) (k q : Fin 96) :
    transpose S96x96 [1, 0] x h (ix2 k q) = x (ix2 q k) :=
  transpose_apply [1, 0] x h (ix2 k q) (ix2 q k) (fun b => by
    match b with
    | ⟨0, _⟩ => rfl
    | ⟨1, _⟩ => rfl)

/-- The body's arithmetic at row `p`, column `q` of a block: the product of the block's row `p` with the
    transposed weight, accumulated from zero, is the sum over the 96 features of the row's entry times the
    weight's entry at (q, k). The float format changes are the identity. -/
theorem pay1_apply (v0 : Vec Ideal S5000x96 .f32) (v2 : Vec Ideal S96x96 .f32) (p : Fin 5000) (q : Fin 96) :
    k1_pay1 (F := Ideal) v0 v2 (ix2 p q) = ∑ k : Fin 96, v0 (ix2 p k) * v2 (ix2 q k) := by
  unfold k1_pay1
  simp only [matmul]
  rw [Ideal.matmul_constant_zero_apply,
    ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q)
      ((contrEquiv1 dot_S5000x96_S96x96_S5000x96_1_0_0_1_n_n 96 rfl rfl).symm k) = (ix2 p k : S5000x96.Idx) :=
    funext fun a => Fin.ext (by
      match a with
      | ⟨0, _⟩ => exact lhs_row _ _
      | ⟨1, _⟩ => exact (lhs_col _ _).trans hk)
  have er : dot_S5000x96_S96x96_S5000x96_1_0_0_1_n_n.rhsIdx (ix2 p q)
      ((contrEquiv1 dot_S5000x96_S96x96_S5000x96_1_0_0_1_n_n 96 rfl rfl).symm k) = (ix2 k q : S96x96.Idx) :=
    funext fun a => Fin.ext (by
      match a with
      | ⟨0, _⟩ => exact (rhs_row _ _).trans hk
      | ⟨1, _⟩ => exact rhs_col _ _)
  rw [el, er, truncf_apply, transpose96_apply, truncf_apply]

variable (V : (c : Dev nD) → (b : Ref sig .tc) → Buf (Elt Ideal) ((c : Thread nD τ).loc b))

/-- The block index maps over the ten grid points: the feature rows and the output move with the point along
    the rows; the weight stays at block (0, 0). -/
theorem idx1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

/-- Row `p` of the feature block at point `t` is row `5000·t + p` of the node features. -/
theorem iblk1_0_apply (c : Dev nD) (t : Fin cfg1.N) (p : Fin 5000) (q : Fin 96) (n : Fin 50000)
    (hn : n.val = 5000 * t.val + p.val) :
    (iblk1 (F := Ideal) V c 0 t : Vec Ideal S5000x96 .f32) (ix2 p q) = (V c main_arg0 : S50000x96.Idx → EReal) (ix2 n q) := by
  obtain ⟨⟨e0, e1⟩, -⟩ := idx1 t
  unfold iblk1
  rw [View.read_apply]
  show V c main_arg0 _ = V c main_arg0 _
  refine congrArg _ ?_
  funext a
  apply Fin.ext
  match a with
  | ⟨0, _⟩ => show win1_0.index t (0 : Fin 2) * 5000 + 1 * p.val = n.val; rw [e0, hn]; omega
  | ⟨1, _⟩ => show win1_0.index t (1 : Fin 2) * 96 + 1 * q.val = q.val; rw [e1]; omega

/-- The weight's block at every point is the whole weight. -/
theorem iblk1_1_apply (c : Dev nD) (t : Fin cfg1.N) (a b : Fin 96) :
    (iblk1 (F := Ideal) V c 1 t : Vec Ideal S96x96 .f32) (ix2 a b) = (V c main_arg10 : S96x96.Idx → EReal) (ix2 a b) := by
  obtain ⟨-, ⟨e0, e1⟩, -⟩ := idx1 t
  unfold iblk1
  rw [View.read_apply]
  show V c main_arg10 _ = V c main_arg10 _
  refine congrArg _ ?_
  funext d
  apply Fin.ext
  match d with
  | ⟨0, _⟩ => show win1_1.index t (0 : Fin 2) * 96 + 1 * a.val = a.val; rw [e0]; omega
  | ⟨1, _⟩ => show win1_1.index t (1 : Fin 2) * 96 + 1 * b.val = b.val; rw [e1]; omega

/-- The projected node features as one function of the array index: row `n` of the features against row `j` of
    the weight. -/
def G1 (c : Dev nD) : S50000x96.Idx → EReal := fun i =>
  xw (rd2 (V c main_arg0 : S50000x96.Idx → EReal)) (rd2 (V c main_arg10 : S96x96.Idx → EReal)) (i 0) (i 1)

/-- What point `t` writes back is block `t` of `G1`: block row `p` is array row `5000·t + p`. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  unfold out1_2
  rw [View.canon_unit_zero hz1]
  simp only [View.ld_unit_zero (S := S5000x96) hz1, View.ld_unit_zero (S := S96x96) hz1]
  funext j
  obtain ⟨p, q, rfl⟩ : ∃ (p : Fin 5000) (q : Fin 96), j = ix2 p q := ⟨j 0, j 1, eq_ix2 j⟩
  have hN : cfg1.N = 10 := N_1
  have ht : t.val < cfg1.N := t.isLt
  have hp : p.val < 5000 := p.isLt
  have hn : 5000 * t.val + p.val < 50000 := by omega
  obtain ⟨-, -, ⟨e0, e1⟩⟩ := idx1 t
  have hemb : ((cfg1.win 2).blk t).view.emb (ix2 p q) = (ix2 (⟨5000 * t.val + p.val, hn⟩ : Fin 50000) q : S50000x96.Idx) := by
    funext a
    apply Fin.ext
    match a with
    | ⟨0, _⟩ => show win1_2.index t (0 : Fin 2) * 5000 + 1 * p.val = 5000 * t.val + p.val; rw [e0]; omega
    | ⟨1, _⟩ => show win1_2.index t (1 : Fin 2) * 96 + 1 * q.val = q.val; rw [e1]; omega
  show k1_pay1 (F := Ideal) (iblk1 V c 0 t) (iblk1 V c 1 t) (ix2 p q) = G1 V c (((cfg1.win 2).blk t).view.emb (ix2 p q))
  rw [hemb]
  refine (pay1_apply (iblk1 V c 0 t) (iblk1 V c 1 t) p q).trans ?_
  show _ = ∑ k : Fin 96, rd2 (V c main_arg0 : S50000x96.Idx → EReal) (⟨5000 * t.val + p.val, hn⟩ : Fin 50000) k
      * rd2 (V c main_arg10 : S96x96.Idx → EReal) q k
  refine Finset.sum_congr rfl fun k _ => ?_
  exact congrArg₂ (fun a b : EReal => a * b) (iblk1_0_apply V c t p k ⟨5000 * t.val + p.val, hn⟩ rfl) (iblk1_1_apply V c t q k)

/-- Every row of the output lies in the block of the point `row / 5000`. -/
theorem cover1 (i : S50000x96.Idx) :
    ∃ t : Fin cfg1.N, (cfg1.win 2).flush t = true ∧ i ∈ ((cfg1.win 2).blk t).view.set := by
  have hN : cfg1.N = 10 := N_1
  have hi0 : (i 0).val < 50000 := (i 0).isLt
  have hi1 : (i 1).val < 96 := (i 1).isLt
  let t : Fin cfg1.N := ⟨(i 0).val / 5000, by rw [hN]; omega⟩
  have htv : t.val = (i 0).val / 5000 := rfl
  obtain ⟨-, -, ⟨e0, e1⟩⟩ := idx1 t
  refine ⟨t, flush1_2 t, ?_⟩
  show i ∈ ((View.whole main_v58).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e0, htv]; omega
  | ⟨1, _⟩ =>
    show win1_2.index t (1 : Fin 2) * 96 ≤ (i 1).val ∧ (i 1).val < win1_2.index t (1 : Fin 2) * 96 + 96
    rw [e1]; omega

/-- The projected-feature array after region 1: at row `n`, column `j`, the sum over the 96 features of the
    node's feature times the weight's entry at (j, k). -/
theorem xw_value (c : Dev nD) (n : Fin 50000) (j : Fin 96) :
    (dat1 (F := Ideal) V c).arrAt 2 cfg1.N (ix2 n j)
      = xw (rd2 (V c main_arg0 : S50000x96.Idx → EReal)) (rd2 (V c main_arg10 : S96x96.Idx → EReal)) n j := by
  rw [(dat1 (F := Ideal) V c).arrAt_eq_of_cover 2 (G1 V c) (fun t _ => flushed1_eq V c t) cover1]
  rfl

end Cert.KernelIdeal.NodeValue

end
-- ==== Proof.KEdge.lean ====
/-
  The first two regions' results at the program's actual boundary contents, as the reference's stages of the
  arguments. At the first region's entry the two endpoint-row arrays are the gathered rows of x, the bias rows are the
  bias vectors laid out as rows, and the other operands are the arguments as launched; so what the region leaves in
  its two result arrays — the specification's edge feature and edge weight of those operands — is the reference's
  edge-feature stage and edge-weight stage of the arguments. Likewise the second region leaves the node projection of
  x, which reaches it unchanged.
-/
import proofs.«157719_j687194767630_1_alg».proof.Proof.KChain0
import proofs.«157719_j687194767630_1_alg».proof.Proof.RefIdx
import proofs.«157719_j687194767630_1_alg».proof.Proof.EdgeBlock
import proofs.«157719_j687194767630_1_alg».proof.Proof.NodeBlocksXw

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

/-! ## Congruences of the coordinate formulas -/

theorem feat_congr {ι : Type} {xs xs' xd xd' : ι → Fin 96 → EReal} {Wn Wn' : Fin 96 → Fin 96 → EReal} {bn bn' : Fin 96 → EReal}
    {ea ea' : ι → Fin 64 → EReal} {ef ef' : ι → Fin 32 → EReal} {Wec Wec' : Fin 64 → Fin 192 → EReal} {bec bec' : Fin 64 → EReal}
    (h0 : xs = xs') (h1 : xd = xd') (h2 : Wn = Wn') (h3 : bn = bn') (h4 : ea = ea') (h5 : ef = ef') (h6 : Wec = Wec')
    (h7 : bec = bec') :
    Cert.Spec.feat (Cert.Spec.cat (Cert.Spec.msg xs xd Wn bn) ea ef) Wec bec
      = Cert.Spec.feat (Cert.Spec.cat (Cert.Spec.msg xs' xd' Wn' bn') ea' ef') Wec' bec' := by
  subst h0 h1 h2 h3 h4 h5 h6 h7; rfl

theorem wgt_congr {ι : Type} {f f' : ι → Fin 64 → EReal} {W W' : Fin 64 → EReal} {b b' : EReal}
    (hf : f = f') (hW : W = W') (hb : b = b') (e : ι) : Cert.Spec.wgt f W b e = Cert.Spec.wgt f' W' b' e := by
  subst hf hW hb; rfl

theorem xw_congr {ι : Type} {x x' : ι → Fin 96 → EReal} {W W' : Fin 96 → Fin 96 → EReal} (hx : x = x') (hW : W = W')
    (n : ι) (j : Fin 96) : Cert.Spec.xw x W n j = Cert.Spec.xw x' W' n j := by
  subst hx hW; rfl

variable [Cert.KernelIdeal.Facts] [Cert.ReferenceIdeal.Facts]
variable (m : (ℓ : Loc nD τ sig) → Buf (Elt Ideal) ℓ) (ρ : Dev nD → PrngReg)

/-! ## The first region -/

/-- The edge feature over the first region's entry contents, as a function of the edge and the column. -/
abbrev featK (c : Dev nD) : Fin 800000 → Fin 64 → EReal :=
  Cert.Spec.feat (Cert.Spec.cat (Cert.Spec.msg (Cert.Spec.rd2 (V1 m ρ c main_v10 : S800000x96.Idx → EReal)) (Cert.Spec.rd2 (V1 m ρ c main_v17 : S800000x96.Idx → EReal))
        (Cert.Spec.rd2 (V1 m ρ c main_arg4 : S96x96.Idx → EReal)) (fun j => Cert.Spec.rd2 (V1 m ρ c main_v18 : S1x96.Idx → EReal) 0 j))
      (Cert.Spec.rd2 (V1 m ρ c main_arg3 : S800000x64.Idx → EReal)) (Cert.Spec.rd2 (V1 m ρ c main_arg2 : S800000x32.Idx → EReal)))
    (Cert.Spec.rd2 (V1 m ρ c main_arg6 : S64x192.Idx → EReal)) (fun o' => Cert.Spec.rd2 (V1 m ρ c main_v19 : S1x64.Idx → EReal) 0 o')

/-- That function is the reference's edge-feature stage of the arguments, read at two coordinates. -/
theorem featK_eq (c : Dev nD) :
    featK m ρ c = Cert.Spec.rd2 (Cert.RefSpec.featOf (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))) := by
  funext e o
  show _ = Cert.RefSpec.featOf (F := Ideal) _ _ _ _ _ _ _ _ (ix2 e o)
  unfold Cert.RefSpec.featOf
  rw [Cert.RefIdx.featR_apply]
  exact congrFun (congrFun (feat_congr
    (congrArg (fun X => Cert.Spec.rd2 (a := 800000) (b := 96) X) (W1_v10 m ρ c))
    (congrArg (fun X => Cert.Spec.rd2 (a := 800000) (b := 96) X) (W1_v17 m ρ c))
    (congrArg (fun X => Cert.Spec.rd2 (a := 96) (b := 96) X) (W1_arg4 m ρ c))
    (funext fun j => W1_v18 m ρ c j)
    (congrArg (fun X => Cert.Spec.rd2 (a := 800000) (b := 64) X) (W1_arg3 m ρ c))
    (congrArg (fun X => Cert.Spec.rd2 (a := 800000) (b := 32) X) (W1_arg2 m ρ c))
    (congrArg (fun X => Cert.Spec.rd2 (a := 64) (b := 192) X) (W1_arg6 m ρ c))
    (funext fun o' => W1_v19 m ρ c o')) e) o

/-- THE EDGE-FEATURE ARRAY the first region leaves is the reference's edge-feature stage of the arguments. -/
theorem W2_feat (c : Dev nD) :
    (W2 m ρ c (Proc.devRef .tc main_v25_0) : S800000x64.Idx → EReal)
      = Cert.RefSpec.featOf (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  funext i
  obtain ⟨e, o, rfl⟩ : ∃ (e : Fin 800000) (o : Fin 64), i = ix2 e o := ⟨i 0, i 1, eq_ix2 i⟩
  refine (congrFun (W2_arr m ρ c 10) (ix2 e o)).trans ?_
  refine (Cert.KernelIdeal.EdgeValue.feat_value (V1 m ρ) c e o).trans ?_
  exact congrFun (congrFun (featK_eq m ρ c) e) o

/-- THE EDGE-WEIGHT COLUMN the first region leaves, at edge `e`, is the specification's weight of that feature. -/
theorem W2_w_apply (c : Dev nD) (e : Fin 800000) :
    (W2 m ρ c (Proc.devRef .tc main_v25_1) : S800000x1.Idx → EReal) (ix2 e (0 : Fin 1))
      = Cert.Spec.wgt (Cert.Spec.rd2 (Cert.RefSpec.featOf (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))))
          (fun o => Cert.Spec.rd2 (m ((c.tc : Thread nD τ).loc main_arg8)) 0 o) (Cert.Spec.rd1 (m ((c.tc : Thread nD τ).loc main_arg9)) 0) e := by
  refine (congrFun (W2_arr m ρ c 11) (ix2 e (0 : Fin 1))).trans ?_
  refine (Cert.KernelIdeal.EdgeValue.wgt_value (V1 m ρ) c e).trans ?_
  exact wgt_congr (featK_eq m ρ c)
    (funext fun o' => congrFun (W1_arg8 m ρ c) (ix2 (0 : Fin 1) o'))
    (W1_v20 m ρ c 0) e

/-! ## The second region -/

/-- x reaches the second region as launched: no operation between the launch and that region writes it. -/
theorem W9_x (c : Dev nD) : W9 m ρ c (Proc.devRef .tc main_arg0) = (m ((c.tc : Thread nD τ).loc main_arg0)) := by
  have h9 : W9 m ρ c (Proc.devRef .tc main_arg0) = W8 m ρ c (Proc.devRef .tc main_arg0) := by dsimp only [W9]; skip_ops
  have h8 : W8 m ρ c (Proc.devRef .tc main_arg0) = W7 m ρ c (Proc.devRef .tc main_arg0) := by dsimp only [W8]; skip_ops
  have h7 : W7 m ρ c (Proc.devRef .tc main_arg0) = W6 m ρ c (Proc.devRef .tc main_arg0) := by dsimp only [W7]; skip_ops
  have h6 : W6 m ρ c (Proc.devRef .tc main_arg0) = W5 m ρ c (Proc.devRef .tc main_arg0) := by dsimp only [W6]; skip_ops
  have h5 : W5 m ρ c (Proc.devRef .tc main_arg0) = W4 m ρ c (Proc.devRef .tc main_arg0) := by dsimp only [W5]; skip_ops
  have h4 : W4 m ρ c (Proc.devRef .tc main_arg0) = W3 m ρ c (Proc.devRef .tc main_arg0) := by dsimp only [W4]; skip_ops
  have h3 : W3 m ρ c (Proc.devRef .tc main_arg0) = W2 m ρ c (Proc.devRef .tc main_arg0) := by dsimp only [W3]; skip_ops
  rw [h9, h8, h7, h6, h5, h4, h3, W2_of_ne m ρ c main_arg0 (by decide)]
  exact W1_arg0 m ρ c

/-- The projection weight reaches the second region as launched. -/
theorem W9_Wg (c : Dev nD) : W9 m ρ c (Proc.devRef .tc main_arg10) = (m ((c.tc : Thread nD τ).loc main_arg10)) := by
  have h9 : W9 m ρ c (Proc.devRef .tc main_arg10) = W8 m ρ c (Proc.devRef .tc main_arg10) := by dsimp only [W9]; skip_ops
  have h8 : W8 m ρ c (Proc.devRef .tc main_arg10) = W7 m ρ c (Proc.devRef .tc main_arg10) := by dsimp only [W8]; skip_ops
  have h7 : W7 m ρ c (Proc.devRef .tc main_arg10) = W6 m ρ c (Proc.devRef .tc main_arg10) := by dsimp only [W7]; skip_ops
  have h6 : W6 m ρ c (Proc.devRef .tc main_arg10) = W5 m ρ c (Proc.devRef .tc main_arg10) := by dsimp only [W6]; skip_ops
  have h5 : W5 m ρ c (Proc.devRef .tc main_arg10) = W4 m ρ c (Proc.devRef .tc main_arg10) := by dsimp only [W5]; skip_ops
  have h4 : W4 m ρ c (Proc.devRef .tc main_arg10) = W3 m ρ c (Proc.devRef .tc main_arg10) := by dsimp only [W4]; skip_ops
  have h3 : W3 m ρ c (Proc.devRef .tc main_arg10) = W2 m ρ c (Proc.devRef .tc main_arg10) := by dsimp only [W3]; skip_ops
  rw [h9, h8, h7, h6, h5, h4, h3, W2_of_ne m ρ c main_arg10 (by decide)]
  exact W1_arg10 m ρ c

/-- THE PROJECTED-FEATURE ARRAY the second region leaves is the reference's node projection of the arguments. -/
theorem W10_xw (c : Dev nD) :
    (W10 m ρ c (Proc.devRef .tc main_v58) : S50000x96.Idx → EReal)
      = Cert.RefSpec.xwR (F := Ideal) (m ((c.tc : Thread nD τ).loc main_arg0)) (m ((c.tc : Thread nD τ).loc main_arg10)) := by
  funext i
  obtain ⟨n, j, rfl⟩ : ∃ (n : Fin 50000) (j : Fin 96), i = ix2 n j := ⟨i 0, i 1, eq_ix2 i⟩
  refine (congrFun (W10_arr m ρ c 2) (ix2 n j)).trans ?_
  refine (Cert.KernelIdeal.NodeValue.xw_value (V9 m ρ) c n j).trans ?_
  rw [Cert.RefIdx.xwR_apply]
  exact xw_congr (congrArg (fun X => Cert.Spec.rd2 (a := 50000) (b := 96) X) (W9_x m ρ c))
    (congrArg (fun X => Cert.Spec.rd2 (a := 96) (b := 96) X) (W9_Wg m ρ c)) n j

end Cert.KChain

end
-- ==== Proof.KEdgeW.lean ====
/-
  The edge weights the first region leaves, as a vector over the edges: the reference's edge-weight stage of its
  edge-feature stage of the arguments.
-/
import proofs.«157719_j687194767630_1_alg».proof.Proof.KEdge
import proofs.«157719_j687194767630_1_alg».proof.Proof.KFlat

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg)

/-- THE EDGE-WEIGHT COLUMN the first region leaves, read as a vector, is the reference's edge-weight stage of its
    edge-feature stage of the arguments. -/
theorem W2_w (c : Dev nD) :
    flat (W2 m ρ c (Proc.devRef .tc main_v25_1))
      = Cert.RefSpec.w1R (F := Ideal) (Cert.RefSpec.featOf (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) := by
  funext i
  obtain ⟨e, rfl⟩ : ∃ e : Fin 800000, i = ix1 e := ⟨i 0, eq_ix1 i⟩
  rw [flat_apply, Cert.RefIdx.w1R_apply]
  exact W2_w_apply m ρ c e

end Cert.KChain

end
-- ==== Proof.NodeBlocksEdge.lean ====
/-
  The value of the edge finalisation stage, read off the blockwise run for any entry contents.

  The stage walks the 800000 edge rows in 125 blocks of 6400. At each block it takes the edge-feature rows and
  the edge-attribute rows of that block, and the four parameter rows (scale, shift, column mean, column variance),
  which every block sees whole. Entry (p, q) of what it writes depends only on row p of the two row blocks and on
  column q of the parameter rows:
      max((h − μ_q)·rsqrt(σ²_q + ε)·γ_q + β_q, 0) + attr.
  Block row p of block t is array row 6400·t + p, so all blocks are restrictions of one function of the array
  index, and since the blocks tile the array (row r lies in block r / 6400) the array ends holding that function.
-/
import proofs.«157719_j687194767630_1_alg».proof.Proof.Spec
import proofs.«157719_j687194767630_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.NodeValue

open Cert.KernelIdeal Cert.KernelIdeal.Gen Cert.Spec Idealize.ShloMosaic Idealize.ShloMosaic.ValueIdx
open Idealize.ShloMosaic.TcCoe Idealize.SL.Sem
open Idealize.ShloMosaic.Pipeline (Dat)

theorem hz2 : (![0, 0] : Fin 2 → Nat) = fun _ => 0 := funext fun a => by fin_cases a <;> rfl

/-- A row of width 64 broadcast down 6400 rows, read at row `p`, column `q`, is the row at column `q`. -/
theorem bcast_row64 {α : Type} (x : S1x64.Idx → α) (h : S1x64.Broadcasts S6400x64) (p : Fin 6400) (q : Fin 64) :
    broadcastTo S6400x64 x h (ix2 p q) = x (ix2 (0 : Fin 1) q) :=
  broadcastTo_apply x h (ix2 p q) (ix2 (0 : Fin 1) q) (fun a => by
    match a with
    | ⟨0, _⟩ => rfl
    | ⟨1, _⟩ => rfl)

/-- The body's arithmetic at row `p`, column `q` of a block: the edge feature minus the column mean, times the
    reciprocal square root of the column variance plus ε, times the scale, plus the shift, clamped below at 0,
    plus the edge attribute. The zero literal is the real 0. -/
theorem pay2_apply (v0 : Vec Ideal S1x64 .f32) (v5 : Vec Ideal S6400x64 .f32) (v7 v13 v17 : Vec Ideal S1x64 .f32)
    (v23 : Vec Ideal S6400x64 .f32) (p : Fin 6400) (q : Fin 64) :
    k2_pay1 (F := Ideal) v0 v5 v7 v13 v17 v23 (ix2 p q)
      = max ((v5 (ix2 p q) - v7 (ix2 (0 : Fin 1) q)) * Ideal.rsqrt (v0 (ix2 (0 : Fin 1) q) + Ideal.ofBits .f32 0x3727C5AC#32)
              * v13 (ix2 (0 : Fin 1) q) + v17 (ix2 (0 : Fin 1) q)) 0 + v23 (ix2 p q) := by
  unfold k2_pay1
  simp only [shapeCast_self]
  rw [addf_apply, maximumf_apply, addf_apply, mulf_apply, mulf_apply, subf_apply, broadcast_apply,
    bcast_row64, bcast_row64, bcast_row64, bcast_row64]
  show max ((v5 (ix2 p q) - v7 (ix2 (0 : Fin 1) q)) * Ideal.rsqrt (v0 (ix2 (0 : Fin 1) q) + Ideal.ofBits .f32 0x3727C5AC#32)
              * v13 (ix2 (0 : Fin 1) q) + v17 (ix2 (0 : Fin 1) q)) (Ideal.ofBits .f32 0x00000000#32) + v23 (ix2 p q) = _
  rw [Ideal.ofBits_zero_f32]

variable (V : (c : Dev nD) → (b : Ref sig .tc) → Buf (Elt Ideal) ((c : Thread nD τ).loc b))

/-- The block index maps over the 125 grid points: the two row-blocked inputs and the output move with the
    point along the rows; the four parameter rows stay at block (0, 0). -/
theorem idx2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row `p` of the edge-feature block at point `t` is row `6400·t + p` of the edge features. -/
theorem iblk2_0_apply (c : Dev nD) (t : Fin cfg2.N) (p : Fin 6400) (q : Fin 64) (n : Fin 800000)
    (hn : n.val = 6400 * t.val + p.val) :
    (iblk2 (F := Ideal) V c 0 t : Vec Ideal S6400x64 .f32) (ix2 p q) = (V c main_v25_0 : S800000x64.Idx → EReal) (ix2 n q) := by
  obtain ⟨⟨e0, e1⟩, -⟩ := idx2 t
  unfold iblk2
  rw [View.read_apply]
  show V c main_v25_0 _ = V c main_v25_0 _
  refine congrArg _ ?_
  funext a
  apply Fin.ext
  match a with
  | ⟨0, _⟩ => show win2_0.index t (0 : Fin 2) * 6400 + 1 * p.val = n.val; rw [e0, hn]; omega
  | ⟨1, _⟩ => show win2_0.index t (1 : Fin 2) * 64 + 1 * q.val = q.val; rw [e1]; omega

/-- Row `p` of the edge-attribute block at point `t` is row `6400·t + p` of the edge attributes. -/
theorem iblk2_1_apply (c : Dev nD) (t : Fin cfg2.N) (p : Fin 6400) (q : Fin 64) (n : Fin 800000)
    (hn : n.val = 6400 * t.val + p.val) :
    (iblk2 (F := Ideal) V c 1 t : Vec Ideal S6400x64 .f32) (ix2 p q) = (V c main_arg3 : S800000x64.Idx → EReal) (ix2 n q) := by
  obtain ⟨-, ⟨e0, e1⟩, -⟩ := idx2 t
  unfold iblk2
  rw [View.read_apply]
  show V c main_arg3 _ = V c main_arg3 _
  refine congrArg _ ?_
  funext a
  apply Fin.ext
  match a with
  | ⟨0, _⟩ => show win2_1.index t (0 : Fin 2) * 6400 + 1 * p.val = n.val; rw [e0, hn]; omega
  | ⟨1, _⟩ => show win2_1.index t (1 : Fin 2) * 64 + 1 * q.val = q.val; rw [e1]; omega

/-- The scale row's block at every point is the scale row. -/
theorem iblk2_2_apply (c : Dev nD) (t : Fin cfg2.N) (q : Fin 64) :
    (iblk2 (F := Ideal) V c 2 t : Vec Ideal S1x64 .f32) (ix2 (0 : Fin 1) q) = (V c main_v21 : S1x64.Idx → EReal) (ix2 (0 : Fin 1) q) := by
  obtain ⟨-, -, ⟨e0, e1⟩, -⟩ := idx2 t
  unfold iblk2
  rw [View.read_apply]
  show V c main_v21 _ = V c main_v21 _
  refine congrArg _ ?_
  funext a
  apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

/-- The shift row's block at every point is the shift row. -/
theorem iblk2_3_apply (c : Dev nD) (t : Fin cfg2.N) (q : Fin 64) :
    (iblk2 (F := Ideal) V c 3 t : Vec Ideal S1x64 .f32) (ix2 (0 : Fin 1) q) = (V c main_v22 : S1x64.Idx → EReal) (ix2 (0 : Fin 1) q) := by
  obtain ⟨-, -, -, ⟨e0, e1⟩, -⟩ := idx2 t
  unfold iblk2
  rw [View.read_apply]
  show V c main_v22 _ = V c main_v22 _
  refine congrArg _ ?_
  funext a
  apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

/-- The mean row's block at every point is the mean row. -/
theorem iblk2_4_apply (c : Dev nD) (t : Fin cfg2.N) (q : Fin 64) :
    (iblk2 (F := Ideal) V c 4 t : Vec Ideal S1x64 .f32) (ix2 (0 : Fin 1) q) = (V c main_v29 : S1x64.Idx → EReal) (ix2 (0 : Fin 1) q) := by
  obtain ⟨-, -, -, -, ⟨e0, e1⟩, -⟩ := idx2 t
  unfold iblk2
  rw [View.read_apply]
  show V c main_v29 _ = V c main_v29 _
  refine congrArg _ ?_
  funext a
  apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

/-- The variance row's block at every point is the variance row. -/
theorem iblk2_5_apply (c : Dev nD) (t : Fin cfg2.N) (q : Fin 64) :
    (iblk2 (F := Ideal) V c 5 t : Vec Ideal S1x64 .f32) (ix2 (0 : Fin 1) q) = (V c main_v30 : S1x64.Idx → EReal) (ix2 (0 : Fin 1) q) := by
  obtain ⟨-, -, -, -, -, ⟨e0, e1⟩, -⟩ := idx2 t
  unfold iblk2
  rw [View.read_apply]
  show V c main_v30 _ = V c main_v30 _
  refine congrArg _ ?_
  funext a
  apply Fin.ext
  match a with
  | ⟨0, _⟩ => show win2_5.index t (0 : Fin 2) * 1 + 1 * 0 = 0; rw [e0]
  | ⟨1, _⟩ => show win2_5.index t (1 : Fin 2) * 64 + 1 * q.val = q.val; rw [e1]; omega

/-- The edge output as one function of the array index: batch normalisation of the edge feature with the
    given column statistics, then relu, then the edge attribute added. -/
def G2 (c : Dev nD) : S800000x64.Idx → EReal := fun i =>
  bnOut (rd2 (V c main_v25_0 : S800000x64.Idx → EReal)) (fun o' => rd2 (V c main_v29 : S1x64.Idx → EReal) 0 o')
    (fun o' => rd2 (V c main_v30 : S1x64.Idx → EReal) 0 o') (fun o' => rd2 (V c main_v21 : S1x64.Idx → EReal) 0 o')
    (fun o' => rd2 (V c main_v22 : S1x64.Idx → EReal) 0 o') (Ideal.ofBits .f32 0x3727C5AC#32)
    (rd2 (V c main_arg3 : S800000x64.Idx → EReal)) (i 0) (i 1)

/-- What point `t` writes back is block `t` of `G2`: block row `p` is array row `6400·t + p`. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz2]
  simp only [View.ld_unit_zero (S := S6400x64) hz2, View.ld_unit_zero (S := S1x64) hz2]
  funext j
  obtain ⟨p, q, rfl⟩ : ∃ (p : Fin 6400) (q : Fin 64), j = ix2 p q := ⟨j 0, j 1, eq_ix2 j⟩
  have hN : cfg2.N = 125 := N_2
  have ht : t.val < cfg2.N := t.isLt
  have hp : p.val < 6400 := p.isLt
  have hn : 6400 * t.val + p.val < 800000 := by omega
  obtain ⟨-, -, -, -, -, -, ⟨e0, e1⟩⟩ := idx2 t
  have hemb : ((cfg2.win 6).blk t).view.emb (ix2 p q) = (ix2 (⟨6400 * t.val + p.val, hn⟩ : Fin 800000) q : S800000x64.Idx) := by
    funext a
    apply Fin.ext
    match a with
    | ⟨0, _⟩ => show win2_6.index t (0 : Fin 2) * 6400 + 1 * p.val = 6400 * t.val + p.val; rw [e0]; omega
    | ⟨1, _⟩ => show win2_6.index t (1 : Fin 2) * 64 + 1 * q.val = q.val; rw [e1]; omega
  show k2_pay1 (F := Ideal) (iblk2 V c 5 t) (iblk2 V c 0 t) (iblk2 V c 4 t) (iblk2 V c 2 t) (iblk2 V c 3 t) (iblk2 V c 1 t) (ix2 p q)
    = G2 V c (((cfg2.win 6).blk t).view.emb (ix2 p q))
  rw [hemb]
  refine (pay2_apply (iblk2 V c 5 t) (iblk2 V c 0 t) (iblk2 V c 4 t) (iblk2 V c 2 t) (iblk2 V c 3 t) (iblk2 V c 1 t) p q).trans ?_
  rw [iblk2_0_apply V c t p q ⟨6400 * t.val + p.val, hn⟩ rfl, iblk2_1_apply V c t p q ⟨6400 * t.val + p.val, hn⟩ rfl,
    iblk2_2_apply V c t q, iblk2_3_apply V c t q, iblk2_4_apply V c t q, iblk2_5_apply V c t q]
  rfl

/-- Every row of the output lies in the block of the point `row / 6400`. -/
theorem cover2 (i : S800000x64.Idx) :
    ∃ t : Fin cfg2.N, (cfg2.win 6).flush t = true ∧ i ∈ ((cfg2.win 6).blk t).view.set := by
  have hN : cfg2.N = 125 := N_2
  have hi0 : (i 0).val < 800000 := (i 0).isLt
  have hi1 : (i 1).val < 64 := (i 1).isLt
  let t : Fin cfg2.N := ⟨(i 0).val / 6400, by rw [hN]; omega⟩
  have htv : t.val = (i 0).val / 6400 := rfl
  obtain ⟨-, -, -, -, -, -, ⟨e0, e1⟩⟩ := idx2 t
  refine ⟨t, flush2_6 t, ?_⟩
  show i ∈ ((View.whole main_v80).slice (win2_6.rect t)).set
  rw [View.set_slice_whole, Rect.mem_set_unit]
  intro a
  match a with
  | ⟨0, _⟩ =>
    show win2_6.index t (0 : Fin 2) * 6400 ≤ (i 0).val ∧ (i 0).val < win2_6.index t (0 : Fin 2) * 6400 + 6400
    rw [e0, htv]; omega
  | ⟨1, _⟩ =>
    show win2_6.index t (1 : Fin 2) * 64 ≤ (i 1).val ∧ (i 1).val < win2_6.index t (1 : Fin 2) * 64 + 64
    rw [e1]; omega

/-- The edge output array after region 2: at row `e`, column `o`, the batch-normalised edge feature, clamped, plus the
    edge attribute. -/
theorem edge_out_value (c : Dev nD) (e : Fin 800000) (o : Fin 64) :
    (dat2 (F := Ideal) V c).arrAt 6 cfg2.N (ix2 e o)
      = bnOut (rd2 (V c main_v25_0 : S800000x64.Idx → EReal)) (fun o' => rd2 (V c main_v29 : S1x64.Idx → EReal) 0 o')
          (fun o' => rd2 (V c main_v30 : S1x64.Idx → EReal) 0 o') (fun o' => rd2 (V c main_v21 : S1x64.Idx → EReal) 0 o')
          (fun o' => rd2 (V c main_v22 : S1x64.Idx → EReal) 0 o') (Ideal.ofBits .f32 0x3727C5AC#32)
          (rd2 (V c main_arg3 : S800000x64.Idx → EReal)) e o := by
  rw [(dat2 (F := Ideal) V c).arrAt_eq_of_cover 6 (G2 V c) (fun t _ => flushed2_eq V c t) cover2]
  rfl

end Cert.KernelIdeal.NodeValue

end
-- ==== Proof.NodeBlocksNode.lean ====
/-
  The value of the node finalisation stage, read off the blockwise run for any entry contents.

  The stage walks the 50000 node rows in ten blocks of 5000. At each block it takes the aggregate rows and the
  nodes' own feature rows of that block, and the four parameter rows (scale, shift, column mean, column variance),
  which every block sees whole. Entry (p, q) of what it writes depends only on row p of the two row blocks and on
  column q of the parameter rows:
      max((agg − μ_q)·rsqrt(σ²_q + ε)·γ_q + β_q, 0) + x.
  Block row p of block t is array row 5000·t + p, so all ten blocks are restrictions of one function of the array
  index, and since the blocks tile the array (row r lies in block r / 5000) the array ends holding that function.
-/
import proofs.«157719_j687194767630_1_alg».proof.Proof.Spec
import proofs.«157719_j687194767630_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.NodeValue

open Cert.KernelIdeal Cert.KernelIdeal.Gen Cert.Spec Idealize.ShloMosaic Idealize.ShloMosaic.ValueIdx
open Idealize.ShloMosaic.TcCoe Idealize.SL.Sem
open Idealize.ShloMosaic.Pipeline (Dat)

theorem hz3 : (![0, 0] : Fin 2 → Nat) = fun _ => 0 := funext fun a => by fin_cases a <;> rfl

/-- A row of width 96 broadcast down 5000 rows, read at row `p`, column `q`, is the row at column `q`. -/
theorem bcast_row96 {α : Type} (x : S1x96.Idx → α) (h : S1x96.Broadcasts S5000x96) (p : Fin 5000) (q : Fin 96) :
    broadcastTo S5000x96 x h (ix2 p q) = x (ix2 (0 : Fin 1) q) :=
  broadcastTo_apply x h (ix2 p q) (ix2 (0 : Fin 1) q) (fun a => by
    match a with
    | ⟨0, _⟩ => rfl
    | ⟨1, _⟩ => rfl)

/-- The body's arithmetic at row `p`, column `q` of a block: the aggregate minus the column mean, times the
    reciprocal square root of the column variance plus ε, times the scale, plus the shift, clamped below at 0,
    plus the residual. The float format changes are the identity and the zero literal is the real 0. -/
theorem pay3_apply (v0 : Vec Ideal S1x96 .f32) (v5 : Vec Ideal S5000x96 .f32) (v7 v13 v17 : Vec Ideal S1x96 .f32)
    (v23 : Vec Ideal S5000x96 .f32) (p : Fin 5000) (q : Fin 96) :
    k3_pay1 (F := Ideal) v0 v5 v7 v13 v17 v23 (ix2 p q)
      = max ((v5 (ix2 p q) - v7 (ix2 (0 : Fin 1) q)) * Ideal.rsqrt (v0 (ix2 (0 : Fin 1) q) + Ideal.ofBits .f32 0x3727C5AC#32)
              * v13 (ix2 (0 : Fin 1) q) + v17 (ix2 (0 : Fin 1) q)) 0 + v23 (ix2 p q) := by
  unfold k3_pay1
  simp only [shapeCast_self]
  rw [addf_apply, maximumf_apply, addf_apply, mulf_apply, mulf_apply, subf_apply, broadcast_apply,
    bcast_row96, bcast_row96, bcast_row96, bcast_row96]
  show max ((v5 (ix2 p q) - v7 (ix2 (0 : Fin 1) q)) * Ideal.rsqrt (v0 (ix2 (0 : Fin 1) q) + Ideal.ofBits .f32 0x3727C5AC#32)
              * v13 (ix2 (0 : Fin 1) q) + v17 (ix2 (0 : Fin 1) q)) (Ideal.ofBits .f32 0x00000000#32) + v23 (ix2 p q) = _
  rw [Ideal.ofBits_zero_f32]

variable (V : (c : Dev nD) → (b : Ref sig .tc) → Buf (Elt Ideal) ((c : Thread nD τ).loc b))

/-- The block index maps over the ten grid points: the two row-blocked inputs and the output move with the
    point along the rows; the four parameter rows stay at block (0, 0). -/
theorem idx3 : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- Row `p` of the aggregate's block at point `t` is row `5000·t + p` of the aggregate. -/
theorem iblk3_0_apply (c : Dev nD) (t : Fin cfg3.N) (p : Fin 5000) (q : Fin 96) (n : Fin 50000)
    (hn : n.val = 5000 * t.val + p.val) :
    (iblk3 (F := Ideal) V c 0 t : Vec Ideal S5000x96 .f32) (ix2 p q) = (V c main_v74 : S50000x96.Idx → EReal) (ix2 n q) := by
  obtain ⟨⟨e0, e1⟩, -⟩ := idx3 t
  unfold iblk3
  rw [View.read_apply]
  show V c main_v74 _ = V c main_v74 _
  refine congrArg _ ?_
  funext a
  apply Fin.ext
  match a with
  | ⟨0, _⟩ => show win3_0.index t (0 : Fin 2) * 5000 + 1 * p.val = n.val; rw [e0, hn]; omega
  | ⟨1, _⟩ => show win3_0.index t (1 : Fin 2) * 96 + 1 * q.val = q.val; rw [e1]; omega

/-- Row `p` of the residual's block at point `t` is row `5000·t + p` of the node features. -/
theorem iblk3_1_apply (c : Dev nD) (t : Fin cfg3.N) (p : Fin 5000) (q : Fin 96) (n : Fin 50000)
    (hn : n.val = 5000 * t.val + p.val) :
    (iblk3 (F := Ideal) V c 1 t : Vec Ideal S5000x96 .f32) (ix2 p q) = (V c main_arg0 : S50000x96.Idx → EReal) (ix2 n q) := by
  obtain ⟨-, ⟨e0, e1⟩, -⟩ := idx3 t
  unfold iblk3
  rw [View.read_apply]
  show V c main_arg0 _ = V c main_arg0 _
  refine congrArg _ ?_
  funext a
  apply Fin.ext
  match a with
  | ⟨0, _⟩ => show win3_1.index t (0 : Fin 2) * 5000 + 1 * p.val = n.val; rw [e0, hn]; omega
  | ⟨1, _⟩ => show win3_1.index t (1 : Fin 2) * 96 + 1 * q.val = q.val; rw [e1]; omega

/-- The scale row's block at every point is the scale row. -/
theorem iblk3_2_apply (c : Dev nD) (t : Fin cfg3.N) (q : Fin 96) :
    (iblk3 (F := Ideal) V c 2 t : Vec Ideal S1x96 .f32) (ix2 (0 : Fin 1) q) = (V c main_v23 : S1x96.Idx → EReal) (ix2 (0 : Fin 1) q) := by
  obtain ⟨-, -, ⟨e0, e1⟩, -⟩ := idx3 t
  unfold iblk3
  rw [View.read_apply]
  show V c main_v23 _ = V c main_v23 _
  refine congrArg _ ?_
  funext a
  apply Fin.ext
  match a with
  | ⟨0, _⟩ => show win3_2.index t (0 : Fin 2) * 1 + 1 * 0 = 0; rw [e0]
  | ⟨1, _⟩ => show win3_2.index t (1 : Fin 2) * 96 + 1 * q.val = q.val; rw [e1]; omega

/-- The shift row's block at every point is the shift row. -/
theorem iblk3_3_apply (c : Dev nD) (t : Fin cfg3.N) (q : Fin 96) :
    (iblk3 (F := Ideal) V c 3 t : Vec Ideal S1x96 .f32) (ix2 (0 : Fin 1) q) = (V c main_v24 : S1x96.Idx → EReal) (ix2 (0 : Fin 1) q) := by
  obtain ⟨-, -, -, ⟨e0, e1⟩, -⟩ := idx3 t
  unfold iblk3
  rw [View.read_apply]
  show V c main_v24 _ = V c main_v24 _
  refine congrArg _ ?_
  funext a
  apply Fin.ext
  match a with
  | ⟨0, _⟩ => show win3_3.index t (0 : Fin 2) * 1 + 1 * 0 = 0; rw [e0]
  | ⟨1, _⟩ => show win3_3.index t (1 : Fin 2) * 96 + 1 * q.val = q.val; rw [e1]; omega

/-- The mean row's block at every point is the mean row. -/
theorem iblk3_4_apply (c : Dev nD) (t : Fin cfg3.N) (q : Fin 96) :
    (iblk3 (F := Ideal) V c 4 t : Vec Ideal S1x96 .f32) (ix2 (0 : Fin 1) q) = (V c main_v78 : S1x96.Idx → EReal) (ix2 (0 : Fin 1) q) := by
  obtain ⟨-, -, -, -, ⟨e0, e1⟩, -⟩ := idx3 t
  unfold iblk3
  rw [View.read_apply]
  show V c main_v78 _ = V c main_v78 _
  refine congrArg _ ?_
  funext a
  apply Fin.ext
  match a with
  | ⟨0, _⟩ => show win3_4.index t (0 : Fin 2) * 1 + 1 * 0 = 0; rw [e0]
  | ⟨1, _⟩ => show win3_4.index t (1 : Fin 2) * 96 + 1 * q.val = q.val; rw [e1]; omega

/-- The variance row's block at every point is the variance row. -/
theorem iblk3_5_apply (c : Dev nD) (t : Fin cfg3.N) (q : Fin 96) :
    (iblk3 (F := Ideal) V c 5 t : Vec Ideal S1x96 .f32) (ix2 (0 : Fin 1) q) = (V c main_v79 : S1x96.Idx → EReal) (ix2 (0 : Fin 1) q) := by
  obtain ⟨-, -, -, -, -, ⟨e0, e1⟩, -⟩ := idx3 t
  unfold iblk3
  rw [View.read_apply]
  show V c main_v79 _ = V c main_v79 _
  refine congrArg _ ?_
  funext a
  apply Fin.ext
  match a with
  | ⟨0, _⟩ => show win3_5.index t (0 : Fin 2) * 1 + 1 * 0 = 0; rw [e0]
  | ⟨1, _⟩ => show win3_5.index t (1 : Fin 2) * 96 + 1 * q.val = q.val; rw [e1]; omega

/-- The node output as one function of the array index: batch normalisation of the aggregate with the
    given column statistics, then relu, then the residual. -/
def G3 (c : Dev nD) : S50000x96.Idx → EReal := fun i =>
  bnOut (rd2 (V c main_v74 : S50000x96.Idx → EReal)) (fun j' => rd2 (V c main_v78 : S1x96.Idx → EReal) 0 j')
    (fun j' => rd2 (V c main_v79 : S1x96.Idx → EReal) 0 j') (fun j' => rd2 (V c main_v23 : S1x96.Idx → EReal) 0 j')
    (fun j' => rd2 (V c main_v24 : S1x96.Idx → EReal) 0 j') (Ideal.ofBits .f32 0x3727C5AC#32)
    (rd2 (V c main_arg0 : S50000x96.Idx → EReal)) (i 0) (i 1)

/-- What point `t` writes back is block `t` of `G3`: block row `p` is array row `5000·t + p`. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S5000x96) hz3, View.ld_unit_zero (S := S1x96) hz3]
  funext j
  obtain ⟨p, q, rfl⟩ : ∃ (p : Fin 5000) (q : Fin 96), j = ix2 p q := ⟨j 0, j 1, eq_ix2 j⟩
  have hN : cfg3.N = 10 := N_3
  have ht : t.val < cfg3.N := t.isLt
  have hp : p.val < 5000 := p.isLt
  have hn : 5000 * t.val + p.val < 50000 := by omega
  obtain ⟨-, -, -, -, -, -, ⟨e0, e1⟩⟩ := idx3 t
  have hemb : ((cfg3.win 6).blk t).view.emb (ix2 p q) = (ix2 (⟨5000 * t.val + p.val, hn⟩ : Fin 50000) q : S50000x96.Idx) := by
    funext a
    apply Fin.ext
    match a with
    | ⟨0, _⟩ => show win3_6.index t (0 : Fin 2) * 5000 + 1 * p.val = 5000 * t.val + p.val; rw [e0]; omega
    | ⟨1, _⟩ => show win3_6.index t (1 : Fin 2) * 96 + 1 * q.val = q.val; rw [e1]; omega
  show k3_pay1 (F := Ideal) (iblk3 V c 5 t) (iblk3 V c 0 t) (iblk3 V c 4 t) (iblk3 V c 2 t) (iblk3 V c 3 t) (iblk3 V c 1 t) (ix2 p q)
    = G3 V c (((cfg3.win 6).blk t).view.emb (ix2 p q))
  rw [hemb]
  refine (pay3_apply (iblk3 V c 5 t) (iblk3 V c 0 t) (iblk3 V c 4 t) (iblk3 V c 2 t) (iblk3 V c 3 t) (iblk3 V c 1 t) p q).trans ?_
  rw [iblk3_0_apply V c t p q ⟨5000 * t.val + p.val, hn⟩ rfl, iblk3_1_apply V c t p q ⟨5000 * t.val + p.val, hn⟩ rfl,
    iblk3_2_apply V c t q, iblk3_3_apply V c t q, iblk3_4_apply V c t q, iblk3_5_apply V c t q]
  rfl

/-- Every row of the output lies in the block of the point `row / 5000`. -/
theorem cover3 (i : S50000x96.Idx) :
    ∃ t : Fin cfg3.N, (cfg3.win 6).flush t = true ∧ i ∈ ((cfg3.win 6).blk t).view.set := by
  have hN : cfg3.N = 10 := N_3
  have hi0 : (i 0).val < 50000 := (i 0).isLt
  have hi1 : (i 1).val < 96 := (i 1).isLt
  let t : Fin cfg3.N := ⟨(i 0).val / 5000, by rw [hN]; omega⟩
  have htv : t.val = (i 0).val / 5000 := rfl
  obtain ⟨-, -, -, -, -, -, ⟨e0, e1⟩⟩ := idx3 t
  refine ⟨t, flush3_6 t, ?_⟩
  show i ∈ ((View.whole main_v81).slice (win3_6.rect t)).set
  rw [View.set_slice_whole, Rect.mem_set_unit]
  intro a
  match a with
  | ⟨0, _⟩ =>
    show win3_6.index t (0 : Fin 2) * 5000 ≤ (i 0).val ∧ (i 0).val < win3_6.index t (0 : Fin 2) * 5000 + 5000
    rw [e0, htv]; omega
  | ⟨1, _⟩ =>
    show win3_6.index t (1 : Fin 2) * 96 ≤ (i 1).val ∧ (i 1).val < win3_6.index t (1 : Fin 2) * 96 + 96
    rw [e1]; omega

/-- The node output array after region 3: at row `n`, column `j`, the batch-normalised aggregate, clamped, plus the
    node's own features. -/
theorem node_out_value (c : Dev nD) (n : Fin 50000) (j : Fin 96) :
    (dat3 (F := Ideal) V c).arrAt 6 cfg3.N (ix2 n j)
      = bnOut (rd2 (V c main_v74 : S50000x96.Idx → EReal)) (fun j' => rd2 (V c main_v78 : S1x96.Idx → EReal) 0 j')
          (fun j' => rd2 (V c main_v79 : S1x96.Idx → EReal) 0 j') (fun j' => rd2 (V c main_v23 : S1x96.Idx → EReal) 0 j')
          (fun j' => rd2 (V c main_v24 : S1x96.Idx → EReal) 0 j') (Ideal.ofBits .f32 0x3727C5AC#32)
          (rd2 (V c main_arg0 : S50000x96.Idx → EReal)) n j := by
  rw [(dat3 (F := Ideal) V c).arrAt_eq_of_cover 6 (G3 V c) (fun t _ => flushed3_eq V c t) cover3]
  rfl

end Cert.KernelIdeal.NodeValue

end
-- ==== Proof.KFinal.lean ====
/-
  The idealized kernel program's two results as the reference's named stages of the arguments: the last two regions
  normalise the edge feature and the aggregated node feature with the column statistics the host stretches computed,
  and those are, entry by entry, the reference's.
-/
import proofs.«157719_j687194767630_1_alg».proof.Proof.KPass
import proofs.«157719_j687194767630_1_alg».proof.Proof.KPass2
import proofs.«157719_j687194767630_1_alg».proof.Proof.KPass2Stats
import proofs.«157719_j687194767630_1_alg».proof.Proof.KEdgeW
import proofs.«157719_j687194767630_1_alg».proof.Proof.KChain1
import proofs.«157719_j687194767630_1_alg».proof.Proof.NodeBlocksEdge
import proofs.«157719_j687194767630_1_alg».proof.Proof.NodeBlocksNode

set_option maxRecDepth 16384

noncomputable section

namespace Cert.KChain

open Cert.KernelIdeal Cert.KernelIdeal.Gen Idealize.ShloMosaic Idealize.ShloMosaic.TcCoe Idealize.SL.Sem
open Idealize.ShloMosaic.StableHlo Idealize.ShloMosaic.ValueIdx

/-- Normalisation with equal statistics, scale, shift and residual gives equal results. -/
theorem bnOut_congr {ι κ : Type} {h h' : ι → κ → EReal} {mu mu' var var' g g' b b' : κ → EReal} {eps : EReal}
    {res res' : ι → κ → EReal} (hh : h = h') (hmu : mu = mu') (hvar : var = var') (hg : g = g') (hb : b = b')
    (hres : res = res') (e : ι) (j : κ) :
    Cert.Spec.bnOut h mu var g b eps res e j = Cert.Spec.bnOut h' mu' var' g' b' eps res' e j := by
  subst hh hmu hvar hg hb hres; rfl

variable [Cert.KernelIdeal.Facts] [Cert.ReferenceIdeal.Facts]
variable (m : (ℓ : Loc nD τ sig) → Buf (Elt Ideal) ℓ) (ρ : Dev nD → PrngReg)

/-- The normalised edge weights at the second region's entry are the reference's. -/
theorem W9_norm (c : Dev nD) :
    (W9 m ρ c (Proc.devRef .tc main_v57) : S800000.Idx → EReal)
      = Cert.RefSpec.normR (F := Ideal) (Cert.RefSpec.w1R (F := Ideal) (Cert.RefSpec.featOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)))
          (Cert.RefSpec.srcOf (m ((c.tc : Thread nD τ).loc main_arg1))) (Cert.RefSpec.dstOf (m ((c.tc : Thread nD τ).loc main_arg1))) := by
  rw [W9_v57 m ρ c, W2_w m ρ c, W2_v1 m ρ c, W2_v3 m ρ c]

/-- The aggregated node feature is the reference's. -/
theorem aggK_eq (c : Dev nD) : aggK m ρ c = (Cert.RefSpec.aggOf (F := Ideal) (Cert.RefSpec.featOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11))) := by
  show Cert.RefSpec.aggR (F := Ideal) _ _ _ _ _ = _
  rw [W10_xw m ρ c, W10_v57 m ρ c, W9_norm m ρ c, W10_v1 m ρ c, W10_v3 m ρ c, W10_arg11 m ρ c]
  rfl

/-- The second result: the normalised edge feature plus edge_attr. -/
theorem out_edge (c : Dev nD) :
    (W14 m ρ c (Proc.devRef .tc main_v80) : S800000x64.Idx → EReal)
      = Cert.RefSpec.outEdge (F := Ideal) (Cert.RefSpec.featOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg3)) (m ((c.tc : Thread nD τ).loc main_arg12)) (m ((c.tc : Thread nD τ).loc main_arg13)) := by
  funext i
  obtain ⟨e, o, rfl⟩ : ∃ (e : Fin 800000) (o : Fin 64), i = ix2 e o := ⟨i 0, i 1, eq_ix2 i⟩
  rw [W14_v80 m ρ c]
  refine (congrFun (W13_arr m ρ c 6) (ix2 e o)).trans ?_
  rw [Cert.KernelIdeal.NodeValue.edge_out_value (V12 m ρ) c e o]
  unfold Cert.RefSpec.outEdge
  rw [Cert.RefIdx.bnR64_apply]
  refine bnOut_congr ?_ ?_ ?_ ?_ ?_ ?_ e o
  · funext e' o'
    exact congrFun ((W12_v25_0 m ρ c).trans (W2_feat m ρ c)) (ix2 e' o')
  · funext q
    exact (congrFun (W12_v29 m ρ c) (ix2 (0 : Fin 1) q)).trans
      ((Cert.KStats.meanK64_apply _ q).trans (by rw [W2_feat m ρ c]))
  · funext q
    exact (congrFun (W12_v30 m ρ c) (ix2 (0 : Fin 1) q)).trans
      ((Cert.KStats.varK64_apply _ q).trans (by rw [W2_feat m ρ c]))
  · funext q; exact W12_v21 m ρ c q
  · funext q; exact W12_v22 m ρ c q
  · funext e' o'
    exact congrFun (W12_arg3 m ρ c) (ix2 e' o')

/-- The first result: the normalised aggregated node feature plus x. -/
theorem out_node (c : Dev nD) :
    (W14 m ρ c (Proc.devRef .tc main_v81) : S50000x96.Idx → EReal)
      = Cert.RefSpec.outNode (F := Ideal) (Cert.RefSpec.aggOf (F := Ideal) (Cert.RefSpec.featOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg0)) (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg0)) (m ((c.tc : Thread nD τ).loc main_arg14)) (m ((c.tc : Thread nD τ).loc main_arg15)) := by
  funext i
  obtain ⟨n, j, rfl⟩ : ∃ (n : Fin 50000) (j : Fin 96), i = ix2 n j := ⟨i 0, i 1, eq_ix2 i⟩
  refine (congrFun (W14_arr m ρ c 6) (ix2 n j)).trans ?_
  rw [Cert.KernelIdeal.NodeValue.node_out_value (V13 m ρ) c n j]
  unfold Cert.RefSpec.outNode
  rw [Cert.RefIdx.bnR96_apply]
  refine bnOut_congr ?_ ?_ ?_ ?_ ?_ ?_ n j
  · funext n' j'
    exact congrFun ((W13_v74 m ρ c).trans (aggK_eq m ρ c)) (ix2 n' j')
  · funext q
    exact (congrFun (W13_v78 m ρ c) (ix2 (0 : Fin 1) q)).trans
      ((Cert.KStats.meanK96_apply _ q).trans (by rw [aggK_eq m ρ c]))
  · funext q
    exact (congrFun (W13_v79 m ρ c) (ix2 (0 : Fin 1) q)).trans
      ((Cert.KStats.varK96_apply _ q).trans (by rw [aggK_eq m ρ c]))
  · funext q; exact W13_v23 m ρ c q
  · funext q; exact W13_v24 m ρ c q
  · funext n' j'
    exact congrFun (W13_arg0 m ρ c) (ix2 n' j')

end Cert.KChain

end
-- ==== Proof.lean ====
/-
  A graph-network block: per edge, a linear map of the difference of the endpoint rows of x, concatenated with the
  edge's two feature rows and mapped linearly again (the edge feature), a one-unit relu head on it (the edge weight);
  per node, the weights summed into their targets (the degree), the symmetric normalisation d⁻¹ᐟ²·w·d⁻¹ᐟ², the
  projected source rows scaled by it and summed into their targets plus a bias (the aggregated feature); then both
  features are normalised by their column mean and variance, scaled, shifted, passed through relu and added to the
  residual.

  The kernel program computes the four dense stages — the edge feature and weight, the node projection, the two
  normalisations — in four grid kernels over blocks of rows, and everything indexed by the edges' endpoints, and the
  column statistics, by the same host operations as the reference. At the exact instance (floats are extended reals,
  format changes the identity) the two programs agree entry by entry:

  * each grid kernel's output array is, row by row, the coordinate formula of `Proof/Spec.lean` of its input arrays
    (a block's rows are rows of the array, a matrix product against a transposed weight is the sum over the contracted
    coordinate, the blocks cover the array): `Proof/EdgeBlock*.lean`, `Proof/NodeBlocks*.lean`;
  * the reference's corresponding host stages are the same formulas (`Proof/RefIdx.lean`), and its run ends with the
    two results at the composition of its named stages (`Proof/RefSpec.lean`, `Proof/RefRun*.lean`);
  * between the kernels, the kernel program's host stretches are the reference's stages verbatim, except that the column
    statistics are kept as a [1, C] row, which reads entry by entry as the vector (`Proof/KStats.lean`); following the
    buffers from one segment boundary to the next (`Proof/KChain*.lean`, `Proof/KPass*.lean`, `Proof/KEdge*.lean`)
    gives both results as the reference's stages of the arguments (`Proof/KFinal.lean`).

  The finiteness precondition is not used by the value claim (the hypothesis is discarded). The three frames are the
  generated frame certificates and the reference's run; the idealization's ledger is empty (`preserves` is `True`).
-/
import proofs.«157719_j687194767630_1_alg».proof.Defs
import proofs.«157719_j687194767630_1_alg».proof.Proof.Assemble
import proofs.«157719_j687194767630_1_alg».proof.Proof.KFinal

noncomputable section

namespace Cert.Proof

theorem claim : Cert.Claim :=
  Cert.Proof.Assemble.claim_of (fun m ρ c => Cert.KChain.out_node m ρ c) (fun m ρ c => Cert.KChain.out_edge m ρ c)

end Cert.Proof

end
